-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  IdealRules.truncf_extf.Statement Cert.KernelIdeal.S1024x1024 .f32 .bf16

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x1024 : Shape := ⟨3, ![4, 2048, 1024]⟩
abbrev S4x1x2048 : Shape := ⟨3, ![4, 1, 2048]⟩
abbrev S_ : Shape := ⟨0, ![]⟩

class Facts : Prop where
  bcast_S_S4x2048x1024 : S_.BroadcastsInDim S4x2048x1024 (![] : Fin 0 → Fin S4x2048x1024.rank)
  reducesTo_S4x2048x1024_S_d0_1_2 : S4x2048x1024.ReducesTo [0, 1, 2] S_
  h_S_ : 0 < S_.numel
  bcast_S_S4x1x2048 : S_.BroadcastsInDim S4x1x2048 (![] : Fin 0 → Fin S4x1x2048.rank)
  reducesTo_S4x1x2048_S_d0_1_2 : S4x1x2048.ReducesTo [0, 1, 2] S_

variable [Facts]

def fn {F : FTy → Type} [FloatOps F] (main_arg0 : FVec F S4x2048x1024 .f32) (main_arg1 : FVec F S4x1x2048 .f32) : IVec S_ 1 :=
  let main_v0 : FVec F S4x2048x1024 .f32 := Host.absf main_arg0
  let main_cst : FVec F S_ .f32 := constant S_ .f32 0x7F800000#32
  let main_v1 : FVec F S4x2048x1024 .f32 := broadcastInDim S4x2048x1024 ![] bcast_S_S4x2048x1024 main_cst
  let main_v2 : IVec S4x2048x1024 1 := cmpf .olt main_v0 main_v1
  let main_c : IVec S_ 1 := constantI S_ 1 1#1
  let main_v3 : IVec S_ 1 := (fun x v => Host.reduce IntOp.andi x v reducesTo_S4x2048x1024_S_d0_1_2 h_S_) main_v2 main_c
  let main_v4 : FVec F S4x1x2048 .f32 := Host.absf main_arg1
  let main_cst_0 : FVec F S_ .f32 := constant S_ .f32 0x7F800000#32
  let main_v5 : FVec F S4x1x2048 .f32 := broadcastInDim S4x1x2048 ![] bcast_S_S4x1x2048 main_cst_0
  let main_v6 : IVec S4x1x2048 1 := cmpf .olt main_v4 main_v5
  let main_c_1 : IVec S_ 1 := constantI S_ 1 1#1
  let main_v7 : IVec S_ 1 := (fun x v => Host.reduce IntOp.andi x v reducesTo_S4x1x2048_S_d0_1_2 h_S_) main_v6 main_c_1
  let main_v8 : IVec S_ 1 := andi main_v3 main_v7
  main_v8
-- ==== Kernel.lean ====
abbrev S4x2048x1024 : Shape := ⟨3, ![4, 2048, 1024]⟩
abbrev S4x1x2048 : Shape := ⟨3, ![4, 1, 2048]⟩
abbrev S1x1024x1024 : Shape := ⟨3, ![1, 1024, 1024]⟩
abbrev S1x1x1024 : Shape := ⟨3, ![1, 1, 1024]⟩
abbrev S1024x1 : Shape := ⟨2, ![1024, 1]⟩
abbrev S1024x1024 : Shape := ⟨2, ![1024, 1024]⟩
abbrev S1x1024 : Shape := ⟨2, ![1, 1024]⟩
abbrev S1024 : Shape := ⟨1, ![1024]⟩

abbrev nBuf : Space → Nat
  | .hbm => 4
  | .vmem => 11
  | .smem => 0
  | _ => 0

abbrev bufTy : (tb : Table) → Fin (tcTables nBuf tb) → BufTy
  | .hbm, ⟨0, _⟩ => ⟨S4x2048x1024, .f32⟩
  | .hbm, ⟨1, _⟩ => ⟨S4x1x2048, .f32⟩
  | .hbm, ⟨2, _⟩ => ⟨S4x2048x1024, .bf16⟩
  | .hbm, ⟨3, _⟩ => ⟨S4x2048x1024, .f32⟩
  | .local _ .vmem, ⟨0, _⟩ => ⟨S1x1024x1024, .bf16⟩
  | .local _ .vmem, ⟨1, _⟩ => ⟨S1x1024x1024, .bf16⟩
  | .local _ .vmem, ⟨2, _⟩ => ⟨S1x1024x1024, .bf16⟩
  | .local _ .vmem, ⟨3, _⟩ => ⟨S1x1024x1024, .bf16⟩
  | .local _ .vmem, ⟨4, _⟩ => ⟨S1x1x1024, .f32⟩
  | .local _ .vmem, ⟨5, _⟩ => ⟨S1x1x1024, .f32⟩
  | .local _ .vmem, ⟨6, _⟩ => ⟨S1x1024x1024, .f32⟩
  | .local _ .vmem, ⟨7, _⟩ => ⟨S1x1024x1024, .f32⟩
  | .local _ .vmem, ⟨8, _⟩ => ⟨S1024x1, .f32⟩
  | .local _ .vmem, ⟨9, _⟩ => ⟨S1024x1, .f32⟩
  | .local _ .vmem, ⟨10, _⟩ => ⟨S1024x1024, .f32⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 2, 2], ![false, false, false]⟩

def k0_cond2 (i : grid0.Coords) : BitVec 1 :=
  let arg2 : BitVec 32 := BitVec.ofNat 32 (i 2).val
  let c1_i32 : BitVec 32 := 1#32
  let v44 : BitVec 1 := Scalar.cmpi .eq arg2 c1_i32
  let v45 : BitVec 32 := Scalar.extui v44
  let c0_i32_25 : BitVec 32 := 0#32
  let v46 : BitVec 1 := Scalar.cmpi .ne v45 c0_i32_25
  v46

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S1x1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 2 → Memref sig .tc .vmem S1x1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

class Facts₀ : Prop where
  bitsLt_bf16_f32 : FTy.bits .bf16 < FTy.bits .f32
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024x1024_S1x1024x1024_0_0_0 : ∀ a, (![0, 0, 0] : Fin 3 → Nat) a + S1x1024x1024.size a ≤ S1x1024x1024.size a
  h_S1x1024x1024 : 0 < S1x1024x1024.numel
  shapeCasts_S1x1024x1024_S1024x1024 : S1x1024x1024.ShapeCasts S1024x1024
  inb_S1x1x1024_S1x1x1024_0_0_0 : ∀ a, (![0, 0, 0] : Fin 3 → Nat) a + S1x1x1024.size a ≤ S1x1x1024.size a
  h_S1x1x1024 : 0 < S1x1x1024.numel
  shapeCasts_S1x1x1024_S1x1024 : S1x1x1024.ShapeCasts S1x1024
  broadcasts_S1x1024_S1024x1024 : S1x1024.Broadcasts S1024x1024
  reduces_S1024x1024_S1024 : S1024x1024.Reduces [1] S1024
  shapeCasts_S1024_S1024x1 : S1024.ShapeCasts S1024x1
  broadcasts_S1024x1_S1024x1024 : S1024x1.Broadcasts S1024x1024
  shapeCasts_S1024x1024_S1x1024x1024 : S1024x1024.ShapeCasts S1x1024x1024
  dot_S1024x1024_S1024x1024_S1024x1024_1_1_0_0_n_n_wf : DotDims.WF S1024x1024 S1024x1024 S1024x1024 [1] [1] [0] [0] [] []
  dot_S1024x1024_S1024x1024_S1024x1024_1_0_0_1_n_n_wf : DotDims.WF S1024x1024 S1024x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x1024.size a ≤ S4x2048x1024.size a
  hwx0_0 : ∀ i : grid0.Coords, EltTy.bits .bf16 = 32 ∨ (Rect.block (s := S4x2048x1024) S1x1024x1024.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1024x1024.size a ≤ S4x2048x1024.size a
  hwx0_1 : ∀ i : grid0.Coords, EltTy.bits .bf16 = 32 ∨ (Rect.block (s := S4x2048x1024) S1x1024x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x1024.size a ≤ S4x1x2048.size a
  hwx0_2 : ∀ i : grid0.Coords, EltTy.bits .f32 = 32 ∨ (Rect.block (s := S4x1x2048) S1x1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024x1024.size a ≤ S4x2048x1024.size a
  hwx0_3 : ∀ i : grid0.Coords, EltTy.bits .f32 = 32 ∨ (Rect.block (s := S4x2048x1024) S1x1024x1024.size (cc0_transform_3 i) (hinb0_3 i)).WholeWords (EltTy.packing .f32)

variable [Facts₀]

def dot_S1024x1024_S1024x1024_S1024x1024_1_1_0_0_n_n : DotDims S1024x1024 S1024x1024 S1024x1024 where
  lhsContracting := [1]
  rhsContracting := [1]
  lhsNonContracting := [0]
  rhsNonContracting := [0]
  lhsBatch := []
  rhsBatch := []
  wf := dot_S1024x1024_S1024x1024_S1024x1024_1_1_0_0_n_n_wf
def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf

abbrev win0_0 : Pipeline.Window sig grid0 :=
  Pipeline.Window.ofSpec (Memref.whole main_v0) S1x1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S1x1x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1x1024x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S4x2048x1024 : Shape := ⟨3, ![4, 2048, 1024]⟩
abbrev S4x1x2048 : Shape := ⟨3, ![4, 1, 2048]⟩
abbrev S_ : Shape := ⟨0, ![]⟩
abbrev S4x2048x2048 : Shape := ⟨3, ![4, 2048, 2048]⟩
abbrev S4x2048 : Shape := ⟨2, ![4, 2048]⟩
abbrev S4x2048x1 : Shape := ⟨3, ![4, 2048, 1]⟩

abbrev nBuf : Space → Nat
  | .hbm => 26
  | .vmem => 0
  | .smem => 0
  | _ => 0

abbrev bufTy : (tb : Table) → Fin (tcTables nBuf tb) → BufTy
  | .hbm, ⟨0, _⟩ => ⟨S4x2048x1024, .f32⟩
  | .hbm, ⟨1, _⟩ => ⟨S4x1x2048, .f32⟩
  | .hbm, ⟨2, _⟩ => ⟨S_, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S4x2048x2048, .f32⟩
  | .hbm, ⟨7, _⟩ => ⟨S4x2048x2048, .f32⟩
  | .hbm, ⟨8, _⟩ => ⟨S4x2048x2048, .f32⟩
  | .hbm, ⟨9, _⟩ => ⟨S4x2048x2048, .f32⟩
  | .hbm, ⟨10, _⟩ => ⟨S4x2048x2048, .f32⟩
  | .hbm, ⟨11, _⟩ => ⟨S_, .f32⟩
  | .hbm, ⟨12, _⟩ => ⟨S4x2048, .f32⟩
  | .hbm, ⟨13, _⟩ => ⟨S_, .f32⟩
  | .hbm, ⟨14, _⟩ => ⟨S4x2048, .f32⟩
  | .hbm, ⟨15, _⟩ => ⟨S4x2048, .f32⟩
  | .hbm, ⟨16, _⟩ => ⟨S4x2048x1, .f32⟩
  | .hbm, ⟨17, _⟩ => ⟨S4x2048x2048, .f32⟩
  | .hbm, ⟨18, _⟩ => ⟨S4x2048x2048, .f32⟩
  | .hbm, ⟨19, _⟩ => ⟨S4x2048x2048, .f32⟩
  | .hbm, ⟨20, _⟩ => ⟨S_, .f32⟩
  | .hbm, ⟨21, _⟩ => ⟨S4x2048, .f32⟩
  | .hbm, ⟨22, _⟩ => ⟨S4x2048x1, .f32⟩
  | .hbm, ⟨23, _⟩ => ⟨S4x2048x2048, .f32⟩
  | .hbm, ⟨24, _⟩ => ⟨S4x2048x2048, .f32⟩
  | .hbm, ⟨25, _⟩ => ⟨S4x2048x1024, .f32⟩
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_cst_0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev main_cst_2 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_3 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩

abbrev nD : Nat := 1
abbrev τ : Topo := Topo.v7x

variable {F : FTy → Type} [FloatOps F]

class Facts₀ : Prop where
  bcast_S_S4x2048x2048 : S_.BroadcastsInDim S4x2048x2048 (![] : Fin 0 → Fin S4x2048x2048.rank)
  bcast_S4x1x2048_S4x2048x2048_0_1_2 : S4x1x2048.BroadcastsInDim S4x2048x2048 (![0, 1, 2] : Fin 3 → Fin S4x2048x2048.rank)
  reducesTo_S4x2048x2048_S4x2048_d2 : S4x2048x2048.ReducesTo [2] S4x2048
  h_S_ : 0 < S_.numel
  bcast_S_S4x2048 : S_.BroadcastsInDim S4x2048 (![] : Fin 0 → Fin S4x2048.rank)
  bcast_S4x2048_S4x2048x1_0_1 : S4x2048.BroadcastsInDim S4x2048x1 (![0, 1] : Fin 2 → Fin S4x2048x1.rank)
  bcast_S4x2048x1_S4x2048x2048_0_1_2 : S4x2048x1.BroadcastsInDim S4x2048x2048 (![0, 1, 2] : Fin 3 → Fin S4x2048x2048.rank)
  dot_S4x2048x1024_S4x2048x1024_S4x2048x2048_2_2_1_1_0_0_wf : DotDims.WF S4x2048x1024 S4x2048x1024 S4x2048x2048 [2] [2] [1] [1] [0] [0]
  dot_S4x2048x2048_S4x2048x1024_S4x2048x1024_2_1_1_2_0_0_wf : DotDims.WF S4x2048x2048 S4x2048x1024 S4x2048x1024 [2] [1] [1] [2] [0] [0]

variable [Facts₀]

def dot_S4x2048x1024_S4x2048x1024_S4x2048x2048_2_2_1_1_0_0 : DotDims S4x2048x1024 S4x2048x1024 S4x2048x2048 where
  lhsContracting := [2]
  rhsContracting := [2]
  lhsNonContracting := [1]
  rhsNonContracting := [1]
  lhsBatch := [0]
  rhsBatch := [0]
  wf := dot_S4x2048x1024_S4x2048x1024_S4x2048x2048_2_2_1_1_0_0_wf
def dot_S4x2048x2048_S4x2048x1024_S4x2048x1024_2_1_1_2_0_0 : DotDims S4x2048x2048 S4x2048x1024 S4x2048x1024 where
  lhsContracting := [2]
  rhsContracting := [1]
  lhsNonContracting := [1]
  rhsNonContracting := [2]
  lhsBatch := [0]
  rhsBatch := [0]
  wf := dot_S4x2048x2048_S4x2048x1024_S4x2048x1024_2_1_1_2_0_0_wf

class Facts : Prop extends Facts₀ where

variable [Facts]
-- ==== Proof.WordShared.lean ====
/-
  The attention kernel visits, for each batch and each tile of 1024 query rows, the two tiles of 1024 key rows in
  turn. At the FIRST key tile (even grid points) it resets its three running statistics — the row maxima, the row
  denominators and the row numerators, kept in three scratch buffers — and absorbs the tile; at the SECOND (odd
  grid points) it absorbs the tile into what the first left and writes numerator / denominator to the output block.
  This module fixes what both kinds of point share: the arrays as the region finds them (the query/key array is the
  host's conversion of the first argument, handed to the region twice), each window's block at a point, the two
  branch conditions decided over the grid, where the output window is idle, and the scratch buffers as memrefs.
-/
import proofs.«128248_j38302518345838_2_alg».proof.Proof.Gen.Kernel.Launch
import proofs.«128248_j38302518345838_2_alg».proof.Proof.Gen.Kernel.Skeleton
import proofs.«128248_j38302518345838_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Tiles

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays when the region is entered -/

/-- Core `c`'s buffers when the region is entered: the launch contents after the one host conversion. -/
abbrev V (c : Dev nD) (b : Ref sig .tc) : Buf (Elt F) ((c : Thread nD τ).loc b) :=
  StableHlo.after hostOps0 (fun b => m (c, b)) (Proc.devRef .tc b)

theorem hostOps0_fresh : (hostOps0 : List (HloOp τ sig (Elt F))).Forall fun op => op.fresh = ∅ := by
  simp only [List.Forall]; repeat' constructor

/-- @main is the conversion, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- The conversion writes its own result only: both arguments are as launched. -/
theorem V_main_arg0 (c : Dev nD) : V m c main_arg0 = m ((c : Thread nD τ).loc main_arg0) := by
  dsimp only [V, hostOps0]; after_results
theorem V_main_arg1 (c : Dev nD) : V m c main_arg1 = m ((c : Thread nD τ).loc main_arg1) := by
  dsimp only [V, hostOps0]; after_results

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every point, fetched there or not. -/
theorem before0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The two branch conditions, over the grid -/

/-- "This is the first key tile": the reset branch is taken. -/
abbrev isFirst (i : grid0.Coords) : Prop := (Scalar.cmpi .ne (Scalar.extui (Scalar.cmpi .eq (BitVec.ofNat 32 (i 2).val) 0#32)) 0#32) = 1#1
/-- It holds at the even points. -/
theorem isFirst_iff : ∀ t : Fin cfg0.N, isFirst (grid0.coords t) ↔ t.val % 2 = 0 :=
  (by decide +kernel : ∀ t : Fin grid0.N, isFirst (grid0.coords t) ↔ t.val % 2 = 0)

/-- "This is the last key tile": the output is written. -/
abbrev isLast (i : grid0.Coords) : Prop := k0_cond2 i = 1#1
/-- It holds at the odd points. -/
theorem isLast_iff : ∀ t : Fin cfg0.N, isLast (grid0.coords t) ↔ t.val % 2 = 1 :=
  (by decide +kernel : ∀ t : Fin grid0.N, isLast (grid0.coords t) ↔ t.val % 2 = 1)

/-! ## Where the windows are idle -/

theorem live0 : ∀ t : Fin cfg0.N, cfg0.idle 0 (grid0.coords t) = false := by decide +kernel
theorem live1 : ∀ t : Fin cfg0.N, cfg0.idle 1 (grid0.coords t) = false := by decide +kernel
theorem live2 : ∀ t : Fin cfg0.N, cfg0.idle 2 (grid0.coords t) = false := by decide +kernel
/-- At a first key tile nothing is stored into the output block, -/
theorem idle3_first : ∀ t : Fin cfg0.N, isFirst (grid0.coords t) → ¬isLast (grid0.coords t) → cfg0.idle 3 (grid0.coords t) = true := by decide +kernel
/-- and the block is not written back there. -/
theorem noFlush3_first : ∀ t : Fin cfg0.N, isFirst (grid0.coords t) → ¬isLast (grid0.coords t) → (cfg0.win 3).flush t = false := by decide +kernel
/-- At a last key tile the output block is stored. -/
theorem live3_last : ∀ t : Fin cfg0.N, ¬isFirst (grid0.coords t) → isLast (grid0.coords t) → cfg0.idle 3 (grid0.coords t) = false := by decide +kernel

/-! ## The memrefs the body is called with -/

abbrev msQ (t : Fin cfg0.N) : Memref sig .tc .vmem S1x1024x1024 .bf16 := win0_0.stage (cfg0.slots t 0)
abbrev hsQ (t : Fin cfg0.N) : (msQ t).IsWhole := hstage0_0 ((cfg0.slots t 0).cast nbuf0_0)
abbrev msK (t : Fin cfg0.N) : Memref sig .tc .vmem S1x1024x1024 .bf16 := win0_1.stage (cfg0.slots t 1)
abbrev hsK (t : Fin cfg0.N) : (msK t).IsWhole := hstage0_1 ((cfg0.slots t 1).cast nbuf0_1)
abbrev msM (t : Fin cfg0.N) : Memref sig .tc .vmem S1x1x1024 .f32 := win0_2.stage (cfg0.slots t 2)
abbrev hsM (t : Fin cfg0.N) : (msM t).IsWhole := hstage0_2 ((cfg0.slots t 2).cast nbuf0_2)
abbrev msO (t : Fin cfg0.N) : Memref sig .tc .vmem S1x1024x1024 .f32 := win0_3.stage (cfg0.slots t 3)
abbrev hsO (t : Fin cfg0.N) : (msO t).IsWhole := hstage0_3 ((cfg0.slots t 3).cast nbuf0_3)
/-- The running row maxima, row denominators and row numerators. -/
abbrev scMax : Memref sig .tc .vmem S1024x1 .f32 := Memref.whole cc0_scratch0
abbrev scDen : Memref sig .tc .vmem S1024x1 .f32 := Memref.whole cc0_scratch1
abbrev scNum : Memref sig .tc .vmem S1024x1024 .f32 := Memref.whole cc0_scratch2
/-- One staging buffer of the output window, and the scratch buffers, as views to state contents through. -/
abbrev VO : View sig .tc .vmem S1x1024x1024 .f32 := (Memref.whole cc0_stg3_0 : Memref sig .tc .vmem S1x1024x1024 .f32).view
abbrev VMax : View sig .tc .vmem S1024x1 .f32 := scMax.view
abbrev VDen : View sig .tc .vmem S1024x1 .f32 := scDen.view
abbrev VNum : View sig .tc .vmem S1024x1024 .f32 := scNum.view

/-- Before the first point the region owns the three scratch buffers at some contents, and the generator register. -/
theorem PhiA_eq (c : Dev nD) :
    (Pipeline.ΦA spec0 c : sProp 𝕄)
      = iprop(iprop((∃ d, owns (c : Thread nD τ) scMax fullShare d) ∗ (∃ d, owns (c : Thread nD τ) scDen fullShare d) ∗ (∃ d, owns (c : Thread nD τ) scNum fullShare d)) ∗ (∃ r, prngReg c r)) := by
  unfold Pipeline.ΦA; rw [scopedRest0_eq]; simp only [scMax, scDen, scNum, owns_whole]; try rfl

end Cert.Kernel.Tiles

end
-- ==== Proof.WordTileFirst.lean ====
/-
  The body at a FIRST key tile. On whole staging memrefs holding the query block, the key block and the mask
  block, the output buffer at any contents (it is handed back untouched) and the three scratch buffers at any
  contents, the body resets the scratch buffers, absorbs the tile, and ends with each scratch buffer overwritten by
  the pieces the run finds.
-/
import proofs.«128248_j38302518345838_2_alg».proof.Proof.WordShared

set_option maxRecDepth 16384

noncomputable section

namespace Cert.Kernel.Tiles

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The pieces each scratch buffer ends with at a first key tile, with the proof that the body runs to them. -/
noncomputable def runFirst (c : Dev nD) (i : grid0.Coords) (arg3 : Memref sig .tc .vmem S1x1024x1024 .bf16) (harg3 : arg3.IsWhole) (arg4 : Memref sig .tc .vmem S1x1024x1024 .bf16) (harg4 : arg4.IsWhole) (arg5 : Memref sig .tc .vmem S1x1x1024 .f32) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc1 : isFirst i) (hc2 : ¬isLast i)
    (xq : Vec F S1x1024x1024 .bf16) (xk : Vec F S1x1024x1024 .bf16) (xm : Vec F S1x1x1024 .f32) :
    Σ' (LO : List (View.Piece (Elt F) S1x1024x1024 .f32)) (LMax : List (View.Piece (Elt F) S1024x1 .f32)) (LDen : List (View.Piece (Elt F) S1024x1 .f32)), { LNum : List (View.Piece (Elt F) S1024x1024 .f32) //
      ∀ (xo : Vec F S1x1024x1024 .f32) (E : Set ℕ) (K : PUnit → sProp 𝕄),
        iprop(owns (c : Thread nD τ) arg3 fullShare xq ∗ owns (c : Thread nD τ) arg4 fullShare xk ∗ owns (c : Thread nD τ) arg5 fullShare xm ∗ owns (c : Thread nD τ) arg6 fullShare xo
            ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg3 fullShare xq ∗ owns (c : Thread nD τ) arg4 fullShare xk ∗ owns (c : Thread nD τ) arg5 fullShare xm ∗ owns (c : Thread nD τ) arg6 fullShare xo
                ∗ (∃ f, arg7.view.loc (c : Thread nD τ) ↦[arg7.view.set]{fullShare} arg7.view.writes (Elt F) f LMax)
                ∗ (∃ f, arg8.view.loc (c : Thread nD τ) ↦[arg8.view.set]{fullShare} arg8.view.writes (Elt F) f LDen)
                ∗ (∃ f, arg9.view.loc (c : Thread nD τ) ↦[arg9.view.set]{fullShare} arg9.view.writes (Elt F) f LNum)) -∗ K ⟨⟩))
          ⊢ wp frame (wpE (defs₀ (F := F)) Variants.none c none) E (cc0__flash_attn_kernel i arg3 harg3 arg4 harg4 arg5 harg5 arg6 harg6 arg7 harg7 arg8 harg8 arg9 harg9) K } := by
  refine ⟨[], ?_, ?_, ?_, fun xo E K => ?run⟩
  case run =>
    simp only [cc0__flash_attn_kernel_eq_skeleton]; unfold cc0__flash_attn_kernel_skel
    simp only [k0_part1_eq_skeleton]
    unfold owns
    iintro ⟨⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, Hk⟩
    obtain rfl := harg3.eq_unread hf3; obtain rfl := harg4.eq_unread hf4; obtain rfl := harg5.eq_unread hf5; obtain rfl := harg6.eq_unread hf6
    sl_exec (disch := first | exact hc1 | exact hc2)
    sl_step
    iapply Hk
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; iexact H7
    isplitl [H8]
    · iexists _; iexact H8
    iexists _; iexact H9

end Cert.Kernel.Tiles

end
-- ==== Proof.WordTileLast.lean ====
/-
  The body at a LAST key tile. On whole staging memrefs holding the query block, the key block and the mask block,
  the three scratch buffers at what the first key tile left in them, and the output buffer at any contents, the body
  absorbs the tile into the running statistics and stores numerator / denominator into the output buffer; each of the
  four buffers ends overwritten by the pieces the run finds.
-/
import proofs.«128248_j38302518345838_2_alg».proof.Proof.WordTileFirst

set_option maxRecDepth 16384

noncomputable section

namespace Cert.Kernel.Tiles

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The pieces the output buffer and each scratch buffer end with at a last key tile, with the proof that the body
    runs to them from scratch contents `xmax`, `xden`, `xnum`. -/
noncomputable def runLast (c : Dev nD) (i : grid0.Coords) (arg3 : Memref sig .tc .vmem S1x1024x1024 .bf16) (harg3 : arg3.IsWhole) (arg4 : Memref sig .tc .vmem S1x1024x1024 .bf16) (harg4 : arg4.IsWhole) (arg5 : Memref sig .tc .vmem S1x1x1024 .f32) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc1 : ¬isFirst i) (hc2 : isLast i)
    (xq : Vec F S1x1024x1024 .bf16) (xk : Vec F S1x1024x1024 .bf16) (xm : Vec F S1x1x1024 .f32)
    (xmax : Vec F S1024x1 .f32) (xden : Vec F S1024x1 .f32) (xnum : Vec F S1024x1024 .f32) :
    Σ' (LO : List (View.Piece (Elt F) S1x1024x1024 .f32)) (LMax : List (View.Piece (Elt F) S1024x1 .f32)) (LDen : List (View.Piece (Elt F) S1024x1 .f32)), { LNum : List (View.Piece (Elt F) S1024x1024 .f32) //
      ∀ (E : Set ℕ) (K : PUnit → sProp 𝕄),
        iprop(owns (c : Thread nD τ) arg3 fullShare xq ∗ owns (c : Thread nD τ) arg4 fullShare xk ∗ owns (c : Thread nD τ) arg5 fullShare xm ∗ (∃ d, owns (c : Thread nD τ) arg6 fullShare d)
            ∗ owns (c : Thread nD τ) arg7 fullShare xmax ∗ owns (c : Thread nD τ) arg8 fullShare xden ∗ owns (c : Thread nD τ) arg9 fullShare xnum
            ∗ (iprop(owns (c : Thread nD τ) arg3 fullShare xq ∗ owns (c : Thread nD τ) arg4 fullShare xk ∗ owns (c : Thread nD τ) arg5 fullShare xm
                ∗ (∃ f, arg6.view.loc (c : Thread nD τ) ↦[arg6.view.set]{fullShare} arg6.view.writes (Elt F) f LO)
                ∗ (∃ f, arg7.view.loc (c : Thread nD τ) ↦[arg7.view.set]{fullShare} arg7.view.writes (Elt F) f LMax)
                ∗ (∃ f, arg8.view.loc (c : Thread nD τ) ↦[arg8.view.set]{fullShare} arg8.view.writes (Elt F) f LDen)
                ∗ (∃ f, arg9.view.loc (c : Thread nD τ) ↦[arg9.view.set]{fullShare} arg9.view.writes (Elt F) f LNum)) -∗ K ⟨⟩))
          ⊢ wp frame (wpE (defs₀ (F := F)) Variants.none c none) E (cc0__flash_attn_kernel i arg3 harg3 arg4 harg4 arg5 harg5 arg6 harg6 arg7 harg7 arg8 harg8 arg9 harg9) K } := by
  refine ⟨?_, ?_, ?_, ?_, fun E K => ?run⟩
  case run =>
    simp only [cc0__flash_attn_kernel_eq_skeleton]; unfold cc0__flash_attn_kernel_skel
    simp only [k0_part1_eq_skeleton]
    unfold owns
    iintro ⟨⟨%f3, %hf3, H3⟩, ⟨%f4, %hf4, H4⟩, ⟨%f5, %hf5, H5⟩, ⟨%d6, %f6, -, H6⟩, ⟨%f7, %hf7, H7⟩, ⟨%f8, %hf8, H8⟩, ⟨%f9, %hf9, H9⟩, Hk⟩
    obtain rfl := harg3.eq_unread hf3; obtain rfl := harg4.eq_unread hf4; obtain rfl := harg5.eq_unread hf5
    obtain rfl := harg7.eq_unread hf7; obtain rfl := harg8.eq_unread hf8; obtain rfl := harg9.eq_unread hf9
    sl_exec (disch := first | exact hc1 | exact hc2)
    sl_step
    iapply Hk
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; iexact H6
    isplitl [H7]
    · iexists _; iexact H7
    isplitl [H8]
    · iexists _; iexact H8
    iexists _; iexact H9

end Cert.Kernel.Tiles

end
-- ==== Proof.WordAccum.lean ====
/-
  What the four buffers the body writes — the output block and the running row maxima, denominators and numerators —
  hold after each grid point: at a first key tile what the reset-and-absorb leaves, at a last key tile what absorbing
  into the previous point's statistics leaves. From it, the invariant the region keeps between points and the
  pipeline's proof data. The query window and the key window are two windows on ONE array, so each holds half of it.
-/
import proofs.«128248_j38302518345838_2_alg».proof.Proof.WordTileLast

set_option maxRecDepth 16384

noncomputable section

namespace Cert.Kernel.Tiles

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each case leaves: its pieces read back -/

/-- A first key tile stores nothing into the output buffer: a placeholder nothing consults. -/
def oFirst (c : Dev nD) (i : grid0.Coords) (arg3 : Memref sig .tc .vmem S1x1024x1024 .bf16) (harg3 : arg3.IsWhole) (arg4 : Memref sig .tc .vmem S1x1024x1024 .bf16) (harg4 : arg4.IsWhole) (arg5 : Memref sig .tc .vmem S1x1x1024 .f32) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc1 : isFirst i) (hc2 : ¬isLast i) (xq : Vec F S1x1024x1024 .bf16) (xk : Vec F S1x1024x1024 .bf16) (xm : Vec F S1x1x1024 .f32) : Vec F S1x1024x1024 .f32 := VO.read (Elt F) (VO.writes (Elt F) VO.junk (runFirst c i arg3 harg3 arg4 harg4 arg5 harg5 arg6 harg6 arg7 harg7 arg8 harg8 arg9 harg9 hc1 hc2 xq xk xm).1)
theorem coverMaxFirst (c : Dev nD) (i : grid0.Coords) (arg3 : Memref sig .tc .vmem S1x1024x1024 .bf16) (harg3 : arg3.IsWhole) (arg4 : Memref sig .tc .vmem S1x1024x1024 .bf16) (harg4 : arg4.IsWhole) (arg5 : Memref sig .tc .vmem S1x1x1024 .f32) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc1 : isFirst i) (hc2 : ¬isLast i) (xq : Vec F S1x1024x1024 .bf16) (xk : Vec F S1x1024x1024 .bf16) (xm : Vec F S1x1x1024 .f32) (y : S1024x1.Idx) : ∃ pc ∈ (runFirst c i arg3 harg3 arg4 harg4 arg5 harg5 arg6 harg6 arg7 harg7 arg8 harg8 arg9 harg9 hc1 hc2 xq xk xm).2.1, y ∈ pc.1.set :=
  View.cover_of_tiledL (runFirst c i arg3 harg3 arg4 harg4 arg5 harg5 arg6 harg6 arg7 harg7 arg8 harg8 arg9 harg9 hc1 hc2 xq xk xm).2.1 S1024x1.size (by sl_kernel_rfl) y
/-- The row maxima after a first key tile. -/
def maxFirst (c : Dev nD) (i : grid0.Coords) (arg3 : Memref sig .tc .vmem S1x1024x1024 .bf16) (harg3 : arg3.IsWhole) (arg4 : Memref sig .tc .vmem S1x1024x1024 .bf16) (harg4 : arg4.IsWhole) (arg5 : Memref sig .tc .vmem S1x1x1024 .f32) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc1 : isFirst i) (hc2 : ¬isLast i) (xq : Vec F S1x1024x1024 .bf16) (xk : Vec F S1x1024x1024 .bf16) (xm : Vec F S1x1x1024 .f32) : Vec F S1024x1 .f32 := VMax.read (Elt F) (VMax.writes (Elt F) VMax.junk (runFirst c i arg3 harg3 arg4 harg4 arg5 harg5 arg6 harg6 arg7 harg7 arg8 harg8 arg9 harg9 hc1 hc2 xq xk xm).2.1)
theorem coverDenFirst (c : Dev nD) (i : grid0.Coords) (arg3 : Memref sig .tc .vmem S1x1024x1024 .bf16) (harg3 : arg3.IsWhole) (arg4 : Memref sig .tc .vmem S1x1024x1024 .bf16) (harg4 : arg4.IsWhole) (arg5 : Memref sig .tc .vmem S1x1x1024 .f32) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc1 : isFirst i) (hc2 : ¬isLast i) (xq : Vec F S1x1024x1024 .bf16) (xk : Vec F S1x1024x1024 .bf16) (xm : Vec F S1x1x1024 .f32) (y : S1024x1.Idx) : ∃ pc ∈ (runFirst c i arg3 harg3 arg4 harg4 arg5 harg5 arg6 harg6 arg7 harg7 arg8 harg8 arg9 harg9 hc1 hc2 xq xk xm).2.2.1, y ∈ pc.1.set :=
  View.cover_of_tiledL (runFirst c i arg3 harg3 arg4 harg4 arg5 harg5 arg6 harg6 arg7 harg7 arg8 harg8 arg9 harg9 hc1 hc2 xq xk xm).2.2.1 S1024x1.size (by sl_kernel_rfl) y
/-- The row denominators after a first key tile. -/
def denFirst (c : Dev nD) (i : grid0.Coords) (arg3 : Memref sig .tc .vmem S1x1024x1024 .bf16) (harg3 : arg3.IsWhole) (arg4 : Memref sig .tc .vmem S1x1024x1024 .bf16) (harg4 : arg4.IsWhole) (arg5 : Memref sig .tc .vmem S1x1x1024 .f32) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc1 : isFirst i) (hc2 : ¬isLast i) (xq : Vec F S1x1024x1024 .bf16) (xk : Vec F S1x1024x1024 .bf16) (xm : Vec F S1x1x1024 .f32) : Vec F S1024x1 .f32 := VDen.read (Elt F) (VDen.writes (Elt F) VDen.junk (runFirst c i arg3 harg3 arg4 harg4 arg5 harg5 arg6 harg6 arg7 harg7 arg8 harg8 arg9 harg9 hc1 hc2 xq xk xm).2.2.1)
theorem coverNumFirst (c : Dev nD) (i : grid0.Coords) (arg3 : Memref sig .tc .vmem S1x1024x1024 .bf16) (harg3 : arg3.IsWhole) (arg4 : Memref sig .tc .vmem S1x1024x1024 .bf16) (harg4 : arg4.IsWhole) (arg5 : Memref sig .tc .vmem S1x1x1024 .f32) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc1 : isFirst i) (hc2 : ¬isLast i) (xq : Vec F S1x1024x1024 .bf16) (xk : Vec F S1x1024x1024 .bf16) (xm : Vec F S1x1x1024 .f32) (y : S1024x1024.Idx) : ∃ pc ∈ (runFirst c i arg3 harg3 arg4 harg4 arg5 harg5 arg6 harg6 arg7 harg7 arg8 harg8 arg9 harg9 hc1 hc2 xq xk xm).2.2.2.1, y ∈ pc.1.set :=
  View.cover_of_tiledL (runFirst c i arg3 harg3 arg4 harg4 arg5 harg5 arg6 harg6 arg7 harg7 arg8 harg8 arg9 harg9 hc1 hc2 xq xk xm).2.2.2.1 S1024x1024.size (by sl_kernel_rfl) y
/-- The row numerators after a first key tile. -/
def numFirst (c : Dev nD) (i : grid0.Coords) (arg3 : Memref sig .tc .vmem S1x1024x1024 .bf16) (harg3 : arg3.IsWhole) (arg4 : Memref sig .tc .vmem S1x1024x1024 .bf16) (harg4 : arg4.IsWhole) (arg5 : Memref sig .tc .vmem S1x1x1024 .f32) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc1 : isFirst i) (hc2 : ¬isLast i) (xq : Vec F S1x1024x1024 .bf16) (xk : Vec F S1x1024x1024 .bf16) (xm : Vec F S1x1x1024 .f32) : Vec F S1024x1024 .f32 := VNum.read (Elt F) (VNum.writes (Elt F) VNum.junk (runFirst c i arg3 harg3 arg4 harg4 arg5 harg5 arg6 harg6 arg7 harg7 arg8 harg8 arg9 harg9 hc1 hc2 xq xk xm).2.2.2.1)

theorem coverOLast (c : Dev nD) (i : grid0.Coords) (arg3 : Memref sig .tc .vmem S1x1024x1024 .bf16) (harg3 : arg3.IsWhole) (arg4 : Memref sig .tc .vmem S1x1024x1024 .bf16) (harg4 : arg4.IsWhole) (arg5 : Memref sig .tc .vmem S1x1x1024 .f32) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc1 : ¬isFirst i) (hc2 : isLast i) (xq : Vec F S1x1024x1024 .bf16) (xk : Vec F S1x1024x1024 .bf16) (xm : Vec F S1x1x1024 .f32) (xmax : Vec F S1024x1 .f32) (xden : Vec F S1024x1 .f32) (xnum : Vec F S1024x1024 .f32) (y : S1x1024x1024.Idx) : ∃ pc ∈ (runLast c i arg3 harg3 arg4 harg4 arg5 harg5 arg6 harg6 arg7 harg7 arg8 harg8 arg9 harg9 hc1 hc2 xq xk xm xmax xden xnum).1, y ∈ pc.1.set :=
  View.cover_of_tiledL (runLast c i arg3 harg3 arg4 harg4 arg5 harg5 arg6 harg6 arg7 harg7 arg8 harg8 arg9 harg9 hc1 hc2 xq xk xm xmax xden xnum).1 S1x1024x1024.size (by sl_kernel_rfl) y
/-- The output block a last key tile stores. -/
def oLast (c : Dev nD) (i : grid0.Coords) (arg3 : Memref sig .tc .vmem S1x1024x1024 .bf16) (harg3 : arg3.IsWhole) (arg4 : Memref sig .tc .vmem S1x1024x1024 .bf16) (harg4 : arg4.IsWhole) (arg5 : Memref sig .tc .vmem S1x1x1024 .f32) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc1 : ¬isFirst i) (hc2 : isLast i) (xq : Vec F S1x1024x1024 .bf16) (xk : Vec F S1x1024x1024 .bf16) (xm : Vec F S1x1x1024 .f32) (xmax : Vec F S1024x1 .f32) (xden : Vec F S1024x1 .f32) (xnum : Vec F S1024x1024 .f32) : Vec F S1x1024x1024 .f32 := VO.read (Elt F) (VO.writes (Elt F) VO.junk (runLast c i arg3 harg3 arg4 harg4 arg5 harg5 arg6 harg6 arg7 harg7 arg8 harg8 arg9 harg9 hc1 hc2 xq xk xm xmax xden xnum).1)
theorem coverMaxLast (c : Dev nD) (i : grid0.Coords) (arg3 : Memref sig .tc .vmem S1x1024x1024 .bf16) (harg3 : arg3.IsWhole) (arg4 : Memref sig .tc .vmem S1x1024x1024 .bf16) (harg4 : arg4.IsWhole) (arg5 : Memref sig .tc .vmem S1x1x1024 .f32) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc1 : ¬isFirst i) (hc2 : isLast i) (xq : Vec F S1x1024x1024 .bf16) (xk : Vec F S1x1024x1024 .bf16) (xm : Vec F S1x1x1024 .f32) (xmax : Vec F S1024x1 .f32) (xden : Vec F S1024x1 .f32) (xnum : Vec F S1024x1024 .f32) (y : S1024x1.Idx) : ∃ pc ∈ (runLast c i arg3 harg3 arg4 harg4 arg5 harg5 arg6 harg6 arg7 harg7 arg8 harg8 arg9 harg9 hc1 hc2 xq xk xm xmax xden xnum).2.1, y ∈ pc.1.set :=
  View.cover_of_tiledL (runLast c i arg3 harg3 arg4 harg4 arg5 harg5 arg6 harg6 arg7 harg7 arg8 harg8 arg9 harg9 hc1 hc2 xq xk xm xmax xden xnum).2.1 S1024x1.size (by sl_kernel_rfl) y
/-- The row maxima after a last key tile. -/
def maxLast (c : Dev nD) (i : grid0.Coords) (arg3 : Memref sig .tc .vmem S1x1024x1024 .bf16) (harg3 : arg3.IsWhole) (arg4 : Memref sig .tc .vmem S1x1024x1024 .bf16) (harg4 : arg4.IsWhole) (arg5 : Memref sig .tc .vmem S1x1x1024 .f32) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc1 : ¬isFirst i) (hc2 : isLast i) (xq : Vec F S1x1024x1024 .bf16) (xk : Vec F S1x1024x1024 .bf16) (xm : Vec F S1x1x1024 .f32) (xmax : Vec F S1024x1 .f32) (xden : Vec F S1024x1 .f32) (xnum : Vec F S1024x1024 .f32) : Vec F S1024x1 .f32 := VMax.read (Elt F) (VMax.writes (Elt F) VMax.junk (runLast c i arg3 harg3 arg4 harg4 arg5 harg5 arg6 harg6 arg7 harg7 arg8 harg8 arg9 harg9 hc1 hc2 xq xk xm xmax xden xnum).2.1)
theorem coverDenLast (c : Dev nD) (i : grid0.Coords) (arg3 : Memref sig .tc .vmem S1x1024x1024 .bf16) (harg3 : arg3.IsWhole) (arg4 : Memref sig .tc .vmem S1x1024x1024 .bf16) (harg4 : arg4.IsWhole) (arg5 : Memref sig .tc .vmem S1x1x1024 .f32) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc1 : ¬isFirst i) (hc2 : isLast i) (xq : Vec F S1x1024x1024 .bf16) (xk : Vec F S1x1024x1024 .bf16) (xm : Vec F S1x1x1024 .f32) (xmax : Vec F S1024x1 .f32) (xden : Vec F S1024x1 .f32) (xnum : Vec F S1024x1024 .f32) (y : S1024x1.Idx) : ∃ pc ∈ (runLast c i arg3 harg3 arg4 harg4 arg5 harg5 arg6 harg6 arg7 harg7 arg8 harg8 arg9 harg9 hc1 hc2 xq xk xm xmax xden xnum).2.2.1, y ∈ pc.1.set :=
  View.cover_of_tiledL (runLast c i arg3 harg3 arg4 harg4 arg5 harg5 arg6 harg6 arg7 harg7 arg8 harg8 arg9 harg9 hc1 hc2 xq xk xm xmax xden xnum).2.2.1 S1024x1.size (by sl_kernel_rfl) y
/-- The row denominators after a last key tile. -/
def denLast (c : Dev nD) (i : grid0.Coords) (arg3 : Memref sig .tc .vmem S1x1024x1024 .bf16) (harg3 : arg3.IsWhole) (arg4 : Memref sig .tc .vmem S1x1024x1024 .bf16) (harg4 : arg4.IsWhole) (arg5 : Memref sig .tc .vmem S1x1x1024 .f32) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc1 : ¬isFirst i) (hc2 : isLast i) (xq : Vec F S1x1024x1024 .bf16) (xk : Vec F S1x1024x1024 .bf16) (xm : Vec F S1x1x1024 .f32) (xmax : Vec F S1024x1 .f32) (xden : Vec F S1024x1 .f32) (xnum : Vec F S1024x1024 .f32) : Vec F S1024x1 .f32 := VDen.read (Elt F) (VDen.writes (Elt F) VDen.junk (runLast c i arg3 harg3 arg4 harg4 arg5 harg5 arg6 harg6 arg7 harg7 arg8 harg8 arg9 harg9 hc1 hc2 xq xk xm xmax xden xnum).2.2.1)
theorem coverNumLast (c : Dev nD) (i : grid0.Coords) (arg3 : Memref sig .tc .vmem S1x1024x1024 .bf16) (harg3 : arg3.IsWhole) (arg4 : Memref sig .tc .vmem S1x1024x1024 .bf16) (harg4 : arg4.IsWhole) (arg5 : Memref sig .tc .vmem S1x1x1024 .f32) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc1 : ¬isFirst i) (hc2 : isLast i) (xq : Vec F S1x1024x1024 .bf16) (xk : Vec F S1x1024x1024 .bf16) (xm : Vec F S1x1x1024 .f32) (xmax : Vec F S1024x1 .f32) (xden : Vec F S1024x1 .f32) (xnum : Vec F S1024x1024 .f32) (y : S1024x1024.Idx) : ∃ pc ∈ (runLast c i arg3 harg3 arg4 harg4 arg5 harg5 arg6 harg6 arg7 harg7 arg8 harg8 arg9 harg9 hc1 hc2 xq xk xm xmax xden xnum).2.2.2.1, y ∈ pc.1.set :=
  View.cover_of_tiledL (runLast c i arg3 harg3 arg4 harg4 arg5 harg5 arg6 harg6 arg7 harg7 arg8 harg8 arg9 harg9 hc1 hc2 xq xk xm xmax xden xnum).2.2.2.1 S1024x1024.size (by sl_kernel_rfl) y
/-- The row numerators after a last key tile. -/
def numLast (c : Dev nD) (i : grid0.Coords) (arg3 : Memref sig .tc .vmem S1x1024x1024 .bf16) (harg3 : arg3.IsWhole) (arg4 : Memref sig .tc .vmem S1x1024x1024 .bf16) (harg4 : arg4.IsWhole) (arg5 : Memref sig .tc .vmem S1x1x1024 .f32) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc1 : ¬isFirst i) (hc2 : isLast i) (xq : Vec F S1x1024x1024 .bf16) (xk : Vec F S1x1024x1024 .bf16) (xm : Vec F S1x1x1024 .f32) (xmax : Vec F S1024x1 .f32) (xden : Vec F S1024x1 .f32) (xnum : Vec F S1024x1024 .f32) : Vec F S1024x1024 .f32 := VNum.read (Elt F) (VNum.writes (Elt F) VNum.junk (runLast c i arg3 harg3 arg4 harg4 arg5 harg5 arg6 harg6 arg7 harg7 arg8 harg8 arg9 harg9 hc1 hc2 xq xk xm xmax xden xnum).2.2.2.1)

/-! ## Point by point -/

/-- The output block, the row maxima, the row denominators and the row numerators. -/
abbrev Outs (F : FTy → Type) [FloatOps F] : Type := Vec F S1x1024x1024 .f32 × Vec F S1024x1 .f32 × Vec F S1024x1 .f32 × Vec F S1024x1024 .f32

theorem first_of (t : Fin cfg0.N) (h0 : t.val % 2 = 0) : isFirst (grid0.coords t) := (isFirst_iff t).mpr h0
theorem notLast_of (t : Fin cfg0.N) (h0 : t.val % 2 = 0) : ¬isLast (grid0.coords t) := fun h => Nat.zero_ne_one (h0.symm.trans ((isLast_iff t).mp h))
theorem notFirst_of (t : Fin cfg0.N) (h0 : ¬t.val % 2 = 0) : ¬isFirst (grid0.coords t) := fun h => h0 ((isFirst_iff t).mp h)
theorem last_of (t : Fin cfg0.N) (h0 : ¬t.val % 2 = 0) : isLast (grid0.coords t) := (isLast_iff t).mpr (Nat.mod_two_ne_zero.mp h0)

/-- What a first key tile leaves at point `t`, from the point's blocks. -/
def firstAt (c : Dev nD) (t : Fin cfg0.N) (h0 : t.val % 2 = 0) : Outs F :=
  (oFirst c (grid0.coords t) (msQ t) (hsQ t) (msK t) (hsK t) (msM t) (hsM t) (msO t) (hsO t) scMax (Memref.isWhole_whole _) scDen (Memref.isWhole_whole _) scNum (Memref.isWhole_whole _) (first_of t h0) (notLast_of t h0) (iblk m c 0 t) (iblk m c 1 t) (iblk m c 2 t),
   maxFirst c (grid0.coords t) (msQ t) (hsQ t) (msK t) (hsK t) (msM t) (hsM t) (msO t) (hsO t) scMax (Memref.isWhole_whole _) scDen (Memref.isWhole_whole _) scNum (Memref.isWhole_whole _) (first_of t h0) (notLast_of t h0) (iblk m c 0 t) (iblk m c 1 t) (iblk m c 2 t),
   denFirst c (grid0.coords t) (msQ t) (hsQ t) (msK t) (hsK t) (msM t) (hsM t) (msO t) (hsO t) scMax (Memref.isWhole_whole _) scDen (Memref.isWhole_whole _) scNum (Memref.isWhole_whole _) (first_of t h0) (notLast_of t h0) (iblk m c 0 t) (iblk m c 1 t) (iblk m c 2 t),
   numFirst c (grid0.coords t) (msQ t) (hsQ t) (msK t) (hsK t) (msM t) (hsM t) (msO t) (hsO t) scMax (Memref.isWhole_whole _) scDen (Memref.isWhole_whole _) scNum (Memref.isWhole_whole _) (first_of t h0) (notLast_of t h0) (iblk m c 0 t) (iblk m c 1 t) (iblk m c 2 t))

/-- What a last key tile leaves at point `t`, from the point's blocks and the statistics `prev` the point before left. -/
def lastAt (c : Dev nD) (t : Fin cfg0.N) (h0 : ¬t.val % 2 = 0) (prev : Outs F) : Outs F :=
  (oLast c (grid0.coords t) (msQ t) (hsQ t) (msK t) (hsK t) (msM t) (hsM t) (msO t) (hsO t) scMax (Memref.isWhole_whole _) scDen (Memref.isWhole_whole _) scNum (Memref.isWhole_whole _) (notFirst_of t h0) (last_of t h0) (iblk m c 0 t) (iblk m c 1 t) (iblk m c 2 t) prev.2.1 prev.2.2.1 prev.2.2.2,
   maxLast c (grid0.coords t) (msQ t) (hsQ t) (msK t) (hsK t) (msM t) (hsM t) (msO t) (hsO t) scMax (Memref.isWhole_whole _) scDen (Memref.isWhole_whole _) scNum (Memref.isWhole_whole _) (notFirst_of t h0) (last_of t h0) (iblk m c 0 t) (iblk m c 1 t) (iblk m c 2 t) prev.2.1 prev.2.2.1 prev.2.2.2,
   denLast c (grid0.coords t) (msQ t) (hsQ t) (msK t) (hsK t) (msM t) (hsM t) (msO t) (hsO t) scMax (Memref.isWhole_whole _) scDen (Memref.isWhole_whole _) scNum (Memref.isWhole_whole _) (notFirst_of t h0) (last_of t h0) (iblk m c 0 t) (iblk m c 1 t) (iblk m c 2 t) prev.2.1 prev.2.2.1 prev.2.2.2,
   numLast c (grid0.coords t) (msQ t) (hsQ t) (msK t) (hsK t) (msM t) (hsM t) (msO t) (hsO t) scMax (Memref.isWhole_whole _) scDen (Memref.isWhole_whole _) scNum (Memref.isWhole_whole _) (notFirst_of t h0) (last_of t h0) (iblk m c 0 t) (iblk m c 1 t) (iblk m c 2 t) prev.2.1 prev.2.2.1 prev.2.2.2)

/-- The four buffers after the body at position `n`. -/
def outsAt (c : Dev nD) : (n : ℕ) → n < cfg0.N → Outs F
  | 0, hn => firstAt m c ⟨0, hn⟩ (Nat.zero_mod 2)
  | n + 1, hn =>
    if h0 : (n + 1) % 2 = 0 then firstAt m c ⟨n + 1, hn⟩ h0
    else lastAt m c ⟨n + 1, hn⟩ h0 (outsAt c n (Nat.lt_of_succ_lt hn))

theorem outsAt_first (c : Dev nD) (t : Fin cfg0.N) (h0 : t.val % 2 = 0) : outsAt m c t.val t.isLt = firstAt m c t h0 := by
  obtain ⟨n, hn⟩ := t
  cases n with
  | zero => rfl
  | succ n => exact (dif_pos h0).trans rfl

theorem outsAt_last (c : Dev nD) (t : Fin cfg0.N) (h0 : ¬t.val % 2 = 0) :
    outsAt m c t.val t.isLt = lastAt m c t h0 (outsAt m c (t.val - 1) (Nat.lt_of_le_of_lt (Nat.sub_le _ _) t.isLt)) := by
  obtain ⟨n, hn⟩ := t
  cases n with
  | zero => exact absurd (Nat.zero_mod 2) h0
  | succ n => exact (dif_neg h0).trans rfl

/-! ## The invariant between points -/

/-- The region's scoped buffers that are no staging buffer are the three scratch buffers. -/
theorem scoped_eq (c : Dev nD) :
    (Pipeline.scopedRest (Ix := Unit) (Name := ℕ) (U := UR sig nD τ) (Lvl := ℕ) (Val := Elt F) spec0 c : sProp 𝕄)
      = iprop((∃ d, owns (c : Thread nD τ) scMax fullShare d) ∗ (∃ d, owns (c : Thread nD τ) scDen fullShare d) ∗ (∃ d, owns (c : Thread nD τ) scNum fullShare d)) := by
  rw [scopedRest0_eq]; simp only [scMax, scDen, scNum, owns_whole]; try rfl

/-- Before the first point the scratch buffers hold anything; afterwards what the point before left. -/
def PhiS (c : Dev nD) : (n : ℕ) → n ≤ cfg0.N → sProp 𝕄
  | 0, _ => Pipeline.scopedRest (Ix := Unit) (Name := ℕ) (U := UR sig nD τ) (Lvl := ℕ) (Val := Elt F) spec0 c
  | n + 1, hn => iprop(owns (c : Thread nD τ) scMax fullShare (outsAt m c n hn).2.1 ∗ owns (c : Thread nD τ) scDen fullShare (outsAt m c n hn).2.2.1 ∗ owns (c : Thread nD τ) scNum fullShare (outsAt m c n hn).2.2.2)

theorem PhiS_zero (c : Dev nD) (n : ℕ) (h : n ≤ cfg0.N) (hz : n = 0) :
    PhiS m c n h = Pipeline.scopedRest (Ix := Unit) (Name := ℕ) (U := UR sig nD τ) (Lvl := ℕ) (Val := Elt F) spec0 c := by
  subst hz; rfl
theorem PhiS_succ (c : Dev nD) (n : ℕ) (hn : n < cfg0.N) :
    PhiS m c (n + 1) hn = iprop(owns (c : Thread nD τ) scMax fullShare (outsAt m c n hn).2.1 ∗ owns (c : Thread nD τ) scDen fullShare (outsAt m c n hn).2.2.1 ∗ owns (c : Thread nD τ) scNum fullShare (outsAt m c n hn).2.2.2) := rfl
theorem PhiS_pos (c : Dev nD) (n : ℕ) (h : n ≤ cfg0.N) (hz : n ≠ 0) :
    PhiS m c n h = iprop(owns (c : Thread nD τ) scMax fullShare (outsAt m c (n - 1) (by omega)).2.1 ∗ owns (c : Thread nD τ) scDen fullShare (outsAt m c (n - 1) (by omega)).2.2.1 ∗ owns (c : Thread nD τ) scNum fullShare (outsAt m c (n - 1) (by omega)).2.2.2) := by
  cases n with
  | zero => exact absurd rfl hz
  | succ n => rfl

/-! ## The pipeline's proof data -/

/-- The arrays as the region finds them; after the body each input buffer at its block and the output buffer at
    `outsAt`; the invariant `PhiS`; the query window and the key window each hold half of their common array. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => (outsAt m c t.val t.isLt).1
  Φ t := PhiS m c t.val (Nat.le_of_lt_succ t.isLt)
  q w := match w with
    | ⟨0, _⟩ => fullShare.left
    | ⟨1, _⟩ => fullShare.right
    | ⟨2, _⟩ => fullShare
    | ⟨3, _⟩ => fullShare
  owed _ := 0

theorem A_eq (c : Dev nD) (w : Fin cfg0.W) : (dats m 0 c).A w = V m c (Pipeline.arrRef spec0 w) := by
  dsimp only [dats]
theorem PhiS_castSucc (c : Dev nD) (t : Fin cfg0.N) : (dats m 0 c).Φ t.castSucc = PhiS m c t.val (Nat.le_of_lt t.isLt) := by
  dsimp only [dats]; simp only [Fin.coe_castSucc]
theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = (outsAt m c t.val t.isLt).1 := by dsimp only [dats]
theorem before0 (c : Dev nD) (t : Fin cfg0.N) (d) : (dats m 0 c).before 0 t d = iblk m c 0 t :=
  before0_of m (dats m 0 c) (A_eq m c 0) (after0 m c) t d
theorem before1 (c : Dev nD) (t : Fin cfg0.N) (d) : (dats m 0 c).before 1 t d = iblk m c 1 t :=
  before1_of m (dats m 0 c) (A_eq m c 1) (after1 m c) t d
theorem before2 (c : Dev nD) (t : Fin cfg0.N) (d) : (dats m 0 c).before 2 t d = iblk m c 2 t :=
  before2_of m (dats m 0 c) (A_eq m c 2) (after2 m c) t d

end Cert.Kernel.Tiles

end
-- ==== Proof.WordBodyAll.lean ====
/-
  The body at any grid point. An even point is a first key tile, an odd point a last one; the matching run applies:
  the input buffers hold their blocks, the invariant hands the body the scratch buffers (at anything before the very
  first point, else at what the point before left) and takes them back at this point's contents.
-/
import proofs.«128248_j38302518345838_2_alg».proof.Proof.WordAccum

set_option maxRecDepth 16384

noncomputable section

namespace Cert.Kernel.Tiles

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (msQ t) fullShare ((dats m 0 c).before 0 t d))
    ∗ (∃ d, owns (c : Thread nD τ) (msK t) fullShare ((dats m 0 c).before 1 t d))
    ∗ (∃ d, owns (c : Thread nD τ) (msM t) fullShare ((dats m 0 c).before 2 t d))
    ∗ (∃ d, owns (c : Thread nD τ) (msO t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t)

set_option maxHeartbeats 4800000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2]
  rw [show (dats m 0 c).owesAt () t.succ = (dats m 0 c).owesAt () t.castSucc from rfl]
  rw [show (dats m 0 c).Φ t.succ = PhiS m c (t.val + 1) t.isLt from rfl, PhiS_succ]
  rw [show (dats m 0 c).leavesExact 0 t = owns (c : Thread nD τ) (msQ t) fullShare ((dats m 0 c).after 0 t) from by
    unfold Dat.leavesExact; rw [live0 t], after0]
  rw [show (dats m 0 c).leavesExact 1 t = owns (c : Thread nD τ) (msK t) fullShare ((dats m 0 c).after 1 t) from by
    unfold Dat.leavesExact; rw [live1 t], after1]
  rw [show (dats m 0 c).leavesExact 2 t = owns (c : Thread nD τ) (msM t) fullShare ((dats m 0 c).after 2 t) from by
    unfold Dat.leavesExact; rw [live2 t], after2]
  by_cases h0 : t.val % 2 = 0
  · rw [Dat.leavesExact_idle (dats m 0 c) 3 t (idle3_first t (first_of t h0) (notLast_of t h0)) (noFlush3_first t (first_of t h0) (notLast_of t h0))]
    rw [outsAt_first m c t h0]
    unfold firstAt maxFirst denFirst numFirst; (try dsimp only)
    by_cases hz : t.val = 0
    · rw [PhiS_castSucc m c t, PhiS_zero m c _ _ hz, scoped_eq]
      iintro ⟨⟨H7, H8, H9⟩, Ho, ⟨%d0, H0⟩, ⟨%d1, H1⟩, ⟨%d2, H2⟩, ⟨%d3, H3⟩⟩
      iapply ((runFirst c (grid0.coords t) (msQ t) (hsQ t) (msK t) (hsK t) (msM t) (hsM t) (msO t) (hsO t) scMax (Memref.isWhole_whole _) scDen (Memref.isWhole_whole _) scNum (Memref.isWhole_whole _) (first_of t h0) (notLast_of t h0) (iblk m c 0 t) (iblk m c 1 t) (iblk m c 2 t)).2.2.2.2 _ Set.univ _)
      isplitl [H0]; · iexact H0
      isplitl [H1]; · iexact H1
      isplitl [H2]; · iexact H2
      isplitl [H3]; · iexact H3
      isplitl [H7]; · iexact H7
      isplitl [H8]; · iexact H8
      isplitl [H9]; · iexact H9
      iintro ⟨H0, H1, H2, H3, ⟨%e7, H7⟩, ⟨%e8, H8⟩, ⟨%e9, H9⟩⟩
      isplitl [H7 H8 H9]
      · isplitl [H7]
        · unfold owns; iexists _; isplitr
          swap; · iexact H7
          ipureintro; exact View.read_writes_of_cover _ _ _ _ _ (coverMaxFirst c (grid0.coords t) (msQ t) (hsQ t) (msK t) (hsK t) (msM t) (hsM t) (msO t) (hsO t) scMax (Memref.isWhole_whole _) scDen (Memref.isWhole_whole _) scNum (Memref.isWhole_whole _) (first_of t h0) (notLast_of t h0) (iblk m c 0 t) (iblk m c 1 t) (iblk m c 2 t))
        isplitl [H8]
        · unfold owns; iexists _; isplitr
          swap; · iexact H8
          ipureintro; exact View.read_writes_of_cover _ _ _ _ _ (coverDenFirst c (grid0.coords t) (msQ t) (hsQ t) (msK t) (hsK t) (msM t) (hsM t) (msO t) (hsO t) scMax (Memref.isWhole_whole _) scDen (Memref.isWhole_whole _) scNum (Memref.isWhole_whole _) (first_of t h0) (notLast_of t h0) (iblk m c 0 t) (iblk m c 1 t) (iblk m c 2 t))
        · unfold owns; iexists _; isplitr
          swap; · iexact H9
          ipureintro; exact View.read_writes_of_cover _ _ _ _ _ (coverNumFirst c (grid0.coords t) (msQ t) (hsQ t) (msK t) (hsK t) (msM t) (hsM t) (msO t) (hsO t) scMax (Memref.isWhole_whole _) scDen (Memref.isWhole_whole _) scNum (Memref.isWhole_whole _) (first_of t h0) (notLast_of t h0) (iblk m c 0 t) (iblk m c 1 t) (iblk m c 2 t))
      isplitl [Ho]; · iexact Ho
      isplitl [H0]; · iexact H0
      isplitl [H1]; · iexact H1
      isplitl [H2]; · iexact H2
      iexists _; iexact H3
    · rw [PhiS_castSucc m c t, PhiS_pos m c _ _ hz]
      iintro ⟨⟨H7, H8, H9⟩, Ho, ⟨%d0, H0⟩, ⟨%d1, H1⟩, ⟨%d2, H2⟩, ⟨%d3, H3⟩⟩
      iapply ((runFirst c (grid0.coords t) (msQ t) (hsQ t) (msK t) (hsK t) (msM t) (hsM t) (msO t) (hsO t) scMax (Memref.isWhole_whole _) scDen (Memref.isWhole_whole _) scNum (Memref.isWhole_whole _) (first_of t h0) (notLast_of t h0) (iblk m c 0 t) (iblk m c 1 t) (iblk m c 2 t)).2.2.2.2 _ Set.univ _)
      isplitl [H0]; · iexact H0
      isplitl [H1]; · iexact H1
      isplitl [H2]; · iexact H2
      isplitl [H3]; · iexact H3
      isplitl [H7]; · iexists _; iexact H7
      isplitl [H8]; · iexists _; iexact H8
      isplitl [H9]; · iexists _; iexact H9
      iintro ⟨H0, H1, H2, H3, ⟨%e7, H7⟩, ⟨%e8, H8⟩, ⟨%e9, H9⟩⟩
      isplitl [H7 H8 H9]
      · isplitl [H7]
        · unfold owns; iexists _; isplitr
          swap; · iexact H7
          ipureintro; exact View.read_writes_of_cover _ _ _ _ _ (coverMaxFirst c (grid0.coords t) (msQ t) (hsQ t) (msK t) (hsK t) (msM t) (hsM t) (msO t) (hsO t) scMax (Memref.isWhole_whole _) scDen (Memref.isWhole_whole _) scNum (Memref.isWhole_whole _) (first_of t h0) (notLast_of t h0) (iblk m c 0 t) (iblk m c 1 t) (iblk m c 2 t))
        isplitl [H8]
        · unfold owns; iexists _; isplitr
          swap; · iexact H8
          ipureintro; exact View.read_writes_of_cover _ _ _ _ _ (coverDenFirst c (grid0.coords t) (msQ t) (hsQ t) (msK t) (hsK t) (msM t) (hsM t) (msO t) (hsO t) scMax (Memref.isWhole_whole _) scDen (Memref.isWhole_whole _) scNum (Memref.isWhole_whole _) (first_of t h0) (notLast_of t h0) (iblk m c 0 t) (iblk m c 1 t) (iblk m c 2 t))
        · unfold owns; iexists _; isplitr
          swap; · iexact H9
          ipureintro; exact View.read_writes_of_cover _ _ _ _ _ (coverNumFirst c (grid0.coords t) (msQ t) (hsQ t) (msK t) (hsK t) (msM t) (hsM t) (msO t) (hsO t) scMax (Memref.isWhole_whole _) scDen (Memref.isWhole_whole _) scNum (Memref.isWhole_whole _) (first_of t h0) (notLast_of t h0) (iblk m c 0 t) (iblk m c 1 t) (iblk m c 2 t))
      isplitl [Ho]; · iexact Ho
      isplitl [H0]; · iexact H0
      isplitl [H1]; · iexact H1
      isplitl [H2]; · iexact H2
      iexists _; iexact H3
  · rw [show (dats m 0 c).leavesExact 3 t = owns (c : Thread nD τ) (msO t) fullShare ((dats m 0 c).after 3 t) from by
      unfold Dat.leavesExact; rw [live3_last t (notFirst_of t h0) (last_of t h0)], after3]
    rw [outsAt_last m c t h0]
    unfold lastAt oLast maxLast denLast numLast; (try dsimp only)
    have hz : t.val ≠ 0 := fun h => h0 (by rw [h])
    rw [PhiS_castSucc m c t, PhiS_pos m c _ _ hz]
    iintro ⟨⟨H7, H8, H9⟩, Ho, ⟨%d0, H0⟩, ⟨%d1, H1⟩, ⟨%d2, H2⟩, ⟨%d3, H3⟩⟩
    iapply ((runLast c (grid0.coords t) (msQ t) (hsQ t) (msK t) (hsK t) (msM t) (hsM t) (msO t) (hsO t) scMax (Memref.isWhole_whole _) scDen (Memref.isWhole_whole _) scNum (Memref.isWhole_whole _) (notFirst_of t h0) (last_of t h0) (iblk m c 0 t) (iblk m c 1 t) (iblk m c 2 t) (outsAt m c (t.val - 1) (Nat.lt_of_le_of_lt (Nat.sub_le _ _) t.isLt)).2.1 (outsAt m c (t.val - 1) (Nat.lt_of_le_of_lt (Nat.sub_le _ _) t.isLt)).2.2.1 (outsAt m c (t.val - 1) (Nat.lt_of_le_of_lt (Nat.sub_le _ _) t.isLt)).2.2.2).2.2.2.2 Set.univ _)
    isplitl [H0]; · iexact H0
    isplitl [H1]; · iexact H1
    isplitl [H2]; · iexact H2
    isplitl [H3]; · iexists _; iexact H3
    isplitl [H7]; · iexact H7
    isplitl [H8]; · iexact H8
    isplitl [H9]; · iexact H9
    iintro ⟨H0, H1, H2, ⟨%e6, H3⟩, ⟨%e7, H7⟩, ⟨%e8, H8⟩, ⟨%e9, H9⟩⟩
    isplitl [H7 H8 H9]
    · isplitl [H7]
      · unfold owns; iexists _; isplitr
        swap; · iexact H7
        ipureintro; exact View.read_writes_of_cover _ _ _ _ _ (coverMaxLast c (grid0.coords t) (msQ t) (hsQ t) (msK t) (hsK t) (msM t) (hsM t) (msO t) (hsO t) scMax (Memref.isWhole_whole _) scDen (Memref.isWhole_whole _) scNum (Memref.isWhole_whole _) (notFirst_of t h0) (last_of t h0) (iblk m c 0 t) (iblk m c 1 t) (iblk m c 2 t) (outsAt m c (t.val - 1) (Nat.lt_of_le_of_lt (Nat.sub_le _ _) t.isLt)).2.1 (outsAt m c (t.val - 1) (Nat.lt_of_le_of_lt (Nat.sub_le _ _) t.isLt)).2.2.1 (outsAt m c (t.val - 1) (Nat.lt_of_le_of_lt (Nat.sub_le _ _) t.isLt)).2.2.2)
      isplitl [H8]
      · unfold owns; iexists _; isplitr
        swap; · iexact H8
        ipureintro; exact View.read_writes_of_cover _ _ _ _ _ (coverDenLast c (grid0.coords t) (msQ t) (hsQ t) (msK t) (hsK t) (msM t) (hsM t) (msO t) (hsO t) scMax (Memref.isWhole_whole _) scDen (Memref.isWhole_whole _) scNum (Memref.isWhole_whole _) (notFirst_of t h0) (last_of t h0) (iblk m c 0 t) (iblk m c 1 t) (iblk m c 2 t) (outsAt m c (t.val - 1) (Nat.lt_of_le_of_lt (Nat.sub_le _ _) t.isLt)).2.1 (outsAt m c (t.val - 1) (Nat.lt_of_le_of_lt (Nat.sub_le _ _) t.isLt)).2.2.1 (outsAt m c (t.val - 1) (Nat.lt_of_le_of_lt (Nat.sub_le _ _) t.isLt)).2.2.2)
      · unfold owns; iexists _; isplitr
        swap; · iexact H9
        ipureintro; exact View.read_writes_of_cover _ _ _ _ _ (coverNumLast c (grid0.coords t) (msQ t) (hsQ t) (msK t) (hsK t) (msM t) (hsM t) (msO t) (hsO t) scMax (Memref.isWhole_whole _) scDen (Memref.isWhole_whole _) scNum (Memref.isWhole_whole _) (notFirst_of t h0) (last_of t h0) (iblk m c 0 t) (iblk m c 1 t) (iblk m c 2 t) (outsAt m c (t.val - 1) (Nat.lt_of_le_of_lt (Nat.sub_le _ _) t.isLt)).2.1 (outsAt m c (t.val - 1) (Nat.lt_of_le_of_lt (Nat.sub_le _ _) t.isLt)).2.2.1 (outsAt m c (t.val - 1) (Nat.lt_of_le_of_lt (Nat.sub_le _ _) t.isLt)).2.2.2)
    isplitl [Ho]; · iexact Ho
    isplitl [H0]; · iexact H0
    isplitl [H1]; · iexact H1
    isplitl [H2]; · iexact H2
    unfold owns; iexists _; isplitr
    swap; · iexact H3
    ipureintro; exact View.read_writes_of_cover _ _ _ _ _ (coverOLast c (grid0.coords t) (msQ t) (hsQ t) (msK t) (hsK t) (msM t) (hsM t) (msO t) (hsO t) scMax (Memref.isWhole_whole _) scDen (Memref.isWhole_whole _) scNum (Memref.isWhole_whole _) (notFirst_of t h0) (last_of t h0) (iblk m c 0 t) (iblk m c 1 t) (iblk m c 2 t) (outsAt m c (t.val - 1) (Nat.lt_of_le_of_lt (Nat.sub_le _ _) t.isLt)).2.1 (outsAt m c (t.val - 1) (Nat.lt_of_le_of_lt (Nat.sub_le _ _) t.isLt)).2.2.1 (outsAt m c (t.val - 1) (Nat.lt_of_le_of_lt (Nat.sub_le _ _) t.isLt)).2.2.2)

/-- The library's body obligation, at every point. -/
theorem body_obligation (c : Dev nD) : BodyObligation (dats (F := F) m 0 c) (defs₀ (F := F)) Variants.none () Set.univ := fun t => by
  rw [bigSep_W0, bigSep_W0]
  exact sound_body m c t

end Cert.Kernel.Tiles

end
-- ==== Proof.WordRun.lean ====
/-
  The run. The launch hands the region each array's buffer whole; the query window and the key window read ONE array,
  so its buffer is split into two halves, one per window, and the two halves are what the windows hold throughout (an
  input array is never written). With the body obligation of every point, every weakly fair execution of @main
  terminates with the output array at what the write-backs of the last-key-tile points left and both arguments
  as launched.
-/
import proofs.«128248_j38302518345838_2_alg».proof.Proof.WordBodyAll
import Idealize.ShloMosaic.Lib.Pipeline.Kit

set_option maxRecDepth 16384

noncomputable section

namespace Cert.Kernel.Tiles

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

open Idealize.ShloMosaic.Pipeline (BodyObligationLoose)

/-- The proof's resource algebra: one copy of the rounds library's, the pipeline's. -/
abbrev EP : Emb (UR sig nD τ) (MT nD τ sig Unit (Elt F) ℕ (UR sig nD τ) ℕ) := emb₁

/-- The launch element: the pipeline's cells at round zero, with the tokens of every transfer the pipeline issues. -/
def u₀ : UR sig nD τ := initOf (Pipeline.cells cfgs cellOf_inj) (Pipeline.launchToks cfgs cellOf_inj)

/-- The buffers behind the windows' arrays: the converted query/key array, the mask argument, the result. -/
theorem arrRefs_eq : Finset.univ.image (Pipeline.arrRef spec0) = {main_v0, main_arg1, main_v1} := by decide

/-- The windows' arrays, each a whole buffer, at the proof data's shares. -/
theorem arrays_eq' (c : Dev nD) (Fn : (w : Fin cfg0.W) → Buf (Elt F) ((cfg0.win w).arr.view.loc (c.tc : Thread nD τ))) :
    (dats m 0 c).arrays Fn = bigSep Finset.univ fun w => (((c.tc : Thread nD τ).loc (Pipeline.arrRef spec0 w)) ↦{(dats m 0 c).share w} Fn w : sProp 𝕄) := by
  unfold Dat.arrays
  exact bigSep_congr fun w _ => by rw [(arr_whole0 w).set_eq_univ]

theorem share0 (c : Dev nD) : (dats m 0 c).share 0 = fullShare.left := by unfold Dat.share; dsimp only [dats]; rfl
theorem share1 (c : Dev nD) : (dats m 0 c).share 1 = fullShare.right := by unfold Dat.share; dsimp only [dats]; rfl
theorem share2 (c : Dev nD) : (dats m 0 c).share 2 = fullShare := by unfold Dat.share; dsimp only [dats]; rfl
theorem share3 (c : Dev nD) : (dats m 0 c).share 3 = fullShare := by unfold Dat.share; rfl
theorem arrAt_zero (c : Dev nD) (w : Fin cfg0.W) : (dats m 0 c).arrAt w 0 = V m c (Pipeline.arrRef spec0 w) := by
  unfold Dat.arrAt; exact A_eq m c w

set_option maxHeartbeats 1000000 in
/-- The arrays' buffers whole are the windows' arrays at their shares: the query/key buffer in two halves. -/
theorem hsplit (c : Dev nD) :
    (Pipeline.arrBufs (Ix := Unit) (Name := ℕ) (U := UR sig nD τ) (Lvl := ℕ) spec0 c (V m c) : sProp 𝕄)
      ⊢ (dats m 0 c).arrays ((dats m 0 c).arrAt · 0) := by
  have hL : bigSep (Finset.univ.image (Pipeline.arrRef spec0)) (fun b => (((c.tc : Thread nD τ).loc b) ↦{fullShare} V m c b : sProp 𝕄))
      = iprop((((c.tc : Thread nD τ).loc main_v0) ↦{fullShare} V m c main_v0) ∗ (((c.tc : Thread nD τ).loc main_arg1) ↦{fullShare} V m c main_arg1)
          ∗ (((c.tc : Thread nD τ).loc main_v1) ↦{fullShare} V m c main_v1)) := by
    rw [arrRefs_eq, bigSep_insert (by decide), bigSep_insert (by decide), bigSep_singleton]; rfl
  unfold Pipeline.arrBufs
  rw [arrays_eq', bigSep_W0, hL, share0, share1, share2, share3]
  simp only [arrAt_zero]
  iintro ⟨Hqk, Hmk, Ho⟩
  ihave Hqk := (pointsTo_share (PosShare.mem_left_op_right fullShare)).1 $$ Hqk
  icases Hqk with ⟨Hq, Hk⟩
  isplitl [Hq]; · iexact Hq
  isplitl [Hk]; · iexact Hk
  isplitl [Hmk]; · iexact Hmk
  iexact Ho

/-- What the run establishes: the result array at the library's account of the write-backs, the arguments as launched. -/
def Post (r : PUnit × MemSt nD τ sig (Elt F)) : Prop :=
  ∀ c : Dev nD,
    r.2.mem ((c.tc : Thread nD τ).loc main_v1) = (dats m 0 c).arrAt 3 cfg0.N
    ∧ r.2.mem ((c.tc : Thread nD τ).loc main_arg0) = m ((c.tc : Thread nD τ).loc main_arg0)
    ∧ r.2.mem ((c.tc : Thread nD τ).loc main_arg1) = m ((c.tc : Thread nD τ).loc main_arg1)

set_option backward.isDefEq.respectTransparency.types false in
theorem run_main : θ_run defs (onTc (τ := τ) (main (F := F))) (s₀ m ρ) (Post m) :=
  Pipeline.θ_run_region_noSem_shared cfgs (dats m) () cellOf_inj (0 : Fin 1) winFacts₀0 EP defs₀ Variants.none m ρ main
    (hbody := fun c => (body_obligation m c).loose)
    (hne := block_pos0) (harr := arr_whole0) (hstage := stage_whole0)
    (howed := fun _ _ => rfl)
    (u₀ := u₀) (hu₀ := BI.Entails.refl _)
    (V := V m)
    (hmain := hmain m Variants.none)
    (hsplit := hsplit m)
    (X := fun _ => iprop(emp)) (Y := fun _ => iprop(emp))
    (Z := fun c => Pipeline.unscopedRest (Ix := Unit) (Name := ℕ) (U := UR sig nD τ) (Lvl := ℕ) spec0 c (V m c))
    (hX := fun c => by iintro H; isplitr; · iempintro
                       iexact H)
    (hin := fun c => by
      rw [show (dats m 0 c).Φ 0 = PhiS m c 0 (Nat.zero_le _) from rfl, PhiS_zero m c 0 _ rfl]
      iintro ⟨-, H⟩; iexact H)
    (hout := fun c => by
      rw [show (dats m 0 c).Φ (Fin.last cfg0.N) = PhiS m c (Fin.last cfg0.N).val (Nat.le_of_lt_succ (Fin.last cfg0.N).isLt) from rfl,
        PhiS_pos m c _ _ (by rw [Fin.val_last]; have : cfg0.N = 16 := N_0; omega), scoped_eq]
      iintro ⟨H7, H8, H9⟩
      isplitr; · iempintro
      isplitl [H7]; · iexists _; iexact H7
      isplitl [H8]; · iexists _; iexact H8
      iexists _; iexact H9)
    (QY := fun c s => s.mem ((c.tc : Thread nD τ).loc main_arg0) = V m c main_arg0)
    (hY := fun c s' => by
      rw [unscopedRest0_eq]
      iintro ⟨-, HA, HSI⟩
      icombine HSI HA gives %ha
      imodintro
      isplitr; · ipureintro; exact funext fun i => ha i (Finset.mem_univ i)
      iexact HSI)
    (hQ := fun s h c => ⟨(h c).1 3, (h c).2.trans (V_main_arg0 m c),
      ((h c).1 2).trans (((dats m 0 c).arrAt_in 2 rfl _).trans ((A_eq m c 2).trans (V_main_arg1 m c)))⟩)

/-- The frame: the program runs to the end, faults nowhere, and leaves both arguments as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => (h c).2) (run_main m ρ)

end Cert.Kernel.Tiles

end
-- ==== Proof.IdealShared.lean ====
/-
  The attention kernel visits, for each batch and each tile of 1024 query rows, the two tiles of 1024 key rows in
  turn. At the FIRST key tile (even grid points) it resets its three running statistics — the row maxima, the row
  denominators and the row numerators, kept in three scratch buffers — and absorbs the tile; at the SECOND (odd
  grid points) it absorbs the tile into what the first left and writes numerator / denominator to the output block.
  This module fixes what both kinds of point share: the arrays as the region finds them (the query/key array is the
  host's conversion of the first argument, handed to the region twice), each window's block at a point, the two
  branch conditions decided over the grid, where the output window is idle, and the scratch buffers as memrefs.
-/
import proofs.«128248_j38302518345838_2_alg».proof.Proof.Gen.KernelIdeal.Launch
import proofs.«128248_j38302518345838_2_alg».proof.Proof.Gen.KernelIdeal.Skeleton
import proofs.«128248_j38302518345838_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Tiles

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays when the region is entered -/

/-- Core `c`'s buffers when the region is entered: the launch contents after the one host conversion. -/
abbrev V (c : Dev nD) (b : Ref sig .tc) : Buf (Elt F) ((c : Thread nD τ).loc b) :=
  StableHlo.after hostOps0 (fun b => m (c, b)) (Proc.devRef .tc b)

theorem hostOps0_fresh : (hostOps0 : List (HloOp τ sig (Elt F))).Forall fun op => op.fresh = ∅ := by
  simp only [List.Forall]; repeat' constructor

/-- @main is the conversion, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- The conversion writes its own result only: both arguments are as launched. -/
theorem V_main_arg0 (c : Dev nD) : V m c main_arg0 = m ((c : Thread nD τ).loc main_arg0) := by
  dsimp only [V, hostOps0]; after_results
theorem V_main_arg1 (c : Dev nD) : V m c main_arg1 = m ((c : Thread nD τ).loc main_arg1) := by
  dsimp only [V, hostOps0]; after_results

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every point, fetched there or not. -/
theorem before0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The two branch conditions, over the grid -/

/-- "This is the first key tile": the reset branch is taken. -/
abbrev isFirst (i : grid0.Coords) : Prop := (Scalar.cmpi .ne (Scalar.extui (Scalar.cmpi .eq (BitVec.ofNat 32 (i 2).val) 0#32)) 0#32) = 1#1
/-- It holds at the even points. -/
theorem isFirst_iff : ∀ t : Fin cfg0.N, isFirst (grid0.coords t) ↔ t.val % 2 = 0 :=
  (by decide +kernel : ∀ t : Fin grid0.N, isFirst (grid0.coords t) ↔ t.val % 2 = 0)

/-- "This is the last key tile": the output is written. -/
abbrev isLast (i : grid0.Coords) : Prop := k0_cond2 i = 1#1
/-- It holds at the odd points. -/
theorem isLast_iff : ∀ t : Fin cfg0.N, isLast (grid0.coords t) ↔ t.val % 2 = 1 :=
  (by decide +kernel : ∀ t : Fin grid0.N, isLast (grid0.coords t) ↔ t.val % 2 = 1)

/-! ## Where the windows are idle -/

theorem live0 : ∀ t : Fin cfg0.N, cfg0.idle 0 (grid0.coords t) = false := by decide +kernel
theorem live1 : ∀ t : Fin cfg0.N, cfg0.idle 1 (grid0.coords t) = false := by decide +kernel
theorem live2 : ∀ t : Fin cfg0.N, cfg0.idle 2 (grid0.coords t) = false := by decide +kernel
/-- At a first key tile nothing is stored into the output block, -/
theorem idle3_first : ∀ t : Fin cfg0.N, isFirst (grid0.coords t) → ¬isLast (grid0.coords t) → cfg0.idle 3 (grid0.coords t) = true := by decide +kernel
/-- and the block is not written back there. -/
theorem noFlush3_first : ∀ t : Fin cfg0.N, isFirst (grid0.coords t) → ¬isLast (grid0.coords t) → (cfg0.win 3).flush t = false := by decide +kernel
/-- At a last key tile the output block is stored. -/
theorem live3_last : ∀ t : Fin cfg0.N, ¬isFirst (grid0.coords t) → isLast (grid0.coords t) → cfg0.idle 3 (grid0.coords t) = false := by decide +kernel

/-! ## The memrefs the body is called with -/

abbrev msQ (t : Fin cfg0.N) : Memref sig .tc .vmem S1x1024x1024 .bf16 := win0_0.stage (cfg0.slots t 0)
abbrev hsQ (t : Fin cfg0.N) : (msQ t).IsWhole := hstage0_0 ((cfg0.slots t 0).cast nbuf0_0)
abbrev msK (t : Fin cfg0.N) : Memref sig .tc .vmem S1x1024x1024 .bf16 := win0_1.stage (cfg0.slots t 1)
abbrev hsK (t : Fin cfg0.N) : (msK t).IsWhole := hstage0_1 ((cfg0.slots t 1).cast nbuf0_1)
abbrev msM (t : Fin cfg0.N) : Memref sig .tc .vmem S1x1x1024 .f32 := win0_2.stage (cfg0.slots t 2)
abbrev hsM (t : Fin cfg0.N) : (msM t).IsWhole := hstage0_2 ((cfg0.slots t 2).cast nbuf0_2)
abbrev msO (t : Fin cfg0.N) : Memref sig .tc .vmem S1x1024x1024 .f32 := win0_3.stage (cfg0.slots t 3)
abbrev hsO (t : Fin cfg0.N) : (msO t).IsWhole := hstage0_3 ((cfg0.slots t 3).cast nbuf0_3)
/-- The running row maxima, row denominators and row numerators. -/
abbrev scMax : Memref sig .tc .vmem S1024x1 .f32 := Memref.whole cc0_scratch0
abbrev scDen : Memref sig .tc .vmem S1024x1 .f32 := Memref.whole cc0_scratch1
abbrev scNum : Memref sig .tc .vmem S1024x1024 .f32 := Memref.whole cc0_scratch2
/-- One staging buffer of the output window, and the scratch buffers, as views to state contents through. -/
abbrev VO : View sig .tc .vmem S1x1024x1024 .f32 := (Memref.whole cc0_stg3_0 : Memref sig .tc .vmem S1x1024x1024 .f32).view
abbrev VMax : View sig .tc .vmem S1024x1 .f32 := scMax.view
abbrev VDen : View sig .tc .vmem S1024x1 .f32 := scDen.view
abbrev VNum : View sig .tc .vmem S1024x1024 .f32 := scNum.view

/-- Before the first point the region owns the three scratch buffers at some contents, and the generator register. -/
theorem PhiA_eq (c : Dev nD) :
    (Pipeline.ΦA spec0 c : sProp 𝕄)
      = iprop(iprop((∃ d, owns (c : Thread nD τ) scMax fullShare d) ∗ (∃ d, owns (c : Thread nD τ) scDen fullShare d) ∗ (∃ d, owns (c : Thread nD τ) scNum fullShare d)) ∗ (∃ r, prngReg c r)) := by
  unfold Pipeline.ΦA; rw [scopedRest0_eq]; simp only [scMax, scDen, scNum, owns_whole]; try rfl

end Cert.KernelIdeal.Tiles

end
-- ==== Proof.IdealTileFirst.lean ====
/-
  The body at a FIRST key tile. On whole staging memrefs holding the query block, the key block and the mask
  block, the output buffer at any contents (it is handed back untouched) and the three scratch buffers at any
  contents, the body resets the scratch buffers, absorbs the tile, and ends with each scratch buffer overwritten by
  the pieces the run finds.
-/
import proofs.«128248_j38302518345838_2_alg».proof.Proof.IdealShared

set_option maxRecDepth 16384

noncomputable section

namespace Cert.KernelIdeal.Tiles

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The pieces each scratch buffer ends with at a first key tile, with the proof that the body runs to them. -/
noncomputable def runFirst (c : Dev nD) (i : grid0.Coords) (arg3 : Memref sig .tc .vmem S1x1024x1024 .bf16) (harg3 : arg3.IsWhole) (arg4 : Memref sig .tc .vmem S1x1024x1024 .bf16) (harg4 : arg4.IsWhole) (arg5 : Memref sig .tc .vmem S1x1x1024 .f32) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc1 : isFirst i) (hc2 : ¬isLast i)
    (xq : Vec F S1x1024x1024 .bf16) (xk : Vec F S1x1024x1024 .bf16) (xm : Vec F S1x1x1024 .f32) :
    Σ' (LO : List (View.Piece (Elt F) S1x1024x1024 .f32)) (LMax : List (View.Piece (Elt F) S1024x1 .f32)) (LDen : List (View.Piece (Elt F) S1024x1 .f32)), { LNum : List (View.Piece (Elt F) S1024x1024 .f32) //
      ∀ (xo : Vec F S1x1024x1024 .f32) (E : Set ℕ) (K : PUnit → sProp 𝕄),
        iprop(owns (c : Thread nD τ) arg3 fullShare xq ∗ owns (c : Thread nD τ) arg4 fullShare xk ∗ owns (c : Thread nD τ) arg5 fullShare xm ∗ owns (c : Thread nD τ) arg6 fullShare xo
            ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg3 fullShare xq ∗ owns (c : Thread nD τ) arg4 fullShare xk ∗ owns (c : Thread nD τ) arg5 fullShare xm ∗ owns (c : Thread nD τ) arg6 fullShare xo
                ∗ (∃ f, arg7.view.loc (c : Thread nD τ) ↦[arg7.view.set]{fullShare} arg7.view.writes (Elt F) f LMax)
                ∗ (∃ f, arg8.view.loc (c : Thread nD τ) ↦[arg8.view.set]{fullShare} arg8.view.writes (Elt F) f LDen)
                ∗ (∃ f, arg9.view.loc (c : Thread nD τ) ↦[arg9.view.set]{fullShare} arg9.view.writes (Elt F) f LNum)) -∗ K ⟨⟩))
          ⊢ wp frame (wpE (defs₀ (F := F)) Variants.none c none) E (cc0__flash_attn_kernel i arg3 harg3 arg4 harg4 arg5 harg5 arg6 harg6 arg7 harg7 arg8 harg8 arg9 harg9) K } := by
  refine ⟨[], ?_, ?_, ?_, fun xo E K => ?run⟩
  case run =>
    simp only [cc0__flash_attn_kernel_eq_skeleton]; unfold cc0__flash_attn_kernel_skel
    simp only [k0_part1_eq_skeleton]
    unfold owns
    iintro ⟨⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, Hk⟩
    obtain rfl := harg3.eq_unread hf3; obtain rfl := harg4.eq_unread hf4; obtain rfl := harg5.eq_unread hf5; obtain rfl := harg6.eq_unread hf6
    sl_exec (disch := first | exact hc1 | exact hc2)
    sl_step
    iapply Hk
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; iexact H7
    isplitl [H8]
    · iexists _; iexact H8
    iexists _; iexact H9

end Cert.KernelIdeal.Tiles

end
-- ==== Proof.IdealTileLast.lean ====
/-
  The body at a LAST key tile. On whole staging memrefs holding the query block, the key block and the mask block,
  the three scratch buffers at what the first key tile left in them, and the output buffer at any contents, the body
  absorbs the tile into the running statistics and stores numerator / denominator into the output buffer; each of the
  four buffers ends overwritten by the pieces the run finds.
-/
import proofs.«128248_j38302518345838_2_alg».proof.Proof.IdealTileFirst

set_option maxRecDepth 16384

noncomputable section

namespace Cert.KernelIdeal.Tiles

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The pieces the output buffer and each scratch buffer end with at a last key tile, with the proof that the body
    runs to them from scratch contents `xmax`, `xden`, `xnum`. -/
noncomputable def runLast (c : Dev nD) (i : grid0.Coords) (arg3 : Memref sig .tc .vmem S1x1024x1024 .bf16) (harg3 : arg3.IsWhole) (arg4 : Memref sig .tc .vmem S1x1024x1024 .bf16) (harg4 : arg4.IsWhole) (arg5 : Memref sig .tc .vmem S1x1x1024 .f32) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc1 : ¬isFirst i) (hc2 : isLast i)
    (xq : Vec F S1x1024x1024 .bf16) (xk : Vec F S1x1024x1024 .bf16) (xm : Vec F S1x1x1024 .f32)
    (xmax : Vec F S1024x1 .f32) (xden : Vec F S1024x1 .f32) (xnum : Vec F S1024x1024 .f32) :
    Σ' (LO : List (View.Piece (Elt F) S1x1024x1024 .f32)) (LMax : List (View.Piece (Elt F) S1024x1 .f32)) (LDen : List (View.Piece (Elt F) S1024x1 .f32)), { LNum : List (View.Piece (Elt F) S1024x1024 .f32) //
      ∀ (E : Set ℕ) (K : PUnit → sProp 𝕄),
        iprop(owns (c : Thread nD τ) arg3 fullShare xq ∗ owns (c : Thread nD τ) arg4 fullShare xk ∗ owns (c : Thread nD τ) arg5 fullShare xm ∗ (∃ d, owns (c : Thread nD τ) arg6 fullShare d)
            ∗ owns (c : Thread nD τ) arg7 fullShare xmax ∗ owns (c : Thread nD τ) arg8 fullShare xden ∗ owns (c : Thread nD τ) arg9 fullShare xnum
            ∗ (iprop(owns (c : Thread nD τ) arg3 fullShare xq ∗ owns (c : Thread nD τ) arg4 fullShare xk ∗ owns (c : Thread nD τ) arg5 fullShare xm
                ∗ (∃ f, arg6.view.loc (c : Thread nD τ) ↦[arg6.view.set]{fullShare} arg6.view.writes (Elt F) f LO)
                ∗ (∃ f, arg7.view.loc (c : Thread nD τ) ↦[arg7.view.set]{fullShare} arg7.view.writes (Elt F) f LMax)
                ∗ (∃ f, arg8.view.loc (c : Thread nD τ) ↦[arg8.view.set]{fullShare} arg8.view.writes (Elt F) f LDen)
                ∗ (∃ f, arg9.view.loc (c : Thread nD τ) ↦[arg9.view.set]{fullShare} arg9.view.writes (Elt F) f LNum)) -∗ K ⟨⟩))
          ⊢ wp frame (wpE (defs₀ (F := F)) Variants.none c none) E (cc0__flash_attn_kernel i arg3 harg3 arg4 harg4 arg5 harg5 arg6 harg6 arg7 harg7 arg8 harg8 arg9 harg9) K } := by
  refine ⟨?_, ?_, ?_, ?_, fun E K => ?run⟩
  case run =>
    simp only [cc0__flash_attn_kernel_eq_skeleton]; unfold cc0__flash_attn_kernel_skel
    simp only [k0_part1_eq_skeleton]
    unfold owns
    iintro ⟨⟨%f3, %hf3, H3⟩, ⟨%f4, %hf4, H4⟩, ⟨%f5, %hf5, H5⟩, ⟨%d6, %f6, -, H6⟩, ⟨%f7, %hf7, H7⟩, ⟨%f8, %hf8, H8⟩, ⟨%f9, %hf9, H9⟩, Hk⟩
    obtain rfl := harg3.eq_unread hf3; obtain rfl := harg4.eq_unread hf4; obtain rfl := harg5.eq_unread hf5
    obtain rfl := harg7.eq_unread hf7; obtain rfl := harg8.eq_unread hf8; obtain rfl := harg9.eq_unread hf9
    sl_exec (disch := first | exact hc1 | exact hc2)
    sl_step
    iapply Hk
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; iexact H6
    isplitl [H7]
    · iexists _; iexact H7
    isplitl [H8]
    · iexists _; iexact H8
    iexists _; iexact H9

end Cert.KernelIdeal.Tiles

end
-- ==== Proof.IdealAccum.lean ====
/-
  What the four buffers the body writes — the output block and the running row maxima, denominators and numerators —
  hold after each grid point: at a first key tile what the reset-and-absorb leaves, at a last key tile what absorbing
  into the previous point's statistics leaves. From it, the invariant the region keeps between points and the
  pipeline's proof data. The query window and the key window are two windows on ONE array, so each holds half of it.
-/
import proofs.«128248_j38302518345838_2_alg».proof.Proof.IdealTileLast

set_option maxRecDepth 16384

noncomputable section

namespace Cert.KernelIdeal.Tiles

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each case leaves: its pieces read back -/

/-- A first key tile stores nothing into the output buffer: a placeholder nothing consults. -/
def oFirst (c : Dev nD) (i : grid0.Coords) (arg3 : Memref sig .tc .vmem S1x1024x1024 .bf16) (harg3 : arg3.IsWhole) (arg4 : Memref sig .tc .vmem S1x1024x1024 .bf16) (harg4 : arg4.IsWhole) (arg5 : Memref sig .tc .vmem S1x1x1024 .f32) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc1 : isFirst i) (hc2 : ¬isLast i) (xq : Vec F S1x1024x1024 .bf16) (xk : Vec F S1x1024x1024 .bf16) (xm : Vec F S1x1x1024 .f32) : Vec F S1x1024x1024 .f32 := VO.read (Elt F) (VO.writes (Elt F) VO.junk (runFirst c i arg3 harg3 arg4 harg4 arg5 harg5 arg6 harg6 arg7 harg7 arg8 harg8 arg9 harg9 hc1 hc2 xq xk xm).1)
theorem coverMaxFirst (c : Dev nD) (i : grid0.Coords) (arg3 : Memref sig .tc .vmem S1x1024x1024 .bf16) (harg3 : arg3.IsWhole) (arg4 : Memref sig .tc .vmem S1x1024x1024 .bf16) (harg4 : arg4.IsWhole) (arg5 : Memref sig .tc .vmem S1x1x1024 .f32) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc1 : isFirst i) (hc2 : ¬isLast i) (xq : Vec F S1x1024x1024 .bf16) (xk : Vec F S1x1024x1024 .bf16) (xm : Vec F S1x1x1024 .f32) (y : S1024x1.Idx) : ∃ pc ∈ (runFirst c i arg3 harg3 arg4 harg4 arg5 harg5 arg6 harg6 arg7 harg7 arg8 harg8 arg9 harg9 hc1 hc2 xq xk xm).2.1, y ∈ pc.1.set :=
  View.cover_of_tiledL (runFirst c i arg3 harg3 arg4 harg4 arg5 harg5 arg6 harg6 arg7 harg7 arg8 harg8 arg9 harg9 hc1 hc2 xq xk xm).2.1 S1024x1.size (by sl_kernel_rfl) y
/-- The row maxima after a first key tile. -/
def maxFirst (c : Dev nD) (i : grid0.Coords) (arg3 : Memref sig .tc .vmem S1x1024x1024 .bf16) (harg3 : arg3.IsWhole) (arg4 : Memref sig .tc .vmem S1x1024x1024 .bf16) (harg4 : arg4.IsWhole) (arg5 : Memref sig .tc .vmem S1x1x1024 .f32) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc1 : isFirst i) (hc2 : ¬isLast i) (xq : Vec F S1x1024x1024 .bf16) (xk : Vec F S1x1024x1024 .bf16) (xm : Vec F S1x1x1024 .f32) : Vec F S1024x1 .f32 := VMax.read (Elt F) (VMax.writes (Elt F) VMax.junk (runFirst c i arg3 harg3 arg4 harg4 arg5 harg5 arg6 harg6 arg7 harg7 arg8 harg8 arg9 harg9 hc1 hc2 xq xk xm).2.1)
theorem coverDenFirst (c : Dev nD) (i : grid0.Coords) (arg3 : Memref sig .tc .vmem S1x1024x1024 .bf16) (harg3 : arg3.IsWhole) (arg4 : Memref sig .tc .vmem S1x1024x1024 .bf16) (harg4 : arg4.IsWhole) (arg5 : Memref sig .tc .vmem S1x1x1024 .f32) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc1 : isFirst i) (hc2 : ¬isLast i) (xq : Vec F S1x1024x1024 .bf16) (xk : Vec F S1x1024x1024 .bf16) (xm : Vec F S1x1x1024 .f32) (y : S1024x1.Idx) : ∃ pc ∈ (runFirst c i arg3 harg3 arg4 harg4 arg5 harg5 arg6 harg6 arg7 harg7 arg8 harg8 arg9 harg9 hc1 hc2 xq xk xm).2.2.1, y ∈ pc.1.set :=
  View.cover_of_tiledL (runFirst c i arg3 harg3 arg4 harg4 arg5 harg5 arg6 harg6 arg7 harg7 arg8 harg8 arg9 harg9 hc1 hc2 xq xk xm).2.2.1 S1024x1.size (by sl_kernel_rfl) y
/-- The row denominators after a first key tile. -/
def denFirst (c : Dev nD) (i : grid0.Coords) (arg3 : Memref sig .tc .vmem S1x1024x1024 .bf16) (harg3 : arg3.IsWhole) (arg4 : Memref sig .tc .vmem S1x1024x1024 .bf16) (harg4 : arg4.IsWhole) (arg5 : Memref sig .tc .vmem S1x1x1024 .f32) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc1 : isFirst i) (hc2 : ¬isLast i) (xq : Vec F S1x1024x1024 .bf16) (xk : Vec F S1x1024x1024 .bf16) (xm : Vec F S1x1x1024 .f32) : Vec F S1024x1 .f32 := VDen.read (Elt F) (VDen.writes (Elt F) VDen.junk (runFirst c i arg3 harg3 arg4 harg4 arg5 harg5 arg6 harg6 arg7 harg7 arg8 harg8 arg9 harg9 hc1 hc2 xq xk xm).2.2.1)
theorem coverNumFirst (c : Dev nD) (i : grid0.Coords) (arg3 : Memref sig .tc .vmem S1x1024x1024 .bf16) (harg3 : arg3.IsWhole) (arg4 : Memref sig .tc .vmem S1x1024x1024 .bf16) (harg4 : arg4.IsWhole) (arg5 : Memref sig .tc .vmem S1x1x1024 .f32) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc1 : isFirst i) (hc2 : ¬isLast i) (xq : Vec F S1x1024x1024 .bf16) (xk : Vec F S1x1024x1024 .bf16) (xm : Vec F S1x1x1024 .f32) (y : S1024x1024.Idx) : ∃ pc ∈ (runFirst c i arg3 harg3 arg4 harg4 arg5 harg5 arg6 harg6 arg7 harg7 arg8 harg8 arg9 harg9 hc1 hc2 xq xk xm).2.2.2.1, y ∈ pc.1.set :=
  View.cover_of_tiledL (runFirst c i arg3 harg3 arg4 harg4 arg5 harg5 arg6 harg6 arg7 harg7 arg8 harg8 arg9 harg9 hc1 hc2 xq xk xm).2.2.2.1 S1024x1024.size (by sl_kernel_rfl) y
/-- The row numerators after a first key tile. -/
def numFirst (c : Dev nD) (i : grid0.Coords) (arg3 : Memref sig .tc .vmem S1x1024x1024 .bf16) (harg3 : arg3.IsWhole) (arg4 : Memref sig .tc .vmem S1x1024x1024 .bf16) (harg4 : arg4.IsWhole) (arg5 : Memref sig .tc .vmem S1x1x1024 .f32) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc1 : isFirst i) (hc2 : ¬isLast i) (xq : Vec F S1x1024x1024 .bf16) (xk : Vec F S1x1024x1024 .bf16) (xm : Vec F S1x1x1024 .f32) : Vec F S1024x1024 .f32 := VNum.read (Elt F) (VNum.writes (Elt F) VNum.junk (runFirst c i arg3 harg3 arg4 harg4 arg5 harg5 arg6 harg6 arg7 harg7 arg8 harg8 arg9 harg9 hc1 hc2 xq xk xm).2.2.2.1)

theorem coverOLast (c : Dev nD) (i : grid0.Coords) (arg3 : Memref sig .tc .vmem S1x1024x1024 .bf16) (harg3 : arg3.IsWhole) (arg4 : Memref sig .tc .vmem S1x1024x1024 .bf16) (harg4 : arg4.IsWhole) (arg5 : Memref sig .tc .vmem S1x1x1024 .f32) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc1 : ¬isFirst i) (hc2 : isLast i) (xq : Vec F S1x1024x1024 .bf16) (xk : Vec F S1x1024x1024 .bf16) (xm : Vec F S1x1x1024 .f32) (xmax : Vec F S1024x1 .f32) (xden : Vec F S1024x1 .f32) (xnum : Vec F S1024x1024 .f32) (y : S1x1024x1024.Idx) : ∃ pc ∈ (runLast c i arg3 harg3 arg4 harg4 arg5 harg5 arg6 harg6 arg7 harg7 arg8 harg8 arg9 harg9 hc1 hc2 xq xk xm xmax xden xnum).1, y ∈ pc.1.set :=
  View.cover_of_tiledL (runLast c i arg3 harg3 arg4 harg4 arg5 harg5 arg6 harg6 arg7 harg7 arg8 harg8 arg9 harg9 hc1 hc2 xq xk xm xmax xden xnum).1 S1x1024x1024.size (by sl_kernel_rfl) y
/-- The output block a last key tile stores. -/
def oLast (c : Dev nD) (i : grid0.Coords) (arg3 : Memref sig .tc .vmem S1x1024x1024 .bf16) (harg3 : arg3.IsWhole) (arg4 : Memref sig .tc .vmem S1x1024x1024 .bf16) (harg4 : arg4.IsWhole) (arg5 : Memref sig .tc .vmem S1x1x1024 .f32) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc1 : ¬isFirst i) (hc2 : isLast i) (xq : Vec F S1x1024x1024 .bf16) (xk : Vec F S1x1024x1024 .bf16) (xm : Vec F S1x1x1024 .f32) (xmax : Vec F S1024x1 .f32) (xden : Vec F S1024x1 .f32) (xnum : Vec F S1024x1024 .f32) : Vec F S1x1024x1024 .f32 := VO.read (Elt F) (VO.writes (Elt F) VO.junk (runLast c i arg3 harg3 arg4 harg4 arg5 harg5 arg6 harg6 arg7 harg7 arg8 harg8 arg9 harg9 hc1 hc2 xq xk xm xmax xden xnum).1)
theorem coverMaxLast (c : Dev nD) (i : grid0.Coords) (arg3 : Memref sig .tc .vmem S1x1024x1024 .bf16) (harg3 : arg3.IsWhole) (arg4 : Memref sig .tc .vmem S1x1024x1024 .bf16) (harg4 : arg4.IsWhole) (arg5 : Memref sig .tc .vmem S1x1x1024 .f32) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc1 : ¬isFirst i) (hc2 : isLast i) (xq : Vec F S1x1024x1024 .bf16) (xk : Vec F S1x1024x1024 .bf16) (xm : Vec F S1x1x1024 .f32) (xmax : Vec F S1024x1 .f32) (xden : Vec F S1024x1 .f32) (xnum : Vec F S1024x1024 .f32) (y : S1024x1.Idx) : ∃ pc ∈ (runLast c i arg3 harg3 arg4 harg4 arg5 harg5 arg6 harg6 arg7 harg7 arg8 harg8 arg9 harg9 hc1 hc2 xq xk xm xmax xden xnum).2.1, y ∈ pc.1.set :=
  View.cover_of_tiledL (runLast c i arg3 harg3 arg4 harg4 arg5 harg5 arg6 harg6 arg7 harg7 arg8 harg8 arg9 harg9 hc1 hc2 xq xk xm xmax xden xnum).2.1 S1024x1.size (by sl_kernel_rfl) y
/-- The row maxima after a last key tile. -/
def maxLast (c : Dev nD) (i : grid0.Coords) (arg3 : Memref sig .tc .vmem S1x1024x1024 .bf16) (harg3 : arg3.IsWhole) (arg4 : Memref sig .tc .vmem S1x1024x1024 .bf16) (harg4 : arg4.IsWhole) (arg5 : Memref sig .tc .vmem S1x1x1024 .f32) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc1 : ¬isFirst i) (hc2 : isLast i) (xq : Vec F S1x1024x1024 .bf16) (xk : Vec F S1x1024x1024 .bf16) (xm : Vec F S1x1x1024 .f32) (xmax : Vec F S1024x1 .f32) (xden : Vec F S1024x1 .f32) (xnum : Vec F S1024x1024 .f32) : Vec F S1024x1 .f32 := VMax.read (Elt F) (VMax.writes (Elt F) VMax.junk (runLast c i arg3 harg3 arg4 harg4 arg5 harg5 arg6 harg6 arg7 harg7 arg8 harg8 arg9 harg9 hc1 hc2 xq xk xm xmax xden xnum).2.1)
theorem coverDenLast (c : Dev nD) (i : grid0.Coords) (arg3 : Memref sig .tc .vmem S1x1024x1024 .bf16) (harg3 : arg3.IsWhole) (arg4 : Memref sig .tc .vmem S1x1024x1024 .bf16) (harg4 : arg4.IsWhole) (arg5 : Memref sig .tc .vmem S1x1x1024 .f32) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc1 : ¬isFirst i) (hc2 : isLast i) (xq : Vec F S1x1024x1024 .bf16) (xk : Vec F S1x1024x1024 .bf16) (xm : Vec F S1x1x1024 .f32) (xmax : Vec F S1024x1 .f32) (xden : Vec F S1024x1 .f32) (xnum : Vec F S1024x1024 .f32) (y : S1024x1.Idx) : ∃ pc ∈ (runLast c i arg3 harg3 arg4 harg4 arg5 harg5 arg6 harg6 arg7 harg7 arg8 harg8 arg9 harg9 hc1 hc2 xq xk xm xmax xden xnum).2.2.1, y ∈ pc.1.set :=
  View.cover_of_tiledL (runLast c i arg3 harg3 arg4 harg4 arg5 harg5 arg6 harg6 arg7 harg7 arg8 harg8 arg9 harg9 hc1 hc2 xq xk xm xmax xden xnum).2.2.1 S1024x1.size (by sl_kernel_rfl) y
/-- The row denominators after a last key tile. -/
def denLast (c : Dev nD) (i : grid0.Coords) (arg3 : Memref sig .tc .vmem S1x1024x1024 .bf16) (harg3 : arg3.IsWhole) (arg4 : Memref sig .tc .vmem S1x1024x1024 .bf16) (harg4 : arg4.IsWhole) (arg5 : Memref sig .tc .vmem S1x1x1024 .f32) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc1 : ¬isFirst i) (hc2 : isLast i) (xq : Vec F S1x1024x1024 .bf16) (xk : Vec F S1x1024x1024 .bf16) (xm : Vec F S1x1x1024 .f32) (xmax : Vec F S1024x1 .f32) (xden : Vec F S1024x1 .f32) (xnum : Vec F S1024x1024 .f32) : Vec F S1024x1 .f32 := VDen.read (Elt F) (VDen.writes (Elt F) VDen.junk (runLast c i arg3 harg3 arg4 harg4 arg5 harg5 arg6 harg6 arg7 harg7 arg8 harg8 arg9 harg9 hc1 hc2 xq xk xm xmax xden xnum).2.2.1)
theorem coverNumLast (c : Dev nD) (i : grid0.Coords) (arg3 : Memref sig .tc .vmem S1x1024x1024 .bf16) (harg3 : arg3.IsWhole) (arg4 : Memref sig .tc .vmem S1x1024x1024 .bf16) (harg4 : arg4.IsWhole) (arg5 : Memref sig .tc .vmem S1x1x1024 .f32) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc1 : ¬isFirst i) (hc2 : isLast i) (xq : Vec F S1x1024x1024 .bf16) (xk : Vec F S1x1024x1024 .bf16) (xm : Vec F S1x1x1024 .f32) (xmax : Vec F S1024x1 .f32) (xden : Vec F S1024x1 .f32) (xnum : Vec F S1024x1024 .f32) (y : S1024x1024.Idx) : ∃ pc ∈ (runLast c i arg3 harg3 arg4 harg4 arg5 harg5 arg6 harg6 arg7 harg7 arg8 harg8 arg9 harg9 hc1 hc2 xq xk xm xmax xden xnum).2.2.2.1, y ∈ pc.1.set :=
  View.cover_of_tiledL (runLast c i arg3 harg3 arg4 harg4 arg5 harg5 arg6 harg6 arg7 harg7 arg8 harg8 arg9 harg9 hc1 hc2 xq xk xm xmax xden xnum).2.2.2.1 S1024x1024.size (by sl_kernel_rfl) y
/-- The row numerators after a last key tile. -/
def numLast (c : Dev nD) (i : grid0.Coords) (arg3 : Memref sig .tc .vmem S1x1024x1024 .bf16) (harg3 : arg3.IsWhole) (arg4 : Memref sig .tc .vmem S1x1024x1024 .bf16) (harg4 : arg4.IsWhole) (arg5 : Memref sig .tc .vmem S1x1x1024 .f32) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc1 : ¬isFirst i) (hc2 : isLast i) (xq : Vec F S1x1024x1024 .bf16) (xk : Vec F S1x1024x1024 .bf16) (xm : Vec F S1x1x1024 .f32) (xmax : Vec F S1024x1 .f32) (xden : Vec F S1024x1 .f32) (xnum : Vec F S1024x1024 .f32) : Vec F S1024x1024 .f32 := VNum.read (Elt F) (VNum.writes (Elt F) VNum.junk (runLast c i arg3 harg3 arg4 harg4 arg5 harg5 arg6 harg6 arg7 harg7 arg8 harg8 arg9 harg9 hc1 hc2 xq xk xm xmax xden xnum).2.2.2.1)

/-! ## Point by point -/

/-- The output block, the row maxima, the row denominators and the row numerators. -/
abbrev Outs (F : FTy → Type) [FloatOps F] : Type := Vec F S1x1024x1024 .f32 × Vec F S1024x1 .f32 × Vec F S1024x1 .f32 × Vec F S1024x1024 .f32

theorem first_of (t : Fin cfg0.N) (h0 : t.val % 2 = 0) : isFirst (grid0.coords t) := (isFirst_iff t).mpr h0
theorem notLast_of (t : Fin cfg0.N) (h0 : t.val % 2 = 0) : ¬isLast (grid0.coords t) := fun h => Nat.zero_ne_one (h0.symm.trans ((isLast_iff t).mp h))
theorem notFirst_of (t : Fin cfg0.N) (h0 : ¬t.val % 2 = 0) : ¬isFirst (grid0.coords t) := fun h => h0 ((isFirst_iff t).mp h)
theorem last_of (t : Fin cfg0.N) (h0 : ¬t.val % 2 = 0) : isLast (grid0.coords t) := (isLast_iff t).mpr (Nat.mod_two_ne_zero.mp h0)

/-- What a first key tile leaves at point `t`, from the point's blocks. -/
def firstAt (c : Dev nD) (t : Fin cfg0.N) (h0 : t.val % 2 = 0) : Outs F :=
  (oFirst c (grid0.coords t) (msQ t) (hsQ t) (msK t) (hsK t) (msM t) (hsM t) (msO t) (hsO t) scMax (Memref.isWhole_whole _) scDen (Memref.isWhole_whole _) scNum (Memref.isWhole_whole _) (first_of t h0) (notLast_of t h0) (iblk m c 0 t) (iblk m c 1 t) (iblk m c 2 t),
   maxFirst c (grid0.coords t) (msQ t) (hsQ t) (msK t) (hsK t) (msM t) (hsM t) (msO t) (hsO t) scMax (Memref.isWhole_whole _) scDen (Memref.isWhole_whole _) scNum (Memref.isWhole_whole _) (first_of t h0) (notLast_of t h0) (iblk m c 0 t) (iblk m c 1 t) (iblk m c 2 t),
   denFirst c (grid0.coords t) (msQ t) (hsQ t) (msK t) (hsK t) (msM t) (hsM t) (msO t) (hsO t) scMax (Memref.isWhole_whole _) scDen (Memref.isWhole_whole _) scNum (Memref.isWhole_whole _) (first_of t h0) (notLast_of t h0) (iblk m c 0 t) (iblk m c 1 t) (iblk m c 2 t),
   numFirst c (grid0.coords t) (msQ t) (hsQ t) (msK t) (hsK t) (msM t) (hsM t) (msO t) (hsO t) scMax (Memref.isWhole_whole _) scDen (Memref.isWhole_whole _) scNum (Memref.isWhole_whole _) (first_of t h0) (notLast_of t h0) (iblk m c 0 t) (iblk m c 1 t) (iblk m c 2 t))

/-- What a last key tile leaves at point `t`, from the point's blocks and the statistics `prev` the point before left. -/
def lastAt (c : Dev nD) (t : Fin cfg0.N) (h0 : ¬t.val % 2 = 0) (prev : Outs F) : Outs F :=
  (oLast c (grid0.coords t) (msQ t) (hsQ t) (msK t) (hsK t) (msM t) (hsM t) (msO t) (hsO t) scMax (Memref.isWhole_whole _) scDen (Memref.isWhole_whole _) scNum (Memref.isWhole_whole _) (notFirst_of t h0) (last_of t h0) (iblk m c 0 t) (iblk m c 1 t) (iblk m c 2 t) prev.2.1 prev.2.2.1 prev.2.2.2,
   maxLast c (grid0.coords t) (msQ t) (hsQ t) (msK t) (hsK t) (msM t) (hsM t) (msO t) (hsO t) scMax (Memref.isWhole_whole _) scDen (Memref.isWhole_whole _) scNum (Memref.isWhole_whole _) (notFirst_of t h0) (last_of t h0) (iblk m c 0 t) (iblk m c 1 t) (iblk m c 2 t) prev.2.1 prev.2.2.1 prev.2.2.2,
   denLast c (grid0.coords t) (msQ t) (hsQ t) (msK t) (hsK t) (msM t) (hsM t) (msO t) (hsO t) scMax (Memref.isWhole_whole _) scDen (Memref.isWhole_whole _) scNum (Memref.isWhole_whole _) (notFirst_of t h0) (last_of t h0) (iblk m c 0 t) (iblk m c 1 t) (iblk m c 2 t) prev.2.1 prev.2.2.1 prev.2.2.2,
   numLast c (grid0.coords t) (msQ t) (hsQ t) (msK t) (hsK t) (msM t) (hsM t) (msO t) (hsO t) scMax (Memref.isWhole_whole _) scDen (Memref.isWhole_whole _) scNum (Memref.isWhole_whole _) (notFirst_of t h0) (last_of t h0) (iblk m c 0 t) (iblk m c 1 t) (iblk m c 2 t) prev.2.1 prev.2.2.1 prev.2.2.2)

/-- The four buffers after the body at position `n`. -/
def outsAt (c : Dev nD) : (n : ℕ) → n < cfg0.N → Outs F
  | 0, hn => firstAt m c ⟨0, hn⟩ (Nat.zero_mod 2)
  | n + 1, hn =>
    if h0 : (n + 1) % 2 = 0 then firstAt m c ⟨n + 1, hn⟩ h0
    else lastAt m c ⟨n + 1, hn⟩ h0 (outsAt c n (Nat.lt_of_succ_lt hn))

theorem outsAt_first (c : Dev nD) (t : Fin cfg0.N) (h0 : t.val % 2 = 0) : outsAt m c t.val t.isLt = firstAt m c t h0 := by
  obtain ⟨n, hn⟩ := t
  cases n with
  | zero => rfl
  | succ n => exact (dif_pos h0).trans rfl

theorem outsAt_last (c : Dev nD) (t : Fin cfg0.N) (h0 : ¬t.val % 2 = 0) :
    outsAt m c t.val t.isLt = lastAt m c t h0 (outsAt m c (t.val - 1) (Nat.lt_of_le_of_lt (Nat.sub_le _ _) t.isLt)) := by
  obtain ⟨n, hn⟩ := t
  cases n with
  | zero => exact absurd (Nat.zero_mod 2) h0
  | succ n => exact (dif_neg h0).trans rfl

/-! ## The invariant between points -/

/-- The region's scoped buffers that are no staging buffer are the three scratch buffers. -/
theorem scoped_eq (c : Dev nD) :
    (Pipeline.scopedRest (Ix := Unit) (Name := ℕ) (U := UR sig nD τ) (Lvl := ℕ) (Val := Elt F) spec0 c : sProp 𝕄)
      = iprop((∃ d, owns (c : Thread nD τ) scMax fullShare d) ∗ (∃ d, owns (c : Thread nD τ) scDen fullShare d) ∗ (∃ d, owns (c : Thread nD τ) scNum fullShare d)) := by
  rw [scopedRest0_eq]; simp only [scMax, scDen, scNum, owns_whole]; try rfl

/-- Before the first point the scratch buffers hold anything; afterwards what the point before left. -/
def PhiS (c : Dev nD) : (n : ℕ) → n ≤ cfg0.N → sProp 𝕄
  | 0, _ => Pipeline.scopedRest (Ix := Unit) (Name := ℕ) (U := UR sig nD τ) (Lvl := ℕ) (Val := Elt F) spec0 c
  | n + 1, hn => iprop(owns (c : Thread nD τ) scMax fullShare (outsAt m c n hn).2.1 ∗ owns (c : Thread nD τ) scDen fullShare (outsAt m c n hn).2.2.1 ∗ owns (c : Thread nD τ) scNum fullShare (outsAt m c n hn).2.2.2)

theorem PhiS_zero (c : Dev nD) (n : ℕ) (h : n ≤ cfg0.N) (hz : n = 0) :
    PhiS m c n h = Pipeline.scopedRest (Ix := Unit) (Name := ℕ) (U := UR sig nD τ) (Lvl := ℕ) (Val := Elt F) spec0 c := by
  subst hz; rfl
theorem PhiS_succ (c : Dev nD) (n : ℕ) (hn : n < cfg0.N) :
    PhiS m c (n + 1) hn = iprop(owns (c : Thread nD τ) scMax fullShare (outsAt m c n hn).2.1 ∗ owns (c : Thread nD τ) scDen fullShare (outsAt m c n hn).2.2.1 ∗ owns (c : Thread nD τ) scNum fullShare (outsAt m c n hn).2.2.2) := rfl
theorem PhiS_pos (c : Dev nD) (n : ℕ) (h : n ≤ cfg0.N) (hz : n ≠ 0) :
    PhiS m c n h = iprop(owns (c : Thread nD τ) scMax fullShare (outsAt m c (n - 1) (by omega)).2.1 ∗ owns (c : Thread nD τ) scDen fullShare (outsAt m c (n - 1) (by omega)).2.2.1 ∗ owns (c : Thread nD τ) scNum fullShare (outsAt m c (n - 1) (by omega)).2.2.2) := by
  cases n with
  | zero => exact absurd rfl hz
  | succ n => rfl

/-! ## The pipeline's proof data -/

/-- The arrays as the region finds them; after the body each input buffer at its block and the output buffer at
    `outsAt`; the invariant `PhiS`; the query window and the key window each hold half of their common array. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => (outsAt m c t.val t.isLt).1
  Φ t := PhiS m c t.val (Nat.le_of_lt_succ t.isLt)
  q w := match w with
    | ⟨0, _⟩ => fullShare.left
    | ⟨1, _⟩ => fullShare.right
    | ⟨2, _⟩ => fullShare
    | ⟨3, _⟩ => fullShare
  owed _ := 0

theorem A_eq (c : Dev nD) (w : Fin cfg0.W) : (dats m 0 c).A w = V m c (Pipeline.arrRef spec0 w) := by
  dsimp only [dats]
theorem PhiS_castSucc (c : Dev nD) (t : Fin cfg0.N) : (dats m 0 c).Φ t.castSucc = PhiS m c t.val (Nat.le_of_lt t.isLt) := by
  dsimp only [dats]; simp only [Fin.coe_castSucc]
theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = (outsAt m c t.val t.isLt).1 := by dsimp only [dats]
theorem before0 (c : Dev nD) (t : Fin cfg0.N) (d) : (dats m 0 c).before 0 t d = iblk m c 0 t :=
  before0_of m (dats m 0 c) (A_eq m c 0) (after0 m c) t d
theorem before1 (c : Dev nD) (t : Fin cfg0.N) (d) : (dats m 0 c).before 1 t d = iblk m c 1 t :=
  before1_of m (dats m 0 c) (A_eq m c 1) (after1 m c) t d
theorem before2 (c : Dev nD) (t : Fin cfg0.N) (d) : (dats m 0 c).before 2 t d = iblk m c 2 t :=
  before2_of m (dats m 0 c) (A_eq m c 2) (after2 m c) t d

end Cert.KernelIdeal.Tiles

end
-- ==== Proof.IdealPieces.lean ====
/-
  What the pieces the runs found ARE, as values: every store of the body overwrites its whole buffer, so each buffer
  ends at its last store's value, a pure function of the blocks the body loaded and (at a last key tile) of the
  statistics the first key tile left. At a first key tile the statistics start from the reset values — the finite
  stand-in for minus infinity for the row maxima, zero for the denominators and the numerators.
-/
import proofs.«128248_j38302518345838_2_alg».proof.Proof.IdealAccum
import Idealize.ShloMosaic.Lib.Pipeline.Value

set_option maxRecDepth 16384

noncomputable section

namespace Cert.KernelIdeal.Tiles

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem hz2 : (![0, 0] : Fin 2 → Nat) = fun _ => 0 := funext fun a => by fin_cases a <;> rfl
theorem hz3 : (![0, 0, 0] : Fin 3 → Nat) = fun _ => 0 := funext fun a => by fin_cases a <;> rfl

/-! ## A last key tile -/

theorem maxLast_eq (c : Dev nD) (i : grid0.Coords) (arg3 : Memref sig .tc .vmem S1x1024x1024 .bf16) (harg3 : arg3.IsWhole) (arg4 : Memref sig .tc .vmem S1x1024x1024 .bf16) (harg4 : arg4.IsWhole) (arg5 : Memref sig .tc .vmem S1x1x1024 .f32) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc1 : ¬isFirst i) (hc2 : isLast i) (xq : Vec F S1x1024x1024 .bf16) (xk : Vec F S1x1024x1024 .bf16) (xm : Vec F S1x1x1024 .f32) (xmax : Vec F S1024x1 .f32) (xden : Vec F S1024x1 .f32) (xnum : Vec F S1024x1024 .f32) : maxLast c i arg3 harg3 arg4 harg4 arg5 harg5 arg6 harg6 arg7 harg7 arg8 harg8 arg9 harg9 hc1 hc2 xq xk xm xmax xden xnum = k0_pay2 (k0_pay9 xq xk xm xmax) := by
  unfold maxLast
  rw [View.read_writes_eq_canon _ _ _ (coverMaxLast c i arg3 harg3 arg4 harg4 arg5 harg5 arg6 harg6 arg7 harg7 arg8 harg8 arg9 harg9 hc1 hc2 xq xk xm xmax xden xnum)]
  unfold runLast
  dsimp only
  sl_unfold_words
  rw [View.canon_unit_zero hz2]
  simp only [View.readAt_eq_ld, harg3.read_unread, harg4.read_unread, harg5.read_unread, harg6.read_unread, harg7.read_unread, harg8.read_unread, harg9.read_unread, View.ld_unit_zero (S := S1x1024x1024) hz3, View.ld_unit_zero (S := S1x1x1024) hz3, View.ld_unit_zero (S := S1024x1) hz2, View.ld_unit_zero (S := S1024x1024) hz2]

theorem denLast_eq (c : Dev nD) (i : grid0.Coords) (arg3 : Memref sig .tc .vmem S1x1024x1024 .bf16) (harg3 : arg3.IsWhole) (arg4 : Memref sig .tc .vmem S1x1024x1024 .bf16) (harg4 : arg4.IsWhole) (arg5 : Memref sig .tc .vmem S1x1x1024 .f32) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc1 : ¬isFirst i) (hc2 : isLast i) (xq : Vec F S1x1024x1024 .bf16) (xk : Vec F S1x1024x1024 .bf16) (xm : Vec F S1x1x1024 .f32) (xmax : Vec F S1024x1 .f32) (xden : Vec F S1024x1 .f32) (xnum : Vec F S1024x1024 .f32) : denLast c i arg3 harg3 arg4 harg4 arg5 harg5 arg6 harg6 arg7 harg7 arg8 harg8 arg9 harg9 hc1 hc2 xq xk xm xmax xden xnum = k0_pay13 xq xk xm xmax xden := by
  unfold denLast
  rw [View.read_writes_eq_canon _ _ _ (coverDenLast c i arg3 harg3 arg4 harg4 arg5 harg5 arg6 harg6 arg7 harg7 arg8 harg8 arg9 harg9 hc1 hc2 xq xk xm xmax xden xnum)]
  unfold runLast
  dsimp only
  sl_unfold_words
  rw [View.canon_unit_zero hz2]
  simp only [View.readAt_eq_ld, harg3.read_unread, harg4.read_unread, harg5.read_unread, harg6.read_unread, harg7.read_unread, harg8.read_unread, harg9.read_unread, View.ld_unit_zero (S := S1x1024x1024) hz3, View.ld_unit_zero (S := S1x1x1024) hz3, View.ld_unit_zero (S := S1024x1) hz2, View.ld_unit_zero (S := S1024x1024) hz2]

theorem numLast_eq (c : Dev nD) (i : grid0.Coords) (arg3 : Memref sig .tc .vmem S1x1024x1024 .bf16) (harg3 : arg3.IsWhole) (arg4 : Memref sig .tc .vmem S1x1024x1024 .bf16) (harg4 : arg4.IsWhole) (arg5 : Memref sig .tc .vmem S1x1x1024 .f32) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc1 : ¬isFirst i) (hc2 : isLast i) (xq : Vec F S1x1024x1024 .bf16) (xk : Vec F S1x1024x1024 .bf16) (xm : Vec F S1x1x1024 .f32) (xmax : Vec F S1024x1 .f32) (xden : Vec F S1024x1 .f32) (xnum : Vec F S1024x1024 .f32) : numLast c i arg3 harg3 arg4 harg4 arg5 harg5 arg6 harg6 arg7 harg7 arg8 harg8 arg9 harg9 hc1 hc2 xq xk xm xmax xden xnum = k0_pay1 (k0_pay7 xk) (k0_pay10 xq xk xm xmax) (k0_pay12 xq xk xm xmax) xnum := by
  unfold numLast
  rw [View.read_writes_eq_canon _ _ _ (coverNumLast c i arg3 harg3 arg4 harg4 arg5 harg5 arg6 harg6 arg7 harg7 arg8 harg8 arg9 harg9 hc1 hc2 xq xk xm xmax xden xnum)]
  unfold runLast
  dsimp only
  sl_unfold_words
  rw [View.canon_unit_zero hz2]
  simp only [View.readAt_eq_ld, harg3.read_unread, harg4.read_unread, harg5.read_unread, harg6.read_unread, harg7.read_unread, harg8.read_unread, harg9.read_unread, View.ld_unit_zero (S := S1x1024x1024) hz3, View.ld_unit_zero (S := S1x1x1024) hz3, View.ld_unit_zero (S := S1024x1) hz2, View.ld_unit_zero (S := S1024x1024) hz2]

theorem oLast_eq (c : Dev nD) (i : grid0.Coords) (arg3 : Memref sig .tc .vmem S1x1024x1024 .bf16) (harg3 : arg3.IsWhole) (arg4 : Memref sig .tc .vmem S1x1024x1024 .bf16) (harg4 : arg4.IsWhole) (arg5 : Memref sig .tc .vmem S1x1x1024 .f32) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc1 : ¬isFirst i) (hc2 : isLast i) (xq : Vec F S1x1024x1024 .bf16) (xk : Vec F S1x1024x1024 .bf16) (xm : Vec F S1x1x1024 .f32) (xmax : Vec F S1024x1 .f32) (xden : Vec F S1024x1 .f32) (xnum : Vec F S1024x1024 .f32) : oLast c i arg3 harg3 arg4 harg4 arg5 harg5 arg6 harg6 arg7 harg7 arg8 harg8 arg9 harg9 hc1 hc2 xq xk xm xmax xden xnum = k0_pay3 (k0_pay1 (k0_pay7 xk) (k0_pay10 xq xk xm xmax) (k0_pay12 xq xk xm xmax) xnum) (k0_pay13 xq xk xm xmax xden) := by
  unfold oLast
  rw [View.read_writes_eq_canon _ _ _ (coverOLast c i arg3 harg3 arg4 harg4 arg5 harg5 arg6 harg6 arg7 harg7 arg8 harg8 arg9 harg9 hc1 hc2 xq xk xm xmax xden xnum)]
  unfold runLast
  dsimp only
  sl_unfold_words
  rw [View.canon_unit_zero hz3]
  simp only [View.readCov_unit_zero (S := S1024x1) _ hz2, View.readCov_unit_zero (S := S1024x1024) _ hz2]
  simp only [View.readAt_eq_ld, harg3.read_unread, harg4.read_unread, harg5.read_unread, harg6.read_unread, harg7.read_unread, harg8.read_unread, harg9.read_unread, View.ld_unit_zero (S := S1x1024x1024) hz3, View.ld_unit_zero (S := S1x1x1024) hz3, View.ld_unit_zero (S := S1024x1) hz2, View.ld_unit_zero (S := S1024x1024) hz2]

/-! ## A first key tile -/

theorem maxFirst_eq (c : Dev nD) (i : grid0.Coords) (arg3 : Memref sig .tc .vmem S1x1024x1024 .bf16) (harg3 : arg3.IsWhole) (arg4 : Memref sig .tc .vmem S1x1024x1024 .bf16) (harg4 : arg4.IsWhole) (arg5 : Memref sig .tc .vmem S1x1x1024 .f32) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc1 : isFirst i) (hc2 : ¬isLast i) (xq : Vec F S1x1024x1024 .bf16) (xk : Vec F S1x1024x1024 .bf16) (xm : Vec F S1x1x1024 .f32) : maxFirst c i arg3 harg3 arg4 harg4 arg5 harg5 arg6 harg6 arg7 harg7 arg8 harg8 arg9 harg9 hc1 hc2 xq xk xm = k0_pay2 (k0_pay9 xq xk xm (k0_pay4 (F := F))) := by
  unfold maxFirst
  rw [View.read_writes_eq_canon _ _ _ (coverMaxFirst c i arg3 harg3 arg4 harg4 arg5 harg5 arg6 harg6 arg7 harg7 arg8 harg8 arg9 harg9 hc1 hc2 xq xk xm)]
  unfold runFirst
  dsimp only
  sl_unfold_words
  rw [View.canon_cons_unit_zero (S := S1024x1) hz2]
  simp only [View.readCov_unit_zero (S := S1024x1) _ hz2, View.readCov_unit_zero (S := S1024x1024) _ hz2]
  simp only [View.readAt_eq_ld, harg3.read_unread, harg4.read_unread, harg5.read_unread, harg6.read_unread, harg7.read_unread, harg8.read_unread, harg9.read_unread, View.ld_unit_zero (S := S1x1024x1024) hz3, View.ld_unit_zero (S := S1x1x1024) hz3, View.ld_unit_zero (S := S1024x1) hz2, View.ld_unit_zero (S := S1024x1024) hz2]

theorem denFirst_eq (c : Dev nD) (i : grid0.Coords) (arg3 : Memref sig .tc .vmem S1x1024x1024 .bf16) (harg3 : arg3.IsWhole) (arg4 : Memref sig .tc .vmem S1x1024x1024 .bf16) (harg4 : arg4.IsWhole) (arg5 : Memref sig .tc .vmem S1x1x1024 .f32) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc1 : isFirst i) (hc2 : ¬isLast i) (xq : Vec F S1x1024x1024 .bf16) (xk : Vec F S1x1024x1024 .bf16) (xm : Vec F S1x1x1024 .f32) : denFirst c i arg3 harg3 arg4 harg4 arg5 harg5 arg6 harg6 arg7 harg7 arg8 harg8 arg9 harg9 hc1 hc2 xq xk xm = k0_pay13 xq xk xm (k0_pay4 (F := F)) (k0_pay5 (F := F)) := by
  unfold denFirst
  rw [View.read_writes_eq_canon _ _ _ (coverDenFirst c i arg3 harg3 arg4 harg4 arg5 harg5 arg6 harg6 arg7 harg7 arg8 harg8 arg9 harg9 hc1 hc2 xq xk xm)]
  unfold runFirst
  dsimp only
  sl_unfold_words
  rw [View.canon_cons_unit_zero (S := S1024x1) hz2]
  simp only [View.readCov_unit_zero (S := S1024x1) _ hz2, View.readCov_unit_zero (S := S1024x1024) _ hz2]
  simp only [View.readAt_eq_ld, harg3.read_unread, harg4.read_unread, harg5.read_unread, harg6.read_unread, harg7.read_unread, harg8.read_unread, harg9.read_unread, View.ld_unit_zero (S := S1x1024x1024) hz3, View.ld_unit_zero (S := S1x1x1024) hz3, View.ld_unit_zero (S := S1024x1) hz2, View.ld_unit_zero (S := S1024x1024) hz2]

theorem numFirst_eq (c : Dev nD) (i : grid0.Coords) (arg3 : Memref sig .tc .vmem S1x1024x1024 .bf16) (harg3 : arg3.IsWhole) (arg4 : Memref sig .tc .vmem S1x1024x1024 .bf16) (harg4 : arg4.IsWhole) (arg5 : Memref sig .tc .vmem S1x1x1024 .f32) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc1 : isFirst i) (hc2 : ¬isLast i) (xq : Vec F S1x1024x1024 .bf16) (xk : Vec F S1x1024x1024 .bf16) (xm : Vec F S1x1x1024 .f32) : numFirst c i arg3 harg3 arg4 harg4 arg5 harg5 arg6 harg6 arg7 harg7 arg8 harg8 arg9 harg9 hc1 hc2 xq xk xm = k0_pay1 (k0_pay7 xk) (k0_pay10 xq xk xm (k0_pay4 (F := F))) (k0_pay12 xq xk xm (k0_pay4 (F := F))) (k0_pay6 (F := F)) := by
  unfold numFirst
  rw [View.read_writes_eq_canon _ _ _ (coverNumFirst c i arg3 harg3 arg4 harg4 arg5 harg5 arg6 harg6 arg7 harg7 arg8 harg8 arg9 harg9 hc1 hc2 xq xk xm)]
  unfold runFirst
  dsimp only
  sl_unfold_words
  rw [View.canon_cons_unit_zero (S := S1024x1024) hz2]
  simp only [View.readCov_unit_zero (S := S1024x1) _ hz2, View.readCov_unit_zero (S := S1024x1024) _ hz2]
  simp only [View.readAt_eq_ld, harg3.read_unread, harg4.read_unread, harg5.read_unread, harg6.read_unread, harg7.read_unread, harg8.read_unread, harg9.read_unread, View.ld_unit_zero (S := S1x1024x1024) hz3, View.ld_unit_zero (S := S1x1x1024) hz3, View.ld_unit_zero (S := S1024x1) hz2, View.ld_unit_zero (S := S1024x1024) hz2]

end Cert.KernelIdeal.Tiles

end
-- ==== Proof.Spec.lean ====
/-
  The mathematics both programs compute, stated once over the real numbers.

  Batch `b`, query row `q`, key row `k`, feature `d`. With Q = K = V = x, the scaled and masked
  score of query `q` against key `k` is  s(b,q,k) = (∑_d x(b,q,d)·x(b,k,d)) / 32 + mask(b,k)
  (32 = √1024), and attention is the softmax of a score row applied to the value rows:
    attn(b,q,d) = ∑_k  ( e^{s(b,q,k) − M} / ∑_j e^{s(b,q,j) − M} ) · x(b,k,d),   M = max_k s(b,q,k).
  The second half is the same quantity computed tile by tile over the keys with a running maximum,
  a running denominator and a running numerator (`online`), started from any real number `neg`.
-/
import Idealize.ShloMosaic.PureOps.Ideal

noncomputable section

namespace SoftmaxAttn

open Finset

/-- The scaled, masked score of query row `q` against key row `k` in batch `b`. -/
def score (x : Fin 4 → Fin 2048 → Fin 1024 → ℝ) (mk : Fin 4 → Fin 2048 → ℝ) (b : Fin 4) (q k : Fin 2048) : ℝ :=
  (∑ d : Fin 1024, x b q d * x b k d) * (1 / 32) + mk b k

/-- The largest entry of a row of 2048 scores. -/
def rowMax (s : Fin 2048 → ℝ) : ℝ := Finset.univ.sup' Finset.univ_nonempty s

/-- Softmax attention of one row: the weights e^{s k − M} / ∑_j e^{s j − M} applied to the values `v`. -/
def softmaxRow (s v : Fin 2048 → ℝ) : ℝ :=
  ∑ k : Fin 2048, (Real.exp (s k - rowMax s) / ∑ j : Fin 2048, Real.exp (s j - rowMax s)) * v k

/-- Attention with Q = K = V = `x` and an additive key mask `mk`. -/
def attn (x : Fin 4 → Fin 2048 → Fin 1024 → ℝ) (mk : Fin 4 → Fin 2048 → ℝ) (b : Fin 4) (q : Fin 2048) (d : Fin 1024) : ℝ :=
  softmaxRow (score x mk b q) (fun k => x b k d)

/-- Key `k` of the first tile of 1024 keys, as a key. -/
def lo (k : Fin 1024) : Fin 2048 := ⟨k.val, by omega⟩
/-- Key `k` of the second tile of 1024 keys, as a key. -/
def hi (k : Fin 1024) : Fin 2048 := ⟨k.val + 1024, by omega⟩

/-- The largest entry of a tile of 1024 scores. -/
def tileMax (s : Fin 1024 → ℝ) : ℝ := Finset.univ.sup' Finset.univ_nonempty s

/-- The running maximum after the first tile, started from `neg`. -/
def m0 (neg : ℝ) (s : Fin 2048 → ℝ) : ℝ := max neg (tileMax fun k => s (lo k))
/-- The running maximum after the second tile. -/
def m1 (neg : ℝ) (s : Fin 2048 → ℝ) : ℝ := max (m0 neg s) (tileMax fun k => s (hi k))
/-- The running denominator after the first tile (it starts at zero). -/
def l0 (neg : ℝ) (s : Fin 2048 → ℝ) : ℝ := Real.exp (neg - m0 neg s) * 0 + ∑ k : Fin 1024, Real.exp (s (lo k) - m0 neg s)
/-- The running denominator after the second tile. -/
def l1 (neg : ℝ) (s : Fin 2048 → ℝ) : ℝ :=
  Real.exp (m0 neg s - m1 neg s) * l0 neg s + ∑ k : Fin 1024, Real.exp (s (hi k) - m1 neg s)
/-- The running numerator after the first tile (it starts at zero). -/
def a0 (neg : ℝ) (s v : Fin 2048 → ℝ) : ℝ :=
  Real.exp (neg - m0 neg s) * 0 + ∑ k : Fin 1024, Real.exp (s (lo k) - m0 neg s) * v (lo k)
/-- The running numerator after the second tile. -/
def a1 (neg : ℝ) (s v : Fin 2048 → ℝ) : ℝ :=
  Real.exp (m0 neg s - m1 neg s) * a0 neg s v + ∑ k : Fin 1024, Real.exp (s (hi k) - m1 neg s) * v (hi k)
/-- What the tile-by-tile computation returns: numerator over denominator. -/
def online (neg : ℝ) (s v : Fin 2048 → ℝ) : ℝ := a1 neg s v / l1 neg s

open Idealize.ShloMosaic in
/-- A real array of shape 4×2048×1024 read as an array of extended reals over the programs' index type. -/
def arrX (x : Fin 4 → Fin 2048 → Fin 1024 → ℝ) : (⟨3, ![4, 2048, 1024]⟩ : Shape).Idx → EReal :=
  fun i => ((x ⟨(i 0).val, (i 0).isLt⟩ ⟨(i 1).val, (i 1).isLt⟩ ⟨(i 2).val, (i 2).isLt⟩ : ℝ) : EReal)

open Idealize.ShloMosaic in
/-- A real key mask of shape 4×1×2048 read as an array of extended reals over the programs' index type. -/
def arrM (mk : Fin 4 → Fin 2048 → ℝ) : (⟨3, ![4, 1, 2048]⟩ : Shape).Idx → EReal :=
  fun i => ((mk ⟨(i 0).val, (i 0).isLt⟩ ⟨(i 2).val, (i 2).isLt⟩ : ℝ) : EReal)

end SoftmaxAttn

end
-- ==== Proof.RefScalars.lean ====
/-
  The scalar facts the reference's softmax attention needs once its stages are read at an index: what the
  program's four float literals denote as extended reals (1024, 1, 0 and −∞), the scale 1/√1024 = 1/32, and how
  the coercion of a real into the extended reals passes through a finite sum, a maximum over the 2048 keys
  and a quotient by a nonzero real.
-/
import Idealize.ShloMosaic.PureOps.Ideal.Laws
import proofs.«128248_j38302518345838_2_alg».proof.Proof.Spec

noncomputable section

namespace Cert.ReferenceIdeal.RefValue

open Idealize.ShloMosaic Finset

/-- The pattern of `1024.0` denotes the real 1024. -/
theorem ofBits_1024 : Ideal.ofBits .f32 0x44800000#32 = ((1024 : ℝ) : EReal) := by
  simp [Ideal.ofBits, Ideal.ieee, -EReal.coe_mul]; norm_num

/-- The pattern of `1.0` denotes the real 1. -/
theorem ofBits_one : Ideal.ofBits .f32 0x3F800000#32 = ((1 : ℝ) : EReal) := by
  simp [Ideal.ofBits, Ideal.ieee, -EReal.coe_mul]; norm_num

/-- The pattern of `-inf` denotes −∞. -/
theorem ofBits_neg_inf : Ideal.ofBits .f32 0xFF800000#32 = (⊥ : EReal) := by
  simp [Ideal.ofBits, Ideal.ieee]

/-- √1024 = 32. -/
theorem sqrt_1024 : Real.sqrt 1024 = 32 := by
  rw [show (1024 : ℝ) = 32 * 32 by norm_num]
  exact Real.sqrt_mul_self (by norm_num)

/-- The score scale the reference computes, 1 / √1024, is the real 1/32. -/
theorem scale_eq :
    Ideal.div (Ideal.ofBits .f32 0x3F800000#32) (Ideal.sqrt (Ideal.ofBits .f32 0x44800000#32)) = (((1 : ℝ) / 32 : ℝ) : EReal) := by
  rw [ofBits_one, ofBits_1024, Ideal.sqrt_coe, if_neg (by norm_num), sqrt_1024,
    Ideal.div_coe (by norm_num : (32 : ℝ) ≠ 0), ← EReal.coe_mul, one_mul]

/-- The coercion of a finite sum of reals is the sum of the coercions. -/
theorem coe_sum {ι : Type} (s : Finset ι) (f : ι → ℝ) :
    ((∑ k ∈ s, f k : ℝ) : EReal) = ∑ k ∈ s, ((f k : ℝ) : EReal) := by
  classical
  induction s using Finset.induction_on with
  | empty => simp
  | insert a s ha ih => rw [Finset.sum_insert ha, Finset.sum_insert ha, EReal.coe_add, ih]

/-- Folding the maximum from −∞ over a row of 2048 coerced reals gives the coerced largest entry of the row. -/
theorem fold_max_coe (s : Fin 2048 → ℝ) :
    (Finset.univ : Finset (Fin 2048)).fold max (⊥ : EReal) (fun k => ((s k : ℝ) : EReal))
      = ((SoftmaxAttn.rowMax s : ℝ) : EReal) := by
  apply le_antisymm
  · rw [Finset.fold_max_le]
    refine ⟨bot_le, fun k _ => ?_⟩
    exact EReal.coe_le_coe_iff.2 (Finset.le_sup' s (Finset.mem_univ k))
  · rw [Finset.le_fold_max]
    obtain ⟨k, hk, e⟩ := Finset.exists_mem_eq_sup' (Finset.univ_nonempty (α := Fin 2048)) s
    exact Or.inr ⟨k, hk, by unfold SoftmaxAttn.rowMax; rw [e]⟩

/-- The quotient of two coerced reals with a nonzero divisor is the coerced quotient. -/
theorem div_coe_coe (e z : ℝ) (hz : z ≠ 0) : Ideal.div (e : EReal) (z : EReal) = ((e / z : ℝ) : EReal) := by
  rw [Ideal.div_coe hz, ← EReal.coe_mul, mul_one_div]

end Cert.ReferenceIdeal.RefValue

end
-- ==== Proof.IdealOps.lean ====
/-
  The operations of the attention body read at an index over the extended reals: the two matrix products as sums
  over the contracted coordinate (scores: a query row against a key row; numerators: a row of weights against a
  column of values), the lane reductions as a sum and a maximum over a row, and the layout operations between
  them. Also the two literals the body uses: the score scale, which is 1/32, and the finite stand-in for minus
  infinity the row maxima start from, which is some real number.
-/
import proofs.«128248_j38302518345838_2_alg».proof.Proof.Gen.KernelIdeal.Skeleton
import proofs.«128248_j38302518345838_2_alg».proof.Proof.Spec
import proofs.«128248_j38302518345838_2_alg».proof.Proof.RefScalars
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.TileValues

open Cert.KernelIdeal Cert.KernelIdeal.Gen
open Idealize.ShloMosaic Idealize.ShloMosaic.TcCoe Idealize.ShloMosaic.ValueIdx
open SoftmaxAttn

/-! ## The literals -/

/-- The score scale's pattern denotes 1/32. -/
theorem ofBits_scale : Ideal.ofBits .f32 0x3D000000#32 = (((1 : ℝ) / 32 : ℝ) : EReal) := by
  simp [Ideal.ofBits, Ideal.ieee, -EReal.coe_mul]; norm_num

/-- The pattern the row maxima start from denotes a real number (a large negative one; its value is never used). -/
theorem ofBits_start_real : ∃ r : ℝ, Ideal.ofBits .f32 0xFF333332#32 = (r : EReal) := by
  refine ⟨-(11744050 * 2 ^ 104), ?_⟩
  simp [Ideal.ofBits, Ideal.ieee, -EReal.coe_mul, -EReal.coe_neg]

/-- The real the row maxima start from. -/
def start : ℝ := Classical.choose ofBits_start_real
theorem ofBits_start : Ideal.ofBits .f32 0xFF333332#32 = ((start : ℝ) : EReal) := Classical.choose_spec ofBits_start_real

/-! ## The scores' matrix product: query row `r` against key row `k` -/

theorem lhsQK_0 (i : S1024x1024.Idx) (q : dot_S1024x1024_S1024x1024_S1024x1024_1_1_0_0_n_n.contr.Idx) : (dot_S1024x1024_S1024x1024_S1024x1024_1_1_0_0_n_n.lhsIdx i q 0).val = (i 0).val := by
  unfold DotDims.lhsIdx
  rw [dif_neg (show ¬(0 : Fin S1024x1024.rank) ∈ dot_S1024x1024_S1024x1024_S1024x1024_1_1_0_0_n_n.lhsBatch by decide), dif_pos (show (0 : Fin S1024x1024.rank) ∈ dot_S1024x1024_S1024x1024_S1024x1024_1_1_0_0_n_n.lhsNonContracting by decide)]
  rfl
theorem lhsQK_1 (i : S1024x1024.Idx) (q : dot_S1024x1024_S1024x1024_S1024x1024_1_1_0_0_n_n.contr.Idx) : (dot_S1024x1024_S1024x1024_S1024x1024_1_1_0_0_n_n.lhsIdx i q 1).val = (q ⟨0, by decide⟩).val :=
  dot_S1024x1024_S1024x1024_S1024x1024_1_1_0_0_n_n.lhsIdx_val_of_single rfl i q
theorem rhsQK_0 (i : S1024x1024.Idx) (q : dot_S1024x1024_S1024x1024_S1024x1024_1_1_0_0_n_n.contr.Idx) : (dot_S1024x1024_S1024x1024_S1024x1024_1_1_0_0_n_n.rhsIdx i q 0).val = (i 1).val := by
  unfold DotDims.rhsIdx
  rw [dif_neg (show ¬(0 : Fin S1024x1024.rank) ∈ dot_S1024x1024_S1024x1024_S1024x1024_1_1_0_0_n_n.rhsBatch by decide), dif_pos (show (0 : Fin S1024x1024.rank) ∈ dot_S1024x1024_S1024x1024_S1024x1024_1_1_0_0_n_n.rhsNonContracting by decide)]
  rfl
theorem rhsQK_1 (i : S1024x1024.Idx) (q : dot_S1024x1024_S1024x1024_S1024x1024_1_1_0_0_n_n.contr.Idx) : (dot_S1024x1024_S1024x1024_S1024x1024_1_1_0_0_n_n.rhsIdx i q 1).val = (q ⟨0, by decide⟩).val :=
  dot_S1024x1024_S1024x1024_S1024x1024_1_1_0_0_n_n.rhsIdx_val_of_single rfl i q

/-- Entry (r, k) of A·Bᵀ is the sum over the feature coordinate of A(r, ·)·B(k, ·). -/
theorem scoresProduct_at (A B : FVec Ideal S1024x1024 .bf16) (r k : Fin 1024) :
    matmul dot_S1024x1024_S1024x1024_S1024x1024_1_1_0_0_n_n none A B (constant S1024x1024 .f32 0x00000000#32) (ix2 r k) = ∑ d : Fin 1024, A (ix2 r d) * B (ix2 k d) := by
  simp only [matmul]
  rw [Ideal.matmul_constant_zero_apply, ← Equiv.sum_comp (contrEquiv1 dot_S1024x1024_S1024x1024_S1024x1024_1_1_0_0_n_n 1024 rfl rfl).symm]
  refine Finset.sum_congr rfl fun d _ => ?_
  have hk := contrEquiv1_symm_val dot_S1024x1024_S1024x1024_S1024x1024_1_1_0_0_n_n 1024 rfl rfl d
  have el : dot_S1024x1024_S1024x1024_S1024x1024_1_1_0_0_n_n.lhsIdx (ix2 r k) ((contrEquiv1 dot_S1024x1024_S1024x1024_S1024x1024_1_1_0_0_n_n 1024 rfl rfl).symm d) = ix2 r d := funext fun a => Fin.ext (by
    match a with
    | ⟨0, _⟩ => exact lhsQK_0 _ _
    | ⟨1, _⟩ => exact (lhsQK_1 _ _).trans hk)
  have er : dot_S1024x1024_S1024x1024_S1024x1024_1_1_0_0_n_n.rhsIdx (ix2 r k) ((contrEquiv1 dot_S1024x1024_S1024x1024_S1024x1024_1_1_0_0_n_n 1024 rfl rfl).symm d) = ix2 k d := funext fun a => Fin.ext (by
    match a with
    | ⟨0, _⟩ => exact rhsQK_0 _ _
    | ⟨1, _⟩ => exact (rhsQK_1 _ _).trans hk)
  rw [el, er]

/-! ## The numerators' matrix product: weight row `r` against value column `d` -/

theorem lhsPV_0 (i : S1024x1024.Idx) (q : dot_S1024x1024_S1024x1024_S1024x1024_1_0_0_1_n_n.contr.Idx) : (dot_S1024x1024_S1024x1024_S1024x1024_1_0_0_1_n_n.lhsIdx i q 0).val = (i 0).val := by
  unfold DotDims.lhsIdx
  rw [dif_neg (show ¬(0 : Fin S1024x1024.rank) ∈ dot_S1024x1024_S1024x1024_S1024x1024_1_0_0_1_n_n.lhsBatch by decide), dif_pos (show (0 : Fin S1024x1024.rank) ∈ dot_S1024x1024_S1024x1024_S1024x1024_1_0_0_1_n_n.lhsNonContracting by decide)]
  rfl
theorem lhsPV_1 (i : S1024x1024.Idx) (q : dot_S1024x1024_S1024x1024_S1024x1024_1_0_0_1_n_n.contr.Idx) : (dot_S1024x1024_S1024x1024_S1024x1024_1_0_0_1_n_n.lhsIdx i q 1).val = (q ⟨0, by decide⟩).val :=
  dot_S1024x1024_S1024x1024_S1024x1024_1_0_0_1_n_n.lhsIdx_val_of_single rfl i q
theorem rhsPV_0 (i : S1024x1024.Idx) (q : dot_S1024x1024_S1024x1024_S1024x1024_1_0_0_1_n_n.contr.Idx) : (dot_S1024x1024_S1024x1024_S1024x1024_1_0_0_1_n_n.rhsIdx i q 0).val = (q ⟨0, by decide⟩).val :=
  dot_S1024x1024_S1024x1024_S1024x1024_1_0_0_1_n_n.rhsIdx_val_of_single rfl i q
theorem rhsPV_1 (i : S1024x1024.Idx) (q : dot_S1024x1024_S1024x1024_S1024x1024_1_0_0_1_n_n.contr.Idx) : (dot_S1024x1024_S1024x1024_S1024x1024_1_0_0_1_n_n.rhsIdx i q 1).val = (i 1).val := by
  unfold DotDims.rhsIdx
  rw [dif_neg (show ¬(1 : Fin S1024x1024.rank) ∈ dot_S1024x1024_S1024x1024_S1024x1024_1_0_0_1_n_n.rhsBatch by decide), dif_pos (show (1 : Fin S1024x1024.rank) ∈ dot_S1024x1024_S1024x1024_S1024x1024_1_0_0_1_n_n.rhsNonContracting by decide)]
  rfl

/-- Entry (r, d) of W·B is the sum over the key coordinate of W(r, ·)·B(·, d). -/
theorem weightedValues_at (W B : FVec Ideal S1024x1024 .bf16) (r d : Fin 1024) :
    matmul dot_S1024x1024_S1024x1024_S1024x1024_1_0_0_1_n_n none W B (constant S1024x1024 .f32 0x00000000#32) (ix2 r d) = ∑ k : Fin 1024, W (ix2 r k) * B (ix2 k d) := by
  simp only [matmul]
  rw [Ideal.matmul_constant_zero_apply, ← Equiv.sum_comp (contrEquiv1 dot_S1024x1024_S1024x1024_S1024x1024_1_0_0_1_n_n 1024 rfl rfl).symm]
  refine Finset.sum_congr rfl fun k _ => ?_
  have hk := contrEquiv1_symm_val dot_S1024x1024_S1024x1024_S1024x1024_1_0_0_1_n_n 1024 rfl rfl k
  have el : dot_S1024x1024_S1024x1024_S1024x1024_1_0_0_1_n_n.lhsIdx (ix2 r d) ((contrEquiv1 dot_S1024x1024_S1024x1024_S1024x1024_1_0_0_1_n_n 1024 rfl rfl).symm k) = ix2 r k := funext fun a => Fin.ext (by
    match a with
    | ⟨0, _⟩ => exact lhsPV_0 _ _
    | ⟨1, _⟩ => exact (lhsPV_1 _ _).trans hk)
  have er : dot_S1024x1024_S1024x1024_S1024x1024_1_0_0_1_n_n.rhsIdx (ix2 r d) ((contrEquiv1 dot_S1024x1024_S1024x1024_S1024x1024_1_0_0_1_n_n 1024 rfl rfl).symm k) = ix2 k d := funext fun a => Fin.ext (by
    match a with
    | ⟨0, _⟩ => exact (rhsPV_0 _ _).trans hk
    | ⟨1, _⟩ => exact rhsPV_1 _ _)
  rw [el, er]

end Cert.KernelIdeal.TileValues

end
-- ==== Proof.IdealPayloads.lean ====
/-
  The body's arithmetic at an index, on real data. Write Q and K for the query and key blocks (1024 rows of 1024
  features), Mk for the mask block, and mx, dn, nm for the row maxima, denominators and numerators the body starts
  the tile with. The tile's scores are  s(r,k) = (∑_d Q(r,d)·K(k,d))/32 + Mk(k);  the new row maximum is
  M(r) = max(mx(r), max_k s(r,k));  the weights are e^{s(r,k) − M(r)};  the old statistics are rescaled by
  e^{mx(r) − M(r)}:  dn' = e^{mx−M}·dn + ∑_k e^{s−M},  nm'(r,d) = e^{mx−M}·nm(r,d) + ∑_k e^{s(r,k)−M}·K(k,d);  and the
  output is nm'/dn'. Every value is a real number because the data are.
-/
import proofs.«128248_j38302518345838_2_alg».proof.Proof.IdealOps

set_option maxRecDepth 16384

noncomputable section

namespace Cert.KernelIdeal.TileValues

open Cert.KernelIdeal Cert.KernelIdeal.Gen
open Idealize.ShloMosaic Idealize.ShloMosaic.TcCoe Idealize.ShloMosaic.ValueIdx
open SoftmaxAttn

open Cert.ReferenceIdeal.RefValue (coe_sum ofBits_neg_inf div_coe_coe)

/-! ## Layout and reductions over a row -/

/-- A vector of 1024 entries viewed as a column reads, at (r, 0), entry r. -/
theorem colCast_at {α : Type} (v : S1024.Idx → α) (h : S1024.ShapeCasts S1024x1) (r : Fin 1024) :
    shapeCast S1024x1 v h (ix2 r (0 : Fin 1)) = v (ix1 r) :=
  shapeCast_apply v h _ _ (by
    rw [Shape.rowMajor_val_one, Shape.rowMajor_val_two]
    show r.val = r.val * 1 + 0
    omega)

/-- A column broadcast across 1024 lanes reads, at (r, k), the column's entry r. -/
theorem colBroadcast_at {α : Type} (v : S1024x1.Idx → α) (h : S1024x1.Broadcasts S1024x1024) (r k : Fin 1024) :
    broadcastTo S1024x1024 v h (ix2 r k) = v (ix2 r (0 : Fin 1)) := by
  refine broadcastTo_apply v h (ix2 r k) (ix2 r (0 : Fin 1)) fun ax => ?_
  match ax with
  | ⟨0, _⟩ =>
    show r.val = if (1024 : Nat) = 1 then 0 else r.val
    rw [if_neg (by decide)]
  | ⟨1, _⟩ =>
    show 0 = if (1 : Nat) = 1 then 0 else k.val
    rw [if_pos rfl]

/-- The index of row r with lane k put back. -/
theorem lift_lane (h : S1024x1024.Reduces [1] S1024) (r : Fin 1024) (k : Fin (S1024x1024.size 1)) :
    h.lift (ix1 r) k = ix2 r (⟨k.val, k.isLt⟩ : Fin 1024) := by
  funext a; apply Fin.ext
  match a with
  | ⟨0, _⟩ => rfl
  | ⟨1, _⟩ => rfl

/-- The lane maximum of row r, from minus infinity. -/
theorem rowMaxTile_at (src : FVec Ideal S1024x1024 .f32) (h : S1024x1024.Reduces [1] S1024) (hφ : FKind.Formats .f32)
    (hacc : (0xFF800000#32 : BitVec 32) = 0xFF800000#32) (r : Fin 1024) :
    multiReduction (F := Ideal) .maximumf [1] S1024 src 0xFF800000#32 h hφ hacc (ix1 r)
      = (Finset.univ : Finset (Fin 1024)).fold max (⊥ : EReal) (fun k => src (ix2 r k)) := by
  refine (Ideal.multiReduction_maximumf_single src 0xFF800000#32 h hφ hacc (ix1 r)).trans ?_
  refine congrArg₂ (fun a f => Finset.fold max a f (Finset.univ : Finset (Fin 1024))) ofBits_neg_inf (funext fun k => ?_)
  show src (h.lift (ix1 r) k) = _
  rw [lift_lane h r k]
  rfl

/-- The lane sum of row r. -/
theorem rowSumTile_at (src : FVec Ideal S1024x1024 .f32) (h : S1024x1024.Reduces [1] S1024) (hφ : FKind.Formats .f32)
    (hacc : (0x00000000#32 : BitVec 32) = 0x00000000#32) (r : Fin 1024) :
    multiReduction (F := Ideal) .add [1] S1024 src 0x00000000#32 h hφ hacc (ix1 r) = ∑ k : Fin 1024, src (ix2 r k) := by
  refine (Ideal.multiReduction_add_single src 0x00000000#32 h hφ hacc (ix1 r)).trans ?_
  refine Finset.sum_congr rfl fun k _ => ?_
  rw [lift_lane h r k]
  rfl

/-- The maximum, from minus infinity, of a tile of 1024 real scores is the tile's largest score. -/
theorem fold_max_tile (s : Fin 1024 → ℝ) :
    (Finset.univ : Finset (Fin 1024)).fold max (⊥ : EReal) (fun k => ((s k : ℝ) : EReal)) = ((tileMax s : ℝ) : EReal) := by
  apply le_antisymm
  · rw [Finset.fold_max_le]
    refine ⟨bot_le, fun k _ => ?_⟩
    exact EReal.coe_le_coe_iff.2 (Finset.le_sup' s (Finset.mem_univ k))
  · rw [Finset.le_fold_max]
    obtain ⟨k, hk, e⟩ := Finset.exists_mem_eq_sup' (Finset.univ_nonempty (α := Fin 1024)) s
    exact Or.inr ⟨k, hk, by unfold tileMax; rw [e]⟩

/-! ## The tile's statistics -/

/-- The scaled, masked score of query row r against key row k of the tile. -/
def tileScore (Q K : Fin 1024 → Fin 1024 → ℝ) (Mk : Fin 1024 → ℝ) (r k : Fin 1024) : ℝ :=
  (∑ d : Fin 1024, Q r d * K k d) * (1 / 32) + Mk k

/-- The new row maximum. -/
def newMax (Q K : Fin 1024 → Fin 1024 → ℝ) (Mk : Fin 1024 → ℝ) (mx : Fin 1024 → ℝ) (r : Fin 1024) : ℝ :=
  max (mx r) (tileMax (tileScore Q K Mk r))

/-- The coercion of the larger of two reals is the larger of the coercions. -/
theorem coe_max_real (a b : ℝ) : max (a : EReal) (b : EReal) = ((max a b : ℝ) : EReal) := by
  rcases le_total a b with h | h
  · rw [max_eq_right h, max_eq_right (EReal.coe_le_coe_iff.2 h)]
  · rw [max_eq_left h, max_eq_left (EReal.coe_le_coe_iff.2 h)]

/-- The exponential of a vector, entry by entry. -/
theorem exp_apply {s : Shape} {φ : FTy} (a : FVec Ideal s φ) (i : s.Idx) : exp a i = Ideal.exp (a i) := rfl

theorem score_at (xq xk : Vec Ideal S1x1024x1024 .bf16) (xm : Vec Ideal S1x1x1024 .f32)
    (Q K : Fin 1024 → Fin 1024 → ℝ) (Mk : Fin 1024 → ℝ)
    (hq : ∀ r d, xq (ix3 (0 : Fin 1) r d) = ((Q r d : ℝ) : EReal))
    (hk : ∀ k d, xk (ix3 (0 : Fin 1) k d) = ((K k d : ℝ) : EReal))
    (hm : ∀ k, xm (ix3 (0 : Fin 1) (0 : Fin 1) k) = ((Mk k : ℝ) : EReal)) (r k : Fin 1024) :
    k0_pay8 (F := Ideal) xq xk xm (ix2 r k) = ((tileScore Q K Mk r k : ℝ) : EReal) := by
  have e : k0_pay8 (F := Ideal) xq xk xm (ix2 r k)
      = matmul dot_S1024x1024_S1024x1024_S1024x1024_1_1_0_0_n_n none (shapeCast S1024x1024 xq shapeCasts_S1x1024x1024_S1024x1024) (shapeCast S1024x1024 xk shapeCasts_S1x1024x1024_S1024x1024) (constant S1024x1024 .f32 0x00000000#32) (ix2 r k)
          * Ideal.ofBits .f32 0x3D000000#32
        + broadcastTo S1024x1024 (shapeCast S1x1024 xm shapeCasts_S1x1x1024_S1x1024) broadcasts_S1x1024_S1024x1024 (ix2 r k) := rfl
  rw [e, scoresProduct_at, broadcastTo_1b_ab_apply, shapeCast_1ab_ab_apply, hm, ofBits_scale]
  simp only [shapeCast_1ab_ab_apply, hq, hk]
  unfold tileScore
  rw [EReal.coe_add, EReal.coe_mul, coe_sum]
  simp only [EReal.coe_mul]

theorem newMax_at (xq xk : Vec Ideal S1x1024x1024 .bf16) (xm : Vec Ideal S1x1x1024 .f32)
    (Q K : Fin 1024 → Fin 1024 → ℝ) (Mk : Fin 1024 → ℝ)
    (hq : ∀ r d, xq (ix3 (0 : Fin 1) r d) = ((Q r d : ℝ) : EReal))
    (hk : ∀ k d, xk (ix3 (0 : Fin 1) k d) = ((K k d : ℝ) : EReal))
    (hm : ∀ k, xm (ix3 (0 : Fin 1) (0 : Fin 1) k) = ((Mk k : ℝ) : EReal)) (xmax : Vec Ideal S1024x1 .f32) (mx : Fin 1024 → ℝ) (hmax : ∀ r, xmax (ix2 r (0 : Fin 1)) = ((mx r : ℝ) : EReal)) (r : Fin 1024) :
    k0_pay9 (F := Ideal) xq xk xm xmax (ix2 r (0 : Fin 1)) = ((newMax Q K Mk mx r : ℝ) : EReal) := by
  unfold k0_pay9
  rw [maximumf_apply, colCast_at, rowMaxTile_at, hmax]
  simp only [score_at xq xk xm Q K Mk hq hk hm]
  rw [fold_max_tile]
  unfold newMax
  exact coe_max_real _ _

theorem rescale_at (xq xk : Vec Ideal S1x1024x1024 .bf16) (xm : Vec Ideal S1x1x1024 .f32)
    (Q K : Fin 1024 → Fin 1024 → ℝ) (Mk : Fin 1024 → ℝ)
    (hq : ∀ r d, xq (ix3 (0 : Fin 1) r d) = ((Q r d : ℝ) : EReal))
    (hk : ∀ k d, xk (ix3 (0 : Fin 1) k d) = ((K k d : ℝ) : EReal))
    (hm : ∀ k, xm (ix3 (0 : Fin 1) (0 : Fin 1) k) = ((Mk k : ℝ) : EReal)) (xmax : Vec Ideal S1024x1 .f32) (mx : Fin 1024 → ℝ) (hmax : ∀ r, xmax (ix2 r (0 : Fin 1)) = ((mx r : ℝ) : EReal)) (r : Fin 1024) :
    k0_pay10 (F := Ideal) xq xk xm xmax (ix2 r (0 : Fin 1)) = ((Real.exp (mx r - newMax Q K Mk mx r) : ℝ) : EReal) := by
  unfold k0_pay10
  rw [exp_apply, subf_apply]
  rw [newMax_at xq xk xm Q K Mk hq hk hm xmax mx hmax, hmax]
  rw [← EReal.coe_sub, Ideal.exp_coe]

theorem weight_at (xq xk : Vec Ideal S1x1024x1024 .bf16) (xm : Vec Ideal S1x1x1024 .f32)
    (Q K : Fin 1024 → Fin 1024 → ℝ) (Mk : Fin 1024 → ℝ)
    (hq : ∀ r d, xq (ix3 (0 : Fin 1) r d) = ((Q r d : ℝ) : EReal))
    (hk : ∀ k d, xk (ix3 (0 : Fin 1) k d) = ((K k d : ℝ) : EReal))
    (hm : ∀ k, xm (ix3 (0 : Fin 1) (0 : Fin 1) k) = ((Mk k : ℝ) : EReal)) (xmax : Vec Ideal S1024x1 .f32) (mx : Fin 1024 → ℝ) (hmax : ∀ r, xmax (ix2 r (0 : Fin 1)) = ((mx r : ℝ) : EReal)) (r k : Fin 1024) :
    k0_pay11 (F := Ideal) xq xk xm xmax (ix2 r k) = ((Real.exp (tileScore Q K Mk r k - newMax Q K Mk mx r) : ℝ) : EReal) := by
  unfold k0_pay11
  rw [exp_apply, subf_apply]
  rw [colBroadcast_at, newMax_at xq xk xm Q K Mk hq hk hm xmax mx hmax, score_at xq xk xm Q K Mk hq hk hm]
  rw [← EReal.coe_sub, Ideal.exp_coe]

/-- The rounded weights are the weights. -/
theorem weight_rounded_at (xq xk : Vec Ideal S1x1024x1024 .bf16) (xm : Vec Ideal S1x1x1024 .f32) (xmax : Vec Ideal S1024x1 .f32) (i : S1024x1024.Idx) :
    k0_pay12 (F := Ideal) xq xk xm xmax i = k0_pay11 (F := Ideal) xq xk xm xmax i := rfl

/-- The key block viewed as a matrix. -/
theorem keys_at (xk : Vec Ideal S1x1024x1024 .bf16) (k d : Fin 1024) : k0_pay7 (F := Ideal) xk (ix2 k d) = xk (ix3 (0 : Fin 1) k d) := by
  unfold k0_pay7
  exact shapeCast_1ab_ab_apply _ _ _ _

end Cert.KernelIdeal.TileValues

end
-- ==== Proof.IdealPayloads2.lean ====
/-
  The tile's new denominator, new numerator and the final quotient at an index, and the values the statistics are
  reset to at a first key tile.
-/
import proofs.«128248_j38302518345838_2_alg».proof.Proof.IdealPayloads

set_option maxRecDepth 16384

noncomputable section

namespace Cert.KernelIdeal.TileValues

open Cert.KernelIdeal Cert.KernelIdeal.Gen
open Idealize.ShloMosaic Idealize.ShloMosaic.TcCoe Idealize.ShloMosaic.ValueIdx
open SoftmaxAttn

open Cert.ReferenceIdeal.RefValue (coe_sum ofBits_neg_inf div_coe_coe)

theorem newDen_at (xq xk : Vec Ideal S1x1024x1024 .bf16) (xm : Vec Ideal S1x1x1024 .f32)
    (Q K : Fin 1024 → Fin 1024 → ℝ) (Mk : Fin 1024 → ℝ)
    (hq : ∀ r d, xq (ix3 (0 : Fin 1) r d) = ((Q r d : ℝ) : EReal))
    (hk : ∀ k d, xk (ix3 (0 : Fin 1) k d) = ((K k d : ℝ) : EReal))
    (hm : ∀ k, xm (ix3 (0 : Fin 1) (0 : Fin 1) k) = ((Mk k : ℝ) : EReal)) (xmax : Vec Ideal S1024x1 .f32) (mx : Fin 1024 → ℝ) (hmax : ∀ r, xmax (ix2 r (0 : Fin 1)) = ((mx r : ℝ) : EReal))
    (xden : Vec Ideal S1024x1 .f32) (dn : Fin 1024 → ℝ) (hden : ∀ r, xden (ix2 r (0 : Fin 1)) = ((dn r : ℝ) : EReal)) (r : Fin 1024) :
    k0_pay13 (F := Ideal) xq xk xm xmax xden (ix2 r (0 : Fin 1))
      = ((Real.exp (mx r - newMax Q K Mk mx r) * dn r + ∑ k : Fin 1024, Real.exp (tileScore Q K Mk r k - newMax Q K Mk mx r) : ℝ) : EReal) := by
  unfold k0_pay13
  rw [shapeCast_self, addf_apply, mulf_apply, colCast_at, rowSumTile_at, rescale_at xq xk xm Q K Mk hq hk hm xmax mx hmax, hden]
  simp only [weight_at xq xk xm Q K Mk hq hk hm xmax mx hmax]
  rw [EReal.coe_add, EReal.coe_mul, coe_sum]

theorem newNum_at (xq xk : Vec Ideal S1x1024x1024 .bf16) (xm : Vec Ideal S1x1x1024 .f32)
    (Q K : Fin 1024 → Fin 1024 → ℝ) (Mk : Fin 1024 → ℝ)
    (hq : ∀ r d, xq (ix3 (0 : Fin 1) r d) = ((Q r d : ℝ) : EReal))
    (hk : ∀ k d, xk (ix3 (0 : Fin 1) k d) = ((K k d : ℝ) : EReal))
    (hm : ∀ k, xm (ix3 (0 : Fin 1) (0 : Fin 1) k) = ((Mk k : ℝ) : EReal)) (xmax : Vec Ideal S1024x1 .f32) (mx : Fin 1024 → ℝ) (hmax : ∀ r, xmax (ix2 r (0 : Fin 1)) = ((mx r : ℝ) : EReal))
    (xnum : Vec Ideal S1024x1024 .f32) (nm : Fin 1024 → Fin 1024 → ℝ) (hnum : ∀ r d, xnum (ix2 r d) = ((nm r d : ℝ) : EReal)) (r d : Fin 1024) :
    k0_pay1 (F := Ideal) (k0_pay7 xk) (k0_pay10 xq xk xm xmax) (k0_pay12 xq xk xm xmax) xnum (ix2 r d)
      = ((Real.exp (mx r - newMax Q K Mk mx r) * nm r d + ∑ k : Fin 1024, Real.exp (tileScore Q K Mk r k - newMax Q K Mk mx r) * K k d : ℝ) : EReal) := by
  unfold k0_pay1
  rw [shapeCast_self, addf_apply, mulf_apply, colBroadcast_at, weightedValues_at, rescale_at xq xk xm Q K Mk hq hk hm xmax mx hmax, hnum]
  simp only [weight_rounded_at, weight_at xq xk xm Q K Mk hq hk hm xmax mx hmax, keys_at, hk]
  rw [EReal.coe_add, EReal.coe_mul, coe_sum]
  simp only [EReal.coe_mul]

/-- The output block is numerator over denominator, row by row. -/
theorem quotient_at (num : Vec Ideal S1024x1024 .f32) (den : Vec Ideal S1024x1 .f32) (r d : Fin 1024) :
    k0_pay3 (F := Ideal) num den (ix3 (0 : Fin 1) r d) = Ideal.div (num (ix2 r d)) (den (ix2 r (0 : Fin 1))) := by
  unfold k0_pay3
  rw [shapeCast_ab_1ab_apply, divf_apply, colBroadcast_at]

/-! ## The reset values -/

theorem resetMax_at (r : Fin 1024) : k0_pay4 (F := Ideal) (ix2 r (0 : Fin 1)) = ((start : ℝ) : EReal) := by
  unfold k0_pay4
  rw [shapeCast_self]
  exact ofBits_start
theorem resetDen_at (r : Fin 1024) : k0_pay5 (F := Ideal) (ix2 r (0 : Fin 1)) = (((0 : ℝ) : ℝ) : EReal) := by
  unfold k0_pay5
  rw [shapeCast_self]
  exact Ideal.ofBits_zero_f32
theorem resetNum_at (r d : Fin 1024) : k0_pay6 (F := Ideal) (ix2 r d) = (((0 : ℝ) : ℝ) : EReal) := by
  unfold k0_pay6
  rw [shapeCast_self]
  exact Ideal.ofBits_zero_f32
/-- The row maxima are stored as computed. -/
theorem storeMax_eq (v : FVec Ideal S1024x1 .f32) : k0_pay2 (F := Ideal) v = v := by
  unfold k0_pay2
  exact shapeCast_self _ _

end Cert.KernelIdeal.TileValues

end
-- ==== Proof.IdealBodyAll.lean ====
/-
  The body at any grid point. An even point is a first key tile, an odd point a last one; the matching run applies:
  the input buffers hold their blocks, the invariant hands the body the scratch buffers (at anything before the very
  first point, else at what the point before left) and takes them back at this point's contents.
-/
import proofs.«128248_j38302518345838_2_alg».proof.Proof.IdealAccum

set_option maxRecDepth 16384

noncomputable section

namespace Cert.KernelIdeal.Tiles

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (msQ t) fullShare ((dats m 0 c).before 0 t d))
    ∗ (∃ d, owns (c : Thread nD τ) (msK t) fullShare ((dats m 0 c).before 1 t d))
    ∗ (∃ d, owns (c : Thread nD τ) (msM t) fullShare ((dats m 0 c).before 2 t d))
    ∗ (∃ d, owns (c : Thread nD τ) (msO t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t)

set_option maxHeartbeats 4800000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2]
  rw [show (dats m 0 c).owesAt () t.succ = (dats m 0 c).owesAt () t.castSucc from rfl]
  rw [show (dats m 0 c).Φ t.succ = PhiS m c (t.val + 1) t.isLt from rfl, PhiS_succ]
  rw [show (dats m 0 c).leavesExact 0 t = owns (c : Thread nD τ) (msQ t) fullShare ((dats m 0 c).after 0 t) from by
    unfold Dat.leavesExact; rw [live0 t], after0]
  rw [show (dats m 0 c).leavesExact 1 t = owns (c : Thread nD τ) (msK t) fullShare ((dats m 0 c).after 1 t) from by
    unfold Dat.leavesExact; rw [live1 t], after1]
  rw [show (dats m 0 c).leavesExact 2 t = owns (c : Thread nD τ) (msM t) fullShare ((dats m 0 c).after 2 t) from by
    unfold Dat.leavesExact; rw [live2 t], after2]
  by_cases h0 : t.val % 2 = 0
  · rw [Dat.leavesExact_idle (dats m 0 c) 3 t (idle3_first t (first_of t h0) (notLast_of t h0)) (noFlush3_first t (first_of t h0) (notLast_of t h0))]
    rw [outsAt_first m c t h0]
    unfold firstAt maxFirst denFirst numFirst; (try dsimp only)
    by_cases hz : t.val = 0
    · rw [PhiS_castSucc m c t, PhiS_zero m c _ _ hz, scoped_eq]
      iintro ⟨⟨H7, H8, H9⟩, Ho, ⟨%d0, H0⟩, ⟨%d1, H1⟩, ⟨%d2, H2⟩, ⟨%d3, H3⟩⟩
      iapply ((runFirst c (grid0.coords t) (msQ t) (hsQ t) (msK t) (hsK t) (msM t) (hsM t) (msO t) (hsO t) scMax (Memref.isWhole_whole _) scDen (Memref.isWhole_whole _) scNum (Memref.isWhole_whole _) (first_of t h0) (notLast_of t h0) (iblk m c 0 t) (iblk m c 1 t) (iblk m c 2 t)).2.2.2.2 _ Set.univ _)
      isplitl [H0]; · iexact H0
      isplitl [H1]; · iexact H1
      isplitl [H2]; · iexact H2
      isplitl [H3]; · iexact H3
      isplitl [H7]; · iexact H7
      isplitl [H8]; · iexact H8
      isplitl [H9]; · iexact H9
      iintro ⟨H0, H1, H2, H3, ⟨%e7, H7⟩, ⟨%e8, H8⟩, ⟨%e9, H9⟩⟩
      isplitl [H7 H8 H9]
      · isplitl [H7]
        · unfold owns; iexists _; isplitr
          swap; · iexact H7
          ipureintro; exact View.read_writes_of_cover _ _ _ _ _ (coverMaxFirst c (grid0.coords t) (msQ t) (hsQ t) (msK t) (hsK t) (msM t) (hsM t) (msO t) (hsO t) scMax (Memref.isWhole_whole _) scDen (Memref.isWhole_whole _) scNum (Memref.isWhole_whole _) (first_of t h0) (notLast_of t h0) (iblk m c 0 t) (iblk m c 1 t) (iblk m c 2 t))
        isplitl [H8]
        · unfold owns; iexists _; isplitr
          swap; · iexact H8
          ipureintro; exact View.read_writes_of_cover _ _ _ _ _ (coverDenFirst c (grid0.coords t) (msQ t) (hsQ t) (msK t) (hsK t) (msM t) (hsM t) (msO t) (hsO t) scMax (Memref.isWhole_whole _) scDen (Memref.isWhole_whole _) scNum (Memref.isWhole_whole _) (first_of t h0) (notLast_of t h0) (iblk m c 0 t) (iblk m c 1 t) (iblk m c 2 t))
        · unfold owns; iexists _; isplitr
          swap; · iexact H9
          ipureintro; exact View.read_writes_of_cover _ _ _ _ _ (coverNumFirst c (grid0.coords t) (msQ t) (hsQ t) (msK t) (hsK t) (msM t) (hsM t) (msO t) (hsO t) scMax (Memref.isWhole_whole _) scDen (Memref.isWhole_whole _) scNum (Memref.isWhole_whole _) (first_of t h0) (notLast_of t h0) (iblk m c 0 t) (iblk m c 1 t) (iblk m c 2 t))
      isplitl [Ho]; · iexact Ho
      isplitl [H0]; · iexact H0
      isplitl [H1]; · iexact H1
      isplitl [H2]; · iexact H2
      iexists _; iexact H3
    · rw [PhiS_castSucc m c t, PhiS_pos m c _ _ hz]
      iintro ⟨⟨H7, H8, H9⟩, Ho, ⟨%d0, H0⟩, ⟨%d1, H1⟩, ⟨%d2, H2⟩, ⟨%d3, H3⟩⟩
      iapply ((runFirst c (grid0.coords t) (msQ t) (hsQ t) (msK t) (hsK t) (msM t) (hsM t) (msO t) (hsO t) scMax (Memref.isWhole_whole _) scDen (Memref.isWhole_whole _) scNum (Memref.isWhole_whole _) (first_of t h0) (notLast_of t h0) (iblk m c 0 t) (iblk m c 1 t) (iblk m c 2 t)).2.2.2.2 _ Set.univ _)
      isplitl [H0]; · iexact H0
      isplitl [H1]; · iexact H1
      isplitl [H2]; · iexact H2
      isplitl [H3]; · iexact H3
      isplitl [H7]; · iexists _; iexact H7
      isplitl [H8]; · iexists _; iexact H8
      isplitl [H9]; · iexists _; iexact H9
      iintro ⟨H0, H1, H2, H3, ⟨%e7, H7⟩, ⟨%e8, H8⟩, ⟨%e9, H9⟩⟩
      isplitl [H7 H8 H9]
      · isplitl [H7]
        · unfold owns; iexists _; isplitr
          swap; · iexact H7
          ipureintro; exact View.read_writes_of_cover _ _ _ _ _ (coverMaxFirst c (grid0.coords t) (msQ t) (hsQ t) (msK t) (hsK t) (msM t) (hsM t) (msO t) (hsO t) scMax (Memref.isWhole_whole _) scDen (Memref.isWhole_whole _) scNum (Memref.isWhole_whole _) (first_of t h0) (notLast_of t h0) (iblk m c 0 t) (iblk m c 1 t) (iblk m c 2 t))
        isplitl [H8]
        · unfold owns; iexists _; isplitr
          swap; · iexact H8
          ipureintro; exact View.read_writes_of_cover _ _ _ _ _ (coverDenFirst c (grid0.coords t) (msQ t) (hsQ t) (msK t) (hsK t) (msM t) (hsM t) (msO t) (hsO t) scMax (Memref.isWhole_whole _) scDen (Memref.isWhole_whole _) scNum (Memref.isWhole_whole _) (first_of t h0) (notLast_of t h0) (iblk m c 0 t) (iblk m c 1 t) (iblk m c 2 t))
        · unfold owns; iexists _; isplitr
          swap; · iexact H9
          ipureintro; exact View.read_writes_of_cover _ _ _ _ _ (coverNumFirst c (grid0.coords t) (msQ t) (hsQ t) (msK t) (hsK t) (msM t) (hsM t) (msO t) (hsO t) scMax (Memref.isWhole_whole _) scDen (Memref.isWhole_whole _) scNum (Memref.isWhole_whole _) (first_of t h0) (notLast_of t h0) (iblk m c 0 t) (iblk m c 1 t) (iblk m c 2 t))
      isplitl [Ho]; · iexact Ho
      isplitl [H0]; · iexact H0
      isplitl [H1]; · iexact H1
      isplitl [H2]; · iexact H2
      iexists _; iexact H3
  · rw [show (dats m 0 c).leavesExact 3 t = owns (c : Thread nD τ) (msO t) fullShare ((dats m 0 c).after 3 t) from by
      unfold Dat.leavesExact; rw [live3_last t (notFirst_of t h0) (last_of t h0)], after3]
    rw [outsAt_last m c t h0]
    unfold lastAt oLast maxLast denLast numLast; (try dsimp only)
    have hz : t.val ≠ 0 := fun h => h0 (by rw [h])
    rw [PhiS_castSucc m c t, PhiS_pos m c _ _ hz]
    iintro ⟨⟨H7, H8, H9⟩, Ho, ⟨%d0, H0⟩, ⟨%d1, H1⟩, ⟨%d2, H2⟩, ⟨%d3, H3⟩⟩
    iapply ((runLast c (grid0.coords t) (msQ t) (hsQ t) (msK t) (hsK t) (msM t) (hsM t) (msO t) (hsO t) scMax (Memref.isWhole_whole _) scDen (Memref.isWhole_whole _) scNum (Memref.isWhole_whole _) (notFirst_of t h0) (last_of t h0) (iblk m c 0 t) (iblk m c 1 t) (iblk m c 2 t) (outsAt m c (t.val - 1) (Nat.lt_of_le_of_lt (Nat.sub_le _ _) t.isLt)).2.1 (outsAt m c (t.val - 1) (Nat.lt_of_le_of_lt (Nat.sub_le _ _) t.isLt)).2.2.1 (outsAt m c (t.val - 1) (Nat.lt_of_le_of_lt (Nat.sub_le _ _) t.isLt)).2.2.2).2.2.2.2 Set.univ _)
    isplitl [H0]; · iexact H0
    isplitl [H1]; · iexact H1
    isplitl [H2]; · iexact H2
    isplitl [H3]; · iexists _; iexact H3
    isplitl [H7]; · iexact H7
    isplitl [H8]; · iexact H8
    isplitl [H9]; · iexact H9
    iintro ⟨H0, H1, H2, ⟨%e6, H3⟩, ⟨%e7, H7⟩, ⟨%e8, H8⟩, ⟨%e9, H9⟩⟩
    isplitl [H7 H8 H9]
    · isplitl [H7]
      · unfold owns; iexists _; isplitr
        swap; · iexact H7
        ipureintro; exact View.read_writes_of_cover _ _ _ _ _ (coverMaxLast c (grid0.coords t) (msQ t) (hsQ t) (msK t) (hsK t) (msM t) (hsM t) (msO t) (hsO t) scMax (Memref.isWhole_whole _) scDen (Memref.isWhole_whole _) scNum (Memref.isWhole_whole _) (notFirst_of t h0) (last_of t h0) (iblk m c 0 t) (iblk m c 1 t) (iblk m c 2 t) (outsAt m c (t.val - 1) (Nat.lt_of_le_of_lt (Nat.sub_le _ _) t.isLt)).2.1 (outsAt m c (t.val - 1) (Nat.lt_of_le_of_lt (Nat.sub_le _ _) t.isLt)).2.2.1 (outsAt m c (t.val - 1) (Nat.lt_of_le_of_lt (Nat.sub_le _ _) t.isLt)).2.2.2)
      isplitl [H8]
      · unfold owns; iexists _; isplitr
        swap; · iexact H8
        ipureintro; exact View.read_writes_of_cover _ _ _ _ _ (coverDenLast c (grid0.coords t) (msQ t) (hsQ t) (msK t) (hsK t) (msM t) (hsM t) (msO t) (hsO t) scMax (Memref.isWhole_whole _) scDen (Memref.isWhole_whole _) scNum (Memref.isWhole_whole _) (notFirst_of t h0) (last_of t h0) (iblk m c 0 t) (iblk m c 1 t) (iblk m c 2 t) (outsAt m c (t.val - 1) (Nat.lt_of_le_of_lt (Nat.sub_le _ _) t.isLt)).2.1 (outsAt m c (t.val - 1) (Nat.lt_of_le_of_lt (Nat.sub_le _ _) t.isLt)).2.2.1 (outsAt m c (t.val - 1) (Nat.lt_of_le_of_lt (Nat.sub_le _ _) t.isLt)).2.2.2)
      · unfold owns; iexists _; isplitr
        swap; · iexact H9
        ipureintro; exact View.read_writes_of_cover _ _ _ _ _ (coverNumLast c (grid0.coords t) (msQ t) (hsQ t) (msK t) (hsK t) (msM t) (hsM t) (msO t) (hsO t) scMax (Memref.isWhole_whole _) scDen (Memref.isWhole_whole _) scNum (Memref.isWhole_whole _) (notFirst_of t h0) (last_of t h0) (iblk m c 0 t) (iblk m c 1 t) (iblk m c 2 t) (outsAt m c (t.val - 1) (Nat.lt_of_le_of_lt (Nat.sub_le _ _) t.isLt)).2.1 (outsAt m c (t.val - 1) (Nat.lt_of_le_of_lt (Nat.sub_le _ _) t.isLt)).2.2.1 (outsAt m c (t.val - 1) (Nat.lt_of_le_of_lt (Nat.sub_le _ _) t.isLt)).2.2.2)
    isplitl [Ho]; · iexact Ho
    isplitl [H0]; · iexact H0
    isplitl [H1]; · iexact H1
    isplitl [H2]; · iexact H2
    unfold owns; iexists _; isplitr
    swap; · iexact H3
    ipureintro; exact View.read_writes_of_cover _ _ _ _ _ (coverOLast c (grid0.coords t) (msQ t) (hsQ t) (msK t) (hsK t) (msM t) (hsM t) (msO t) (hsO t) scMax (Memref.isWhole_whole _) scDen (Memref.isWhole_whole _) scNum (Memref.isWhole_whole _) (notFirst_of t h0) (last_of t h0) (iblk m c 0 t) (iblk m c 1 t) (iblk m c 2 t) (outsAt m c (t.val - 1) (Nat.lt_of_le_of_lt (Nat.sub_le _ _) t.isLt)).2.1 (outsAt m c (t.val - 1) (Nat.lt_of_le_of_lt (Nat.sub_le _ _) t.isLt)).2.2.1 (outsAt m c (t.val - 1) (Nat.lt_of_le_of_lt (Nat.sub_le _ _) t.isLt)).2.2.2)

/-- The library's body obligation, at every point. -/
theorem body_obligation (c : Dev nD) : BodyObligation (dats (F := F) m 0 c) (defs₀ (F := F)) Variants.none () Set.univ := fun t => by
  rw [bigSep_W0, bigSep_W0]
  exact sound_body m c t

end Cert.KernelIdeal.Tiles

end
-- ==== Proof.IdealRun.lean ====
/-
  The run. The launch hands the region each array's buffer whole; the query window and the key window read ONE array,
  so its buffer is split into two halves, one per window, and the two halves are what the windows hold throughout (an
  input array is never written). With the body obligation of every point, every weakly fair execution of @main
  terminates with the output array at what the write-backs of the last-key-tile points left and both arguments
  as launched.
-/
import proofs.«128248_j38302518345838_2_alg».proof.Proof.IdealBodyAll
import Idealize.ShloMosaic.Lib.Pipeline.Kit

set_option maxRecDepth 16384

noncomputable section

namespace Cert.KernelIdeal.Tiles

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

open Idealize.ShloMosaic.Pipeline (BodyObligationLoose)

/-- The proof's resource algebra: one copy of the rounds library's, the pipeline's. -/
abbrev EP : Emb (UR sig nD τ) (MT nD τ sig Unit (Elt F) ℕ (UR sig nD τ) ℕ) := emb₁

/-- The launch element: the pipeline's cells at round zero, with the tokens of every transfer the pipeline issues. -/
def u₀ : UR sig nD τ := initOf (Pipeline.cells cfgs cellOf_inj) (Pipeline.launchToks cfgs cellOf_inj)

/-- The buffers behind the windows' arrays: the converted query/key array, the mask argument, the result. -/
theorem arrRefs_eq : Finset.univ.image (Pipeline.arrRef spec0) = {main_v0, main_arg1, main_v1} := by decide

/-- The windows' arrays, each a whole buffer, at the proof data's shares. -/
theorem arrays_eq' (c : Dev nD) (Fn : (w : Fin cfg0.W) → Buf (Elt F) ((cfg0.win w).arr.view.loc (c.tc : Thread nD τ))) :
    (dats m 0 c).arrays Fn = bigSep Finset.univ fun w => (((c.tc : Thread nD τ).loc (Pipeline.arrRef spec0 w)) ↦{(dats m 0 c).share w} Fn w : sProp 𝕄) := by
  unfold Dat.arrays
  exact bigSep_congr fun w _ => by rw [(arr_whole0 w).set_eq_univ]

theorem share0 (c : Dev nD) : (dats m 0 c).share 0 = fullShare.left := by unfold Dat.share; dsimp only [dats]; rfl
theorem share1 (c : Dev nD) : (dats m 0 c).share 1 = fullShare.right := by unfold Dat.share; dsimp only [dats]; rfl
theorem share2 (c : Dev nD) : (dats m 0 c).share 2 = fullShare := by unfold Dat.share; dsimp only [dats]; rfl
theorem share3 (c : Dev nD) : (dats m 0 c).share 3 = fullShare := by unfold Dat.share; rfl
theorem arrAt_zero (c : Dev nD) (w : Fin cfg0.W) : (dats m 0 c).arrAt w 0 = V m c (Pipeline.arrRef spec0 w) := by
  unfold Dat.arrAt; exact A_eq m c w

set_option maxHeartbeats 1000000 in
/-- The arrays' buffers whole are the windows' arrays at their shares: the query/key buffer in two halves. -/
theorem hsplit (c : Dev nD) :
    (Pipeline.arrBufs (Ix := Unit) (Name := ℕ) (U := UR sig nD τ) (Lvl := ℕ) spec0 c (V m c) : sProp 𝕄)
      ⊢ (dats m 0 c).arrays ((dats m 0 c).arrAt · 0) := by
  have hL : bigSep (Finset.univ.image (Pipeline.arrRef spec0)) (fun b => (((c.tc : Thread nD τ).loc b) ↦{fullShare} V m c b : sProp 𝕄))
      = iprop((((c.tc : Thread nD τ).loc main_v0) ↦{fullShare} V m c main_v0) ∗ (((c.tc : Thread nD τ).loc main_arg1) ↦{fullShare} V m c main_arg1)
          ∗ (((c.tc : Thread nD τ).loc main_v1) ↦{fullShare} V m c main_v1)) := by
    rw [arrRefs_eq, bigSep_insert (by decide), bigSep_insert (by decide), bigSep_singleton]; rfl
  unfold Pipeline.arrBufs
  rw [arrays_eq', bigSep_W0, hL, share0, share1, share2, share3]
  simp only [arrAt_zero]
  iintro ⟨Hqk, Hmk, Ho⟩
  ihave Hqk := (pointsTo_share (PosShare.mem_left_op_right fullShare)).1 $$ Hqk
  icases Hqk with ⟨Hq, Hk⟩
  isplitl [Hq]; · iexact Hq
  isplitl [Hk]; · iexact Hk
  isplitl [Hmk]; · iexact Hmk
  iexact Ho

/-- What the run establishes: the result array at the library's account of the write-backs, the arguments as launched. -/
def Post (r : PUnit × MemSt nD τ sig (Elt F)) : Prop :=
  ∀ c : Dev nD,
    r.2.mem ((c.tc : Thread nD τ).loc main_v1) = (dats m 0 c).arrAt 3 cfg0.N
    ∧ r.2.mem ((c.tc : Thread nD τ).loc main_arg0) = m ((c.tc : Thread nD τ).loc main_arg0)
    ∧ r.2.mem ((c.tc : Thread nD τ).loc main_arg1) = m ((c.tc : Thread nD τ).loc main_arg1)

set_option backward.isDefEq.respectTransparency.types false in
theorem run_main : θ_run defs (onTc (τ := τ) (main (F := F))) (s₀ m ρ) (Post m) :=
  Pipeline.θ_run_region_noSem_shared cfgs (dats m) () cellOf_inj (0 : Fin 1) winFacts₀0 EP defs₀ Variants.none m ρ main
    (hbody := fun c => (body_obligation m c).loose)
    (hne := block_pos0) (harr := arr_whole0) (hstage := stage_whole0)
    (howed := fun _ _ => rfl)
    (u₀ := u₀) (hu₀ := BI.Entails.refl _)
    (V := V m)
    (hmain := hmain m Variants.none)
    (hsplit := hsplit m)
    (X := fun _ => iprop(emp)) (Y := fun _ => iprop(emp))
    (Z := fun c => Pipeline.unscopedRest (Ix := Unit) (Name := ℕ) (U := UR sig nD τ) (Lvl := ℕ) spec0 c (V m c))
    (hX := fun c => by iintro H; isplitr; · iempintro
                       iexact H)
    (hin := fun c => by
      rw [show (dats m 0 c).Φ 0 = PhiS m c 0 (Nat.zero_le _) from rfl, PhiS_zero m c 0 _ rfl]
      iintro ⟨-, H⟩; iexact H)
    (hout := fun c => by
      rw [show (dats m 0 c).Φ (Fin.last cfg0.N) = PhiS m c (Fin.last cfg0.N).val (Nat.le_of_lt_succ (Fin.last cfg0.N).isLt) from rfl,
        PhiS_pos m c _ _ (by rw [Fin.val_last]; have : cfg0.N = 16 := N_0; omega), scoped_eq]
      iintro ⟨H7, H8, H9⟩
      isplitr; · iempintro
      isplitl [H7]; · iexists _; iexact H7
      isplitl [H8]; · iexists _; iexact H8
      iexists _; iexact H9)
    (QY := fun c s => s.mem ((c.tc : Thread nD τ).loc main_arg0) = V m c main_arg0)
    (hY := fun c s' => by
      rw [unscopedRest0_eq]
      iintro ⟨-, HA, HSI⟩
      icombine HSI HA gives %ha
      imodintro
      isplitr; · ipureintro; exact funext fun i => ha i (Finset.mem_univ i)
      iexact HSI)
    (hQ := fun s h c => ⟨(h c).1 3, (h c).2.trans (V_main_arg0 m c),
      ((h c).1 2).trans (((dats m 0 c).arrAt_in 2 rfl _).trans ((A_eq m c 2).trans (V_main_arg1 m c)))⟩)

/-- The frame: the program runs to the end, faults nowhere, and leaves both arguments as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => (h c).2) (run_main m ρ)

end Cert.KernelIdeal.Tiles

end
-- ==== Proof.OnlineSoftmax.lean ====
/-
  The tile-by-tile softmax computes the softmax: over the real numbers, the running numerator over
  the running denominator after both tiles equals the softmax of the whole score row applied to the
  values. Nothing about the maxima is used: the law holds for any real shifts.
-/
import proofs.«128248_j38302518345838_2_alg».proof.Proof.Spec

noncomputable section

namespace SoftmaxAttn

open Finset

/-- A sum over all 2048 keys is the sum over the first tile plus the sum over the second tile. -/
theorem sum_lo_hi (f : Fin 2048 → ℝ) :
    ∑ k : Fin 2048, f k = ∑ k : Fin 1024, f (lo k) + ∑ k : Fin 1024, f (hi k) := by
  have h := Fin.sum_univ_add (M := ℝ) (a := 1024) (b := 1024) f
  have hlo : ∀ k : Fin 1024, (Fin.castAdd 1024 k : Fin (1024 + 1024)) = lo k := fun k => Fin.ext rfl
  have hhi : ∀ k : Fin 1024, (Fin.natAdd 1024 k : Fin (1024 + 1024)) = hi k :=
    fun k => Fin.ext (Nat.add_comm _ _)
  simp only [hlo, hhi] at h
  exact h

/-- Rescaling from shift `c0` to shift `c1`: e^{c0 − c1} · e^{t − c0} = e^{t − c1}. -/
theorem exp_rescale (c0 c1 t : ℝ) : Real.exp (c0 - c1) * Real.exp (t - c0) = Real.exp (t - c1) := by
  rw [← Real.exp_add]
  congr 1
  ring

/-- Two-tile running denominator with arbitrary shifts `c0`, `c1`: the sum over all keys at shift `c1`. -/
theorem den_general (neg c0 c1 : ℝ) (s : Fin 2048 → ℝ) :
    Real.exp (c0 - c1) * (Real.exp (neg - c0) * 0 + ∑ k : Fin 1024, Real.exp (s (lo k) - c0))
        + ∑ k : Fin 1024, Real.exp (s (hi k) - c1)
      = ∑ k : Fin 2048, Real.exp (s k - c1) := by
  rw [sum_lo_hi (fun k => Real.exp (s k - c1)), mul_zero, zero_add, Finset.mul_sum]
  congr 1
  exact Finset.sum_congr rfl fun k _ => exp_rescale c0 c1 (s (lo k))

/-- Two-tile running numerator with arbitrary shifts `c0`, `c1`: the weighted sum over all keys at shift `c1`. -/
theorem num_general (neg c0 c1 : ℝ) (s v : Fin 2048 → ℝ) :
    Real.exp (c0 - c1) * (Real.exp (neg - c0) * 0 + ∑ k : Fin 1024, Real.exp (s (lo k) - c0) * v (lo k))
        + ∑ k : Fin 1024, Real.exp (s (hi k) - c1) * v (hi k)
      = ∑ k : Fin 2048, Real.exp (s k - c1) * v k := by
  rw [sum_lo_hi (fun k => Real.exp (s k - c1) * v k), mul_zero, zero_add, Finset.mul_sum]
  congr 1
  refine Finset.sum_congr rfl fun k _ => ?_
  rw [← mul_assoc, exp_rescale]

/-- Changing the shift from `M` to `c` multiplies every weight by e^{M − c}. -/
theorem sum_shift (c M : ℝ) (s w : Fin 2048 → ℝ) :
    ∑ k : Fin 2048, Real.exp (s k - c) * w k
      = Real.exp (M - c) * ∑ k : Fin 2048, Real.exp (s k - M) * w k := by
  rw [Finset.mul_sum]
  refine Finset.sum_congr rfl fun k _ => ?_
  rw [← mul_assoc, exp_rescale]

/-- The same for the unweighted sum. -/
theorem sum_shift_one (c M : ℝ) (s : Fin 2048 → ℝ) :
    ∑ k : Fin 2048, Real.exp (s k - c)
      = Real.exp (M - c) * ∑ k : Fin 2048, Real.exp (s k - M) := by
  rw [Finset.mul_sum]
  exact Finset.sum_congr rfl fun k _ => (exp_rescale M c (s k)).symm

/-- The softmax quotient does not depend on the shift. -/
theorem quot_shift (c M : ℝ) (s v : Fin 2048 → ℝ) :
    (∑ k : Fin 2048, Real.exp (s k - c) * v k) / (∑ k : Fin 2048, Real.exp (s k - c))
      = ∑ k : Fin 2048, (Real.exp (s k - M) / ∑ j : Fin 2048, Real.exp (s j - M)) * v k := by
  rw [sum_shift c M s v, sum_shift_one c M s, mul_div_mul_left _ _ (Real.exp_pos (M - c)).ne',
    Finset.sum_div]
  exact Finset.sum_congr rfl fun k _ => mul_div_right_comm _ _ _

/-- The running denominator after both tiles is the sum over all keys at the final shift. -/
theorem l1_eq (neg : ℝ) (s : Fin 2048 → ℝ) :
    l1 neg s = ∑ k : Fin 2048, Real.exp (s k - m1 neg s) :=
  den_general neg (m0 neg s) (m1 neg s) s

/-- The running numerator after both tiles is the weighted sum over all keys at the final shift. -/
theorem a1_eq (neg : ℝ) (s v : Fin 2048 → ℝ) :
    a1 neg s v = ∑ k : Fin 2048, Real.exp (s k - m1 neg s) * v k :=
  num_general neg (m0 neg s) (m1 neg s) s v

/-- The running denominator is positive: it is a nonempty sum of exponentials. -/
theorem l1_pos (neg : ℝ) (s : Fin 2048 → ℝ) : 0 < l1 neg s := by
  rw [l1_eq]
  exact Finset.sum_pos (fun k _ => Real.exp_pos _) Finset.univ_nonempty

/-- The tile-by-tile computation returns the softmax of the row applied to the values. -/
theorem online_eq_softmaxRow (neg : ℝ) (s v : Fin 2048 → ℝ) : online neg s v = softmaxRow s v := by
  unfold online softmaxRow
  rw [a1_eq, l1_eq]
  exact quot_shift (m1 neg s) (rowMax s) s v

end SoftmaxAttn

end
-- ==== Proof.IdealBlocks.lean ====
/-
  The kernel's result array, on real inputs. Grid point t has batch t/4, query tile (t/2) mod 2 and key tile t mod 2;
  its query block is rows (t/2 mod 2)·1024 … +1023 of the batch, its key block rows (t mod 2)·1024 … +1023 (the
  conversion of the first argument to the narrower format is the identity on extended reals, so both blocks are read off
  the first argument itself), its mask block the same key range. At an even point the statistics the body leaves are
  the first-tile statistics of the specification, started from the finite stand-in for minus infinity; at the odd point that follows, the
  second-tile statistics, and the block it stores is numerator over denominator: the tile-by-tile attention of those query rows.
  The odd points' blocks tile the result array.
-/
import proofs.«128248_j38302518345838_2_alg».proof.Proof.IdealPieces
import proofs.«128248_j38302518345838_2_alg».proof.Proof.IdealPayloads2
import proofs.«128248_j38302518345838_2_alg».proof.Proof.IdealRun
import proofs.«128248_j38302518345838_2_alg».proof.Proof.OnlineSoftmax

set_option maxRecDepth 16384

noncomputable section

namespace Cert.KernelIdeal.TileValues

open Cert.KernelIdeal Cert.KernelIdeal.Gen
open Idealize.ShloMosaic Idealize.ShloMosaic.TcCoe Idealize.ShloMosaic.ValueIdx
open SoftmaxAttn

open Cert.KernelIdeal.Tiles
open Idealize.ShloMosaic.Pipeline (Dat)
open Idealize.SL.Sem
open Cert.ReferenceIdeal.RefValue (div_coe_coe)

variable (m : (ℓ : Loc nD τ sig) → Buf (Elt Ideal) ℓ) (c : Dev nD)
variable (x : Fin 4 → Fin 2048 → Fin 1024 → ℝ) (mk : Fin 4 → Fin 2048 → ℝ)

/-! ## A point's coordinates -/

theorem N16 : cfg0.N = 16 := N_0
/-- The batch of point t. -/
def batchOf (t : Fin cfg0.N) : Fin 4 := ⟨t.val / 4, by have := t.isLt; have h := N16; omega⟩
/-- Row r of point t's query tile, as a row of the batch. -/
def qRow (t : Fin cfg0.N) (r : Fin 1024) : Fin 2048 := ⟨t.val / 2 % 2 * 1024 + r.val, by have := r.isLt; omega⟩
/-- Row k of point t's key tile, as a row of the batch. -/
def kRow (t : Fin cfg0.N) (k : Fin 1024) : Fin 2048 := ⟨t.val % 2 * 1024 + k.val, by have := k.isLt; omega⟩

theorem kRow_even (t : Fin cfg0.N) (h0 : t.val % 2 = 0) (k : Fin 1024) : kRow t k = lo k :=
  Fin.ext (by show t.val % 2 * 1024 + k.val = k.val; omega)
theorem kRow_odd (t : Fin cfg0.N) (h0 : ¬t.val % 2 = 0) (k : Fin 1024) : kRow t k = hi k :=
  Fin.ext (by show t.val % 2 * 1024 + k.val = k.val + 1024; omega)

/-- The index maps, decided over the grid. -/
theorem idxQ : ∀ t : Fin cfg0.N, win0_0.index t (0 : Fin 3) = t.val / 4 ∧ win0_0.index t (1 : Fin 3) = t.val / 2 % 2 ∧ win0_0.index t (2 : Fin 3) = 0 :=
  (by decide +kernel : ∀ t : Fin grid0.N, _)
theorem idxK : ∀ t : Fin cfg0.N, win0_1.index t (0 : Fin 3) = t.val / 4 ∧ win0_1.index t (1 : Fin 3) = t.val % 2 ∧ win0_1.index t (2 : Fin 3) = 0 :=
  (by decide +kernel : ∀ t : Fin grid0.N, _)
theorem idxM : ∀ t : Fin cfg0.N, win0_2.index t (0 : Fin 3) = t.val / 4 ∧ win0_2.index t (1 : Fin 3) = 0 ∧ win0_2.index t (2 : Fin 3) = t.val % 2 :=
  (by decide +kernel : ∀ t : Fin grid0.N, _)
theorem idxO : ∀ t : Fin cfg0.N, win0_3.index t (0 : Fin 3) = t.val / 4 ∧ win0_3.index t (1 : Fin 3) = t.val / 2 % 2 ∧ win0_3.index t (2 : Fin 3) = 0 :=
  (by decide +kernel : ∀ t : Fin grid0.N, _)

/-! ## The arrays and the blocks -/

theorem arrX_of (i : (⟨3, ![4, 2048, 1024]⟩ : Shape).Idx) (B : Fin 4) (R : Fin 2048) (D : Fin 1024)
    (h0 : (i 0).val = B.val) (h1 : (i 1).val = R.val) (h2 : (i 2).val = D.val) : arrX x i = ((x B R D : ℝ) : EReal) := by
  unfold arrX
  have e0 : (⟨(i 0).val, (i 0).isLt⟩ : Fin 4) = B := Fin.ext h0
  have e1 : (⟨(i 1).val, (i 1).isLt⟩ : Fin 2048) = R := Fin.ext h1
  have e2 : (⟨(i 2).val, (i 2).isLt⟩ : Fin 1024) = D := Fin.ext h2
  rw [e0, e1, e2]
theorem arrM_of (i : (⟨3, ![4, 1, 2048]⟩ : Shape).Idx) (B : Fin 4) (R : Fin 2048)
    (h0 : (i 0).val = B.val) (h2 : (i 2).val = R.val) : arrM mk i = ((mk B R : ℝ) : EReal) := by
  unfold arrM
  have e0 : (⟨(i 0).val, (i 0).isLt⟩ : Fin 4) = B := Fin.ext h0
  have e2 : (⟨(i 2).val, (i 2).isLt⟩ : Fin 2048) = R := Fin.ext h2
  rw [e0, e2]

/-- The converted query/key array is the first argument (a change of format is the identity on extended reals). -/
theorem V_qk (hx : m ((c : Thread nD τ).loc main_arg0) = arrX x) : (V m c main_v0 : S4x2048x1024.Idx → EReal) = arrX x := by
  have e : (V m c main_v0 : S4x2048x1024.Idx → EReal) = truncf (F := Ideal) .bf16 (m ((c : Thread nD τ).loc main_arg0)) bitsLt_bf16_f32 := by
    dsimp only [V, hostOps0]; after_results
  rw [e, hx]; rfl
theorem V_mask (hmk : m ((c : Thread nD τ).loc main_arg1) = arrM mk) : (V m c main_arg1 : S4x1x2048.Idx → EReal) = arrM mk := by
  rw [V_main_arg1]; exact hmk

theorem qblk_at (hx : m ((c : Thread nD τ).loc main_arg0) = arrX x) (t : Fin cfg0.N) (r d : Fin 1024) :
    (iblk m c 0 t : Vec Ideal S1x1024x1024 .bf16) (ix3 (0 : Fin 1) r d) = ((x (batchOf t) (qRow t r) d : ℝ) : EReal) := by
  obtain ⟨e0, e1, e2⟩ := idxQ t
  unfold iblk
  rw [View.read_apply]
  show (V m c main_v0 : S4x2048x1024.Idx → EReal) _ = _
  rw [V_qk m c x hx]
  refine arrX_of x _ _ _ _ ?_ ?_ ?_
  · show win0_0.index t (0 : Fin 3) * 1 + 1 * 0 = t.val / 4; omega
  · show win0_0.index t (1 : Fin 3) * 1024 + 1 * r.val = t.val / 2 % 2 * 1024 + r.val; omega
  · show win0_0.index t (2 : Fin 3) * 1024 + 1 * d.val = d.val; omega

theorem kblk_at (hx : m ((c : Thread nD τ).loc main_arg0) = arrX x) (t : Fin cfg0.N) (k d : Fin 1024) :
    (iblk m c 1 t : Vec Ideal S1x1024x1024 .bf16) (ix3 (0 : Fin 1) k d) = ((x (batchOf t) (kRow t k) d : ℝ) : EReal) := by
  obtain ⟨e0, e1, e2⟩ := idxK t
  unfold iblk
  rw [View.read_apply]
  show (V m c main_v0 : S4x2048x1024.Idx → EReal) _ = _
  rw [V_qk m c x hx]
  refine arrX_of x _ _ _ _ ?_ ?_ ?_
  · show win0_1.index t (0 : Fin 3) * 1 + 1 * 0 = t.val / 4; omega
  · show win0_1.index t (1 : Fin 3) * 1024 + 1 * k.val = t.val % 2 * 1024 + k.val; omega
  · show win0_1.index t (2 : Fin 3) * 1024 + 1 * d.val = d.val; omega

theorem mblk_at (hmk : m ((c : Thread nD τ).loc main_arg1) = arrM mk) (t : Fin cfg0.N) (k : Fin 1024) :
    (iblk m c 2 t : Vec Ideal S1x1x1024 .f32) (ix3 (0 : Fin 1) (0 : Fin 1) k) = ((mk (batchOf t) (kRow t k) : ℝ) : EReal) := by
  obtain ⟨e0, e1, e2⟩ := idxM t
  unfold iblk
  rw [View.read_apply]
  show (V m c main_arg1 : S4x1x2048.Idx → EReal) _ = _
  rw [V_mask m c mk hmk]
  refine arrM_of mk _ _ _ ?_ ?_
  · show win0_2.index t (0 : Fin 3) * 1 + 1 * 0 = t.val / 4; omega
  · show win0_2.index t (2 : Fin 3) * 1024 + 1 * k.val = t.val % 2 * 1024 + k.val; omega

end Cert.KernelIdeal.TileValues

end
-- ==== Proof.IdealStats.lean ====
/-
  The statistics point by point, and the result array. Write s for the 2048 scores of a query row against all keys of
  its batch and v for a column of values. After an even point the running maximum, denominator and numerator of a row
  are the specification's first-tile values m0, l0, a0 of (s, v); after the odd point that follows they are m1, l1, a1,
  and the block stored is a1 / l1, the tile-by-tile attention. The blocks stored at the odd points tile the result array.
-/
import proofs.«128248_j38302518345838_2_alg».proof.Proof.IdealBlocks

set_option maxRecDepth 16384

noncomputable section

namespace Cert.KernelIdeal.TileValues

open Cert.KernelIdeal Cert.KernelIdeal.Gen
open Idealize.ShloMosaic Idealize.ShloMosaic.TcCoe Idealize.ShloMosaic.ValueIdx
open SoftmaxAttn

open Cert.KernelIdeal.Tiles
open Idealize.ShloMosaic.Pipeline (Dat)
open Idealize.SL.Sem
open Cert.ReferenceIdeal.RefValue (div_coe_coe)

variable (m : (ℓ : Loc nD τ sig) → Buf (Elt Ideal) ℓ) (c : Dev nD)
variable (x : Fin 4 → Fin 2048 → Fin 1024 → ℝ) (mk : Fin 4 → Fin 2048 → ℝ)

/-- Point t's query block, key block and mask block as real matrices. -/
abbrev QT (t : Fin cfg0.N) : Fin 1024 → Fin 1024 → ℝ := fun r d => x (batchOf t) (qRow t r) d
abbrev KT (t : Fin cfg0.N) : Fin 1024 → Fin 1024 → ℝ := fun k d => x (batchOf t) (kRow t k) d
abbrev MT (t : Fin cfg0.N) : Fin 1024 → ℝ := fun k => mk (batchOf t) (kRow t k)

/-- A tile's scores are the row's scores against the tile's keys. -/
theorem tileScore_fn_even (t : Fin cfg0.N) (h0 : t.val % 2 = 0) (r : Fin 1024) :
    tileScore (QT x t) (KT x t) (MT mk t) r = fun k => score x mk (batchOf t) (qRow t r) (lo k) :=
  funext fun k => by rw [← kRow_even t h0 k]; rfl
theorem tileScore_fn_odd (t : Fin cfg0.N) (h0 : ¬t.val % 2 = 0) (r : Fin 1024) :
    tileScore (QT x t) (KT x t) (MT mk t) r = fun k => score x mk (batchOf t) (qRow t r) (hi k) :=
  funext fun k => by rw [← kRow_odd t h0 k]; rfl

/-! ## An even point: the first key tile -/

theorem newMax_even (t : Fin cfg0.N) (h0 : t.val % 2 = 0) (r : Fin 1024) :
    newMax (QT x t) (KT x t) (MT mk t) (fun _ => start) r = m0 start (score x mk (batchOf t) (qRow t r)) := by
  unfold newMax m0; rw [tileScore_fn_even x mk t h0 r]

theorem max_even (hx : m ((c : Thread nD τ).loc main_arg0) = arrX x) (hmk : m ((c : Thread nD τ).loc main_arg1) = arrM mk) (t : Fin cfg0.N) (h0 : t.val % 2 = 0) (r : Fin 1024) :
    (outsAt m c t.val t.isLt).2.1 (ix2 r (0 : Fin 1)) = ((m0 start (score x mk (batchOf t) (qRow t r)) : ℝ) : EReal) := by
  rw [outsAt_first m c t h0]; unfold firstAt; dsimp only
  rw [maxFirst_eq, storeMax_eq]
  refine (newMax_at _ _ _ (QT x t) (KT x t) (MT mk t) (qblk_at m c x hx t) (kblk_at m c x hx t) (mblk_at m c mk hmk t) _ (fun _ => start) (fun r => resetMax_at r) r).trans ?_
  rw [newMax_even x mk t h0 r]

theorem den_even (hx : m ((c : Thread nD τ).loc main_arg0) = arrX x) (hmk : m ((c : Thread nD τ).loc main_arg1) = arrM mk) (t : Fin cfg0.N) (h0 : t.val % 2 = 0) (r : Fin 1024) :
    (outsAt m c t.val t.isLt).2.2.1 (ix2 r (0 : Fin 1)) = ((l0 start (score x mk (batchOf t) (qRow t r)) : ℝ) : EReal) := by
  rw [outsAt_first m c t h0]; unfold firstAt; dsimp only
  rw [denFirst_eq]
  refine (newDen_at _ _ _ (QT x t) (KT x t) (MT mk t) (qblk_at m c x hx t) (kblk_at m c x hx t) (mblk_at m c mk hmk t) _ (fun _ => start) (fun r => resetMax_at r) _ (fun _ => 0) (fun r => resetDen_at r) r).trans ?_
  refine congrArg (fun a : ℝ => (a : EReal)) ?_
  rw [newMax_even x mk t h0 r, tileScore_fn_even x mk t h0 r]
  rfl

theorem num_even (hx : m ((c : Thread nD τ).loc main_arg0) = arrX x) (hmk : m ((c : Thread nD τ).loc main_arg1) = arrM mk) (t : Fin cfg0.N) (h0 : t.val % 2 = 0) (r d : Fin 1024) :
    (outsAt m c t.val t.isLt).2.2.2 (ix2 r d) = ((a0 start (score x mk (batchOf t) (qRow t r)) (fun k => x (batchOf t) k d) : ℝ) : EReal) := by
  rw [outsAt_first m c t h0]; unfold firstAt; dsimp only
  rw [numFirst_eq]
  refine (newNum_at _ _ _ (QT x t) (KT x t) (MT mk t) (qblk_at m c x hx t) (kblk_at m c x hx t) (mblk_at m c mk hmk t) _ (fun _ => start) (fun r => resetMax_at r) _ (fun _ _ => 0) (fun r d => resetNum_at r d) r d).trans ?_
  refine congrArg (fun a : ℝ => (a : EReal)) ?_
  rw [newMax_even x mk t h0 r, tileScore_fn_even x mk t h0 r]
  show _ = Real.exp (start - m0 start (score x mk (batchOf t) (qRow t r))) * 0 + ∑ k : Fin 1024, Real.exp ((score x mk (batchOf t) (qRow t r)) (lo k) - m0 start (score x mk (batchOf t) (qRow t r))) * x (batchOf t) (lo k) d
  simp only [KT, kRow_even t h0]

/-! ## An odd point: the last key tile, after the even point before it -/

/-- The point before. -/
def prevPt (t : Fin cfg0.N) : Fin cfg0.N := ⟨t.val - 1, Nat.lt_of_le_of_lt (Nat.sub_le _ _) t.isLt⟩
theorem prev_even (t : Fin cfg0.N) (h0 : ¬t.val % 2 = 0) : (prevPt t).val % 2 = 0 := by
  show (t.val - 1) % 2 = 0; omega
theorem batch_prev (t : Fin cfg0.N) (h0 : ¬t.val % 2 = 0) : batchOf (prevPt t) = batchOf t :=
  Fin.ext (by show (t.val - 1) / 4 = t.val / 4; omega)
theorem qRow_prev (t : Fin cfg0.N) (h0 : ¬t.val % 2 = 0) (r : Fin 1024) : qRow (prevPt t) r = qRow t r :=
  Fin.ext (by show (t.val - 1) / 2 % 2 * 1024 + r.val = t.val / 2 % 2 * 1024 + r.val; omega)

theorem prev_max (hx : m ((c : Thread nD τ).loc main_arg0) = arrX x) (hmk : m ((c : Thread nD τ).loc main_arg1) = arrM mk) (t : Fin cfg0.N) (h0 : ¬t.val % 2 = 0) (r : Fin 1024) :
    (outsAt m c (t.val - 1) (Nat.lt_of_le_of_lt (Nat.sub_le _ _) t.isLt)).2.1 (ix2 r (0 : Fin 1)) = ((m0 start (score x mk (batchOf t) (qRow t r)) : ℝ) : EReal) := by
  have h := max_even m c x mk hx hmk (prevPt t) (prev_even t h0) r
  rw [batch_prev t h0, qRow_prev t h0 r] at h
  exact h
theorem prev_den (hx : m ((c : Thread nD τ).loc main_arg0) = arrX x) (hmk : m ((c : Thread nD τ).loc main_arg1) = arrM mk) (t : Fin cfg0.N) (h0 : ¬t.val % 2 = 0) (r : Fin 1024) :
    (outsAt m c (t.val - 1) (Nat.lt_of_le_of_lt (Nat.sub_le _ _) t.isLt)).2.2.1 (ix2 r (0 : Fin 1)) = ((l0 start (score x mk (batchOf t) (qRow t r)) : ℝ) : EReal) := by
  have h := den_even m c x mk hx hmk (prevPt t) (prev_even t h0) r
  rw [batch_prev t h0, qRow_prev t h0 r] at h
  exact h
theorem prev_num (hx : m ((c : Thread nD τ).loc main_arg0) = arrX x) (hmk : m ((c : Thread nD τ).loc main_arg1) = arrM mk) (t : Fin cfg0.N) (h0 : ¬t.val % 2 = 0) (r d : Fin 1024) :
    (outsAt m c (t.val - 1) (Nat.lt_of_le_of_lt (Nat.sub_le _ _) t.isLt)).2.2.2 (ix2 r d) = ((a0 start (score x mk (batchOf t) (qRow t r)) (fun k => x (batchOf t) k d) : ℝ) : EReal) := by
  have h := num_even m c x mk hx hmk (prevPt t) (prev_even t h0) r d
  rw [batch_prev t h0, qRow_prev t h0 r] at h
  exact h

theorem newMax_odd (t : Fin cfg0.N) (h0 : ¬t.val % 2 = 0) (r : Fin 1024) :
    newMax (QT x t) (KT x t) (MT mk t) (fun r => m0 start (score x mk (batchOf t) (qRow t r))) r = m1 start (score x mk (batchOf t) (qRow t r)) := by
  unfold newMax m1; rw [tileScore_fn_odd x mk t h0 r]

/-- The block an odd point stores is the tile-by-tile attention of its query rows. -/
theorem out_odd (hx : m ((c : Thread nD τ).loc main_arg0) = arrX x) (hmk : m ((c : Thread nD τ).loc main_arg1) = arrM mk) (t : Fin cfg0.N) (h0 : ¬t.val % 2 = 0) (r d : Fin 1024) :
    (outsAt m c t.val t.isLt).1 (ix3 (0 : Fin 1) r d)
      = ((online start (score x mk (batchOf t) (qRow t r)) (fun k => x (batchOf t) k d) : ℝ) : EReal) := by
  rw [outsAt_last m c t h0]; unfold lastAt; dsimp only
  rw [oLast_eq, quotient_at]
  rw [newNum_at _ _ _ (QT x t) (KT x t) (MT mk t) (qblk_at m c x hx t) (kblk_at m c x hx t) (mblk_at m c mk hmk t) _ (fun r => m0 start (score x mk (batchOf t) (qRow t r))) (fun r => prev_max m c x mk hx hmk t h0 r)
      _ (fun r d => a0 start (score x mk (batchOf t) (qRow t r)) (fun k => x (batchOf t) k d)) (fun r d => prev_num m c x mk hx hmk t h0 r d) r d,
    newDen_at _ _ _ (QT x t) (KT x t) (MT mk t) (qblk_at m c x hx t) (kblk_at m c x hx t) (mblk_at m c mk hmk t) _ (fun r => m0 start (score x mk (batchOf t) (qRow t r))) (fun r => prev_max m c x mk hx hmk t h0 r)
      _ (fun r => l0 start (score x mk (batchOf t) (qRow t r))) (fun r => prev_den m c x mk hx hmk t h0 r) r]
  rw [newMax_odd x mk t h0 r, tileScore_fn_odd x mk t h0 r]
  have hnum : (Real.exp (m0 start (score x mk (batchOf t) (qRow t r)) - m1 start (score x mk (batchOf t) (qRow t r))) * a0 start (score x mk (batchOf t) (qRow t r)) (fun k => x (batchOf t) k d)
      + ∑ k : Fin 1024, Real.exp ((score x mk (batchOf t) (qRow t r)) (hi k) - m1 start (score x mk (batchOf t) (qRow t r))) * KT x t k d) = a1 start (score x mk (batchOf t) (qRow t r)) (fun k => x (batchOf t) k d) := by
    unfold a1; simp only [KT, kRow_odd t h0]
  have hden : (Real.exp (m0 start (score x mk (batchOf t) (qRow t r)) - m1 start (score x mk (batchOf t) (qRow t r))) * l0 start (score x mk (batchOf t) (qRow t r))
      + ∑ k : Fin 1024, Real.exp ((score x mk (batchOf t) (qRow t r)) (hi k) - m1 start (score x mk (batchOf t) (qRow t r)))) = l1 start (score x mk (batchOf t) (qRow t r)) := rfl
  show Ideal.div ((_ : ℝ) : EReal) ((_ : ℝ) : EReal) = _
  rw [div_coe_coe _ _ (ne_of_gt (by rw [hden]; exact l1_pos start (score x mk (batchOf t) (qRow t r))))]
  refine congrArg (fun a : ℝ => (a : EReal)) ?_
  rw [hnum, hden]
  rfl

end Cert.KernelIdeal.TileValues

end
-- ==== Proof.IdealResult.lean ====
/-
  The kernel's result array on real inputs: at batch b, query row q, feature d it holds the tile-by-tile attention
  online(s, v) of the row's scores s = score(b, q, ·) and the value column v = x(b, ·, d). The block each odd point
  writes back is that function read through the block, and every entry (b, q, d) lies in the block of the odd point
  4b + 2·(q div 1024) + 1, so the write-backs leave the array at that function.
-/
import proofs.«128248_j38302518345838_2_alg».proof.Proof.IdealStats

set_option maxRecDepth 16384

noncomputable section

namespace Cert.KernelIdeal.TileValues

open Cert.KernelIdeal Cert.KernelIdeal.Gen
open Idealize.ShloMosaic Idealize.ShloMosaic.TcCoe Idealize.ShloMosaic.ValueIdx
open SoftmaxAttn

open Cert.KernelIdeal.Tiles
open Idealize.ShloMosaic.Pipeline (Dat)
open Idealize.SL.Sem

variable (m : (ℓ : Loc nD τ sig) → Buf (Elt Ideal) ℓ) (c : Dev nD)
variable (x : Fin 4 → Fin 2048 → Fin 1024 → ℝ) (mk : Fin 4 → Fin 2048 → ℝ)

/-- What the kernel computes: tile-by-tile attention, entry by entry. -/
def tiled : S4x2048x1024.Idx → EReal := arrX (fun b q d => online start (score x mk b q) (fun k => x b k d))

/-- The tile-by-tile attention is attention. -/
theorem tiled_eq_attn : tiled x mk = arrX (attn x mk) := by
  unfold tiled
  refine congrArg arrX (funext fun b => funext fun q => funext fun d => ?_)
  exact online_eq_softmaxRow _ _ _

/-- What an odd point writes back is its block of `tiled`. -/
theorem flushed_eq (hx : m ((c : Thread nD τ).loc main_arg0) = arrX x) (hmk : m ((c : Thread nD τ).loc main_arg1) = arrM mk)
    (t : Fin cfg0.N) (hf : (cfg0.win 3).flush t = true) :
    (dats m 0 c).flushed 3 t = ((cfg0.win 3).blk t).view.read (Elt Ideal) (tiled x mk) := by
  have h1 : t.val % 2 = 1 := (flush0_3 t).mp hf
  have h0 : ¬t.val % 2 = 0 := by omega
  obtain ⟨e0, e1, e2⟩ := idxO t
  show (cfg0.win 3).cut (grid0.coords t) ((dats m 0 c).after 3 t) = _
  rw [after3]
  refine funext fun (j : S1x1024x1024.Idx) => ?_
  show (outsAt m c t.val t.isLt).1 j = tiled x mk (((cfg0.win 3).blk t).view.emb j)
  obtain ⟨z, r, d, rfl⟩ : ∃ (z : Fin 1) (r d : Fin 1024), j = ix3 z r d := ⟨j 0, j 1, j 2, eq_ix3 j⟩
  obtain rfl : z = 0 := Subsingleton.elim _ _
  rw [out_odd m c x mk hx hmk t h0 r d]
  unfold tiled
  refine (arrX_of (fun b q d => online start (score x mk b q) (fun k => x b k d)) _ (batchOf t) (qRow t r) d ?_ ?_ ?_).symm
  · show win0_3.index t (0 : Fin 3) * 1 + 1 * 0 = t.val / 4; omega
  · show win0_3.index t (1 : Fin 3) * 1024 + 1 * r.val = t.val / 2 % 2 * 1024 + r.val; omega
  · show win0_3.index t (2 : Fin 3) * 1024 + 1 * d.val = d.val; omega

/-- An entry is in point t's block iff each coordinate is in the block's range. -/
theorem mem_blk (t : Fin cfg0.N) (i : S4x2048x1024.Idx) :
    i ∈ ((cfg0.win 3).blk t).view.set ↔ ∀ a : Fin 3, win0_3.index t a * S1x1024x1024.size a ≤ (i a).val ∧ (i a).val < win0_3.index t a * S1x1024x1024.size a + S1x1024x1024.size a := by
  show i ∈ ((View.whole main_v1).slice (win0_3.rect t)).set ↔ _
  rw [View.set_slice_whole, Rect.mem_set_unit]
  exact Iff.rfl

/-- The result array after the run. -/
theorem final_out (hx : m ((c : Thread nD τ).loc main_arg0) = arrX x) (hmk : m ((c : Thread nD τ).loc main_arg1) = arrM mk) :
    (dats m 0 c).arrAt 3 cfg0.N = tiled x mk :=
  (dats m 0 c).arrAt_eq_of_cover 3 (tiled x mk) (flushed_eq m c x mk hx hmk) fun i => by
    have hi0 : (i 0).val < 4 := (i 0).isLt
    have hi1 : (i 1).val < 2048 := (i 1).isLt
    have hi2 : (i 2).val < 1024 := (i 2).isLt
    have hN := N16
    obtain ⟨t, ht⟩ : ∃ t : Fin cfg0.N, t.val = 4 * (i 0).val + 2 * ((i 1).val / 1024) + 1 := ⟨⟨4 * (i 0).val + 2 * ((i 1).val / 1024) + 1, by omega⟩, rfl⟩
    obtain ⟨e0, e1, e2⟩ := idxO t
    refine ⟨t, (flush0_3 t).mpr (by omega), ?_⟩
    rw [mem_blk]
    intro a
    match a with
    | ⟨0, _⟩ => show win0_3.index t (0 : Fin 3) * 1 ≤ (i 0).val ∧ (i 0).val < win0_3.index t (0 : Fin 3) * 1 + 1; omega
    | ⟨1, _⟩ => show win0_3.index t (1 : Fin 3) * 1024 ≤ (i 1).val ∧ (i 1).val < win0_3.index t (1 : Fin 3) * 1024 + 1024; omega
    | ⟨2, _⟩ => show win0_3.index t (2 : Fin 3) * 1024 ≤ (i 2).val ∧ (i 2).val < win0_3.index t (2 : Fin 3) * 1024 + 1024; omega

end Cert.KernelIdeal.TileValues

end
-- ==== Proof.RefIsAttn.lean ====
/-
  The reference program is softmax attention over the reals.

  Every stage of the reference is read at an index. With the inputs the coerced real arrays `x` and `mk`,
  the scaled and masked score at (b, q, k) is the coerced real `score x mk b q k` (the scale 1/√1024 is 1/32);
  the max-reduce over the keys, folded from −∞, is the coerced largest score of the row; the exponentials, their
  row sum (a sum of 2048 positive reals, hence nonzero) and the quotient are coerced reals in turn; and the final
  contraction with the value rows is the coerced `softmaxRow`. No algebra is needed: the reference divides
  each weight by the row sum before the product with the values, which is the order the specification is written in.
-/
import proofs.«128248_j38302518345838_2_alg».proof.Proof.Gen.ReferenceIdeal.Read
import proofs.«128248_j38302518345838_2_alg».proof.Proof.Spec
import proofs.«128248_j38302518345838_2_alg».proof.Proof.RefScalars

noncomputable section

namespace Cert.ReferenceIdeal.RefValue

open Cert.ReferenceIdeal Cert.ReferenceIdeal.Gen Cert.ReferenceIdeal.Read Idealize.ShloMosaic
  Idealize.ShloMosaic.ValueIdx SoftmaxAttn

variable (x : Fin 4 → Fin 2048 → Fin 1024 → ℝ) (mk : Fin 4 → Fin 2048 → ℝ)

/-- The coerced input at (b, q, d). -/
theorem arrX_at (y : Fin 4 → Fin 2048 → Fin 1024 → ℝ) (b : Fin 4) (q : Fin 2048) (d : Fin 1024) :
    arrX y (ix3 b q d) = ((y b q d : ℝ) : EReal) := rfl

/-- The coerced mask at (b, 0, k). -/
theorem arrM_at (b : Fin 4) (k : Fin 2048) : arrM mk (ix3 b (0 : Fin 1) k) = ((mk b k : ℝ) : EReal) := rfl

/-- The scale 1 / √1024 the reference computes is 1/32. -/
theorem scale_read (i : S_.Idx) : val_main_v1 (F := Ideal) i = (((1 : ℝ) / 32 : ℝ) : EReal) := by
  rw [val_main_v1_apply, val_main_cst_0_apply, val_main_v0_apply, val_main_cst_apply]
  exact scale_eq

/-- The scaled, masked score of query q against key k. -/
theorem score_read (b : Fin 4) (q k : Fin 2048) :
    val_main_v6 (F := Ideal) (arrX x) (arrM mk) (ix3 b q k) = ((score x mk b q k : ℝ) : EReal) := by
  have e5 : idx_main_v5 (ix3 b q k) = ix3 b (0 : Fin 1) k :=
    funext fun a => Fin.ext (by match a with | ⟨0, _⟩ => rfl | ⟨1, _⟩ => rfl | ⟨2, _⟩ => rfl)
  have el : ∀ d : Fin 1024, lidx_main_v2 (ix3 b q k) d = ix3 b q d := fun d =>
    funext fun a => Fin.ext (by match a with | ⟨0, _⟩ => rfl | ⟨1, _⟩ => rfl | ⟨2, _⟩ => rfl)
  have er : ∀ d : Fin 1024, ridx_main_v2 (ix3 b q k) d = ix3 b k d := fun d =>
    funext fun a => Fin.ext (by match a with | ⟨0, _⟩ => rfl | ⟨1, _⟩ => rfl | ⟨2, _⟩ => rfl)
  rw [val_main_v6_apply, val_main_v4_apply, val_main_v5_apply, val_main_v3_apply, val_main_v2_apply, scale_read,
    e5, arrM_at]
  simp only [el, er, arrX_at, Ideal.addf_def, Ideal.mulf_def]
  unfold score
  rw [EReal.coe_add, EReal.coe_mul, coe_sum]
  simp only [EReal.coe_mul]

/-- The result index (b, q) of the reduction over the keys, with key k put back, is (b, q, k). -/
theorem lift_key (h : S4x2048x2048.Reduces [2] S4x2048) (b : Fin 4) (q : Fin 2048) (k : Fin (S4x2048x2048.size 2)) :
    h.lift (ix2 b q) k = ix3 b q (⟨k.val, k.isLt⟩ : Fin 2048) := by
  funext c; apply Fin.ext
  match c with
  | ⟨0, _⟩ => rfl
  | ⟨1, _⟩ => rfl
  | ⟨2, _⟩ => rfl

/-- The max-reduce over the keys, from −∞: the largest score of the row. -/
theorem rowMax_read (b : Fin 4) (q : Fin 2048) :
    val_main_v7 (F := Ideal) (arrX x) (arrM mk) (ix2 b q) = ((rowMax (score x mk b q) : ℝ) : EReal) := by
  have h : S4x2048x2048.Reduces [2] S4x2048 := by decide
  have hf : (val_main_v6 (F := Ideal) (arrX x) (arrM mk) ∘ h.lift (ix2 b q))
      = fun k : Fin 2048 => ((score x mk b q k : ℝ) : EReal) := funext fun k => by
    show val_main_v6 (F := Ideal) (arrX x) (arrM mk) (h.lift (ix2 b q) k) = _
    rw [lift_key h b q k]; exact score_read x mk b q _
  unfold val_main_v7
  refine (Host.reduce_eq_fold_single FloatOps.maximumf _ _ reducesTo_S4x2048x2048_S4x2048_d2 h h_S_ (ix2 b q)).trans ?_
  refine Eq.trans ?_ (fold_max_coe (score x mk b q))
  exact congrArg₂ (fun a f => Finset.fold max a f (Finset.univ : Finset (Fin 2048))) ofBits_neg_inf hf

/-- The maximum of −∞ and the row's largest score is the row's largest score. -/
theorem rowMax_read' (b : Fin 4) (q : Fin 2048) :
    val_main_v9 (F := Ideal) (arrX x) (arrM mk) (ix2 b q) = ((rowMax (score x mk b q) : ℝ) : EReal) := by
  rw [val_main_v9_apply, val_main_v8_apply, val_main_cst_2_apply, rowMax_read]
  simp only [Ideal.ofBits_def, Ideal.maximumf_def]
  rw [ofBits_neg_inf]
  exact max_bot_left _

/-- The exponential of a score less its row's largest score. -/
theorem exp_read (b : Fin 4) (q k : Fin 2048) :
    val_main_v13 (F := Ideal) (arrX x) (arrM mk) (ix3 b q k)
      = ((Real.exp (score x mk b q k - rowMax (score x mk b q)) : ℝ) : EReal) := by
  have e11 : idx_main_v10 (idx_main_v11 (ix3 b q k)) = ix2 b q :=
    funext fun a => Fin.ext (by match a with | ⟨0, _⟩ => rfl | ⟨1, _⟩ => rfl)
  rw [val_main_v13_apply, val_main_v12_apply, val_main_v11_apply, val_main_v10_apply, e11, rowMax_read', score_read]
  simp only [Ideal.subf_def, Ideal.hostUnary_exp_def]
  rw [← EReal.coe_sub, Ideal.exp_coe]

/-- The row sum of the exponentials. -/
theorem denom_read (b : Fin 4) (q : Fin 2048) :
    val_main_v14 (F := Ideal) (arrX x) (arrM mk) (ix2 b q)
      = ((∑ j : Fin 2048, Real.exp (score x mk b q j - rowMax (score x mk b q)) : ℝ) : EReal) := by
  have e14 : ∀ k : Fin 2048, idx_main_v14 (ix2 b q) k = ix3 b q k := fun k =>
    funext fun a => Fin.ext (by match a with | ⟨0, _⟩ => rfl | ⟨1, _⟩ => rfl | ⟨2, _⟩ => rfl)
  rw [val_main_v14_apply, val_main_cst_3_apply]
  simp only [e14, exp_read x mk, Ideal.ofBits_def]
  rw [Ideal.ofBits_zero_f32, zero_add, coe_sum]

/-- The softmax weight of key k for query q: the exponential over the row sum, a sum of positive reals. -/
theorem weight_read (b : Fin 4) (q k : Fin 2048) :
    val_main_v17 (F := Ideal) (arrX x) (arrM mk) (ix3 b q k)
      = ((Real.exp (score x mk b q k - rowMax (score x mk b q))
          / ∑ j : Fin 2048, Real.exp (score x mk b q j - rowMax (score x mk b q)) : ℝ) : EReal) := by
  have e16 : idx_main_v15 (idx_main_v16 (ix3 b q k)) = ix2 b q :=
    funext fun a => Fin.ext (by match a with | ⟨0, _⟩ => rfl | ⟨1, _⟩ => rfl)
  rw [val_main_v17_apply, val_main_v16_apply, val_main_v15_apply, e16, denom_read, exp_read]
  simp only [Ideal.hostDivf_def]
  exact div_coe_coe _ _ (ne_of_gt (Finset.sum_pos (fun j _ => Real.exp_pos _) Finset.univ_nonempty))

/-- On coerced real inputs the reference's result is the coerced softmax attention of the specification. -/
theorem ref_eq_attn (x : Fin 4 → Fin 2048 → Fin 1024 → ℝ) (mk : Fin 4 → Fin 2048 → ℝ) :
    Cert.ReferenceIdeal.Read.val_main_v18 (F := Ideal) (SoftmaxAttn.arrX x) (SoftmaxAttn.arrM mk)
      = SoftmaxAttn.arrX (SoftmaxAttn.attn x mk) := by
  funext i
  obtain ⟨b, q, d, rfl⟩ : ∃ (b : Fin 4) (q : Fin 2048) (d : Fin 1024), i = ix3 b q d := ⟨i 0, i 1, i 2, eq_ix3 i⟩
  have el : ∀ k : Fin 2048, lidx_main_v18 (ix3 b q d) k = ix3 b q k := fun k =>
    funext fun a => Fin.ext (by match a with | ⟨0, _⟩ => rfl | ⟨1, _⟩ => rfl | ⟨2, _⟩ => rfl)
  have er : ∀ k : Fin 2048, ridx_main_v18 (ix3 b q d) k = ix3 b k d := fun k =>
    funext fun a => Fin.ext (by match a with | ⟨0, _⟩ => rfl | ⟨1, _⟩ => rfl | ⟨2, _⟩ => rfl)
  rw [val_main_v18_apply, arrX_at]
  simp only [el, er, weight_read x mk, arrX_at]
  unfold attn softmaxRow
  rw [coe_sum]
  simp only [EReal.coe_mul]

end Cert.ReferenceIdeal.RefValue

end
-- ==== Proof.FiniteInputs.lean ====
/-
  From the finiteness precondition to real inputs.

  The precondition is the conjunction of two "every entry has absolute value below +∞" tests, one per input
  array, each an and-reduction over all axes of the entrywise comparison |entry| < +∞. If the conjunction is 1,
  both reductions are 1, so every comparison is 1; an extended real whose absolute value max(y, −y) lies strictly
  below +∞ is neither −∞ nor +∞, hence a real. Choosing that real at every index writes each input array as
  the coercion of a real array.
-/
import proofs.«128248_j38302518345838_2_alg».proof.Defs
import proofs.«128248_j38302518345838_2_alg».proof.Proof.Gen.Pre_finite_inputs
import proofs.«128248_j38302518345838_2_alg».proof.Proof.Spec
import Idealize.ShloMosaic.Lib.ReduceAll
import Idealize.ShloMosaic.Lib.ValueIdx

noncomputable section

namespace Cert.FiniteInputs

open Idealize.ShloMosaic Idealize.ShloMosaic.ValueIdx

/-- The rank-0 shape has exactly one index. -/
instance : Subsingleton Cert.Pre_finite_inputs.S_.Idx := ⟨fun a b => funext fun d => d.elim0⟩

/-- The pattern of `+inf` denotes +∞. -/
theorem ofBits_inf : Ideal.ofBits .f32 0x7F800000#32 = (⊤ : EReal) := by
  simp [Ideal.ofBits, Ideal.ieee]

/-- An extended real whose absolute value compares strictly below +∞ is a real. -/
theorem real_of_abs_lt (y : EReal) (h : Ideal.cmp .olt (max y (-y)) (Ideal.ofBits .f32 0x7F800000#32) = 1#1) :
    ∃ r : ℝ, y = (r : EReal) := by
  rw [ofBits_inf] at h
  induction y using EReal.rec with
  | bot => exact absurd h (by simp [Ideal.cmp])
  | coe r => exact ⟨r, rfl⟩
  | top => exact absurd h (by simp [Ideal.cmp])

/-- Under the finiteness precondition both input arrays are coerced real arrays. -/
theorem reals_of_pre [Cert.Pre_finite_inputs.Facts]
    (X : FVec Ideal Cert.Pre_finite_inputs.S4x2048x1024 .f32) (M : FVec Ideal Cert.Pre_finite_inputs.S4x1x2048 .f32)
    (h : Cert.Pre_finite_inputs.fn (F := Ideal) X M = (fun _ => 1#1)) :
    ∃ (x : Fin 4 → Fin 2048 → Fin 1024 → ℝ) (mk : Fin 4 → Fin 2048 → ℝ),
      X = SoftmaxAttn.arrX x ∧ M = SoftmaxAttn.arrM mk := by
  have e := congrFun h ix0
  dsimp only [Cert.Pre_finite_inputs.fn] at e
  obtain ⟨e0, e1⟩ := IntOp.andi_eq_one.1 e
  have hX : ∀ i, ∃ r : ℝ, X i = (r : EReal) := fun i =>
    real_of_abs_lt (X i) (Host.reduce_andi_all _ _ _ _ ix0 e0 i)
  have hM : ∀ i, ∃ r : ℝ, M i = (r : EReal) := fun i =>
    real_of_abs_lt (M i) (Host.reduce_andi_all _ _ _ _ ix0 e1 i)
  choose f hf using hX
  choose g hg using hM
  refine ⟨fun b q d => f (ix3 b q d), fun b k => g (ix3 b (0 : Fin 1) k), ?_, ?_⟩
  · funext i
    obtain ⟨b, q, d, rfl⟩ : ∃ (b : Fin 4) (q : Fin 2048) (d : Fin 1024), i = ix3 b q d := ⟨i 0, i 1, i 2, eq_ix3 i⟩
    exact hf _
  · funext i
    obtain ⟨b, z, k, rfl⟩ : ∃ (b : Fin 4) (z : Fin 1) (k : Fin 2048), i = ix3 b z k := ⟨i 0, i 1, i 2, eq_ix3 i⟩
    obtain rfl : z = 0 := Subsingleton.elim _ _
    exact hg _

end Cert.FiniteInputs

end
-- ==== Proof.lean ====
/-
  Attention with Q = K = V = x and an additive key mask, computed by a kernel that walks the keys in two tiles of 1024
  with a running row maximum, denominator and numerator, against the reference that takes the softmax of each whole
  score row. Over the extended reals, on finite inputs, both compute
      out(b, q, d) = ∑_k ( e^{s(b,q,k) − M} / ∑_j e^{s(b,q,j) − M} ) · x(b, k, d),
      s(b, q, k) = (∑_d x(b,q,d)·x(b,k,d)) / 32 + mask(b, k),   M = max_k s(b, q, k).
  The kernel side: each grid point's body is run once per kind of point (first or last key tile), the three running
  statistics are carried between points as the region's invariant, the two windows that read the one converted array
  each hold half of it, and the result array is assembled from the blocks the last-key-tile points write back. On
  real inputs those blocks are the tile-by-tile recurrence, which equals the softmax quotient because
  e^{m0 − m1}·e^{s − m0} = e^{s − m1} and the quotient does not depend on the shift (the finite stand-in for minus
  infinity the maxima start from is just another shift). The scale is exact: 1024 is a perfect square, so the
  reference's 1/√1024 is the kernel's 1/32. Finiteness of the inputs is used to write them as real arrays.
  The one rewrite of the idealization, widening back a value just narrowed, is the identity at the extended reals.
-/
import proofs.«128248_j38302518345838_2_alg».proof.Defs
import proofs.«128248_j38302518345838_2_alg».proof.Proof.WordRun
import proofs.«128248_j38302518345838_2_alg».proof.Proof.IdealResult
import proofs.«128248_j38302518345838_2_alg».proof.Proof.RefIsAttn
import proofs.«128248_j38302518345838_2_alg».proof.Proof.FiniteInputs
import proofs.«128248_j38302518345838_2_alg».proof.Proof.Gen.ReferenceIdeal
import proofs.«128248_j38302518345838_2_alg».proof.Proof.Gen.Pre_finite_inputs
import Idealize.ShloMosaic.Adequacy
import Idealize.ShloMosaic.Init

noncomputable section

namespace Cert.Proof

open Idealize.ShloMosaic Idealize.SL.Sem SoftmaxAttn

/-- The word-level kernel runs to the end, faults nowhere and leaves its arguments unchanged. -/
theorem frame_word : Cert.frame_Kernel := fun m ρ _ => Cert.Kernel.Tiles.frame (F := Bits) m ρ

/-- So does its idealization. -/
theorem frame_ideal : Cert.frame_KernelIdeal := fun m ρ _ => Cert.KernelIdeal.Tiles.frame (F := Ideal) m ρ

/-- The reference is a straight line of host operations: its run, with the result dropped. -/
theorem frame_ref : Cert.frame_ReferenceIdeal := fun m ρ _ =>
  (θ_run Cert.ReferenceIdeal.defs _ _).mono (fun _ h c => (h c).2) (Cert.ReferenceIdeal.Value.run (F := Ideal) m ρ)

/-- Narrowing the weights and widening them back is the identity on extended reals, and the rounding at words. -/
theorem preserves : Cert.preserves_Kernel_KernelIdeal :=
  IdealRules.truncf_extf.statement Cert.KernelIdeal.S1024x1024 .f32 .bf16

/-- On finite inputs the kernel's result array and the reference's are the same real attention, entry by entry. -/
theorem algebraic : Cert.algebraic_KernelIdeal_ReferenceIdeal := by
  intro m ρ m' ρ' hpre hagree
  choose x mk hx hmk using fun c => Cert.FiniteInputs.reals_of_pre _ _ (hpre c)
  refine ⟨fun c => arrX (attn (x c) (mk c)), ?_, ?_⟩
  · refine (θ_run Cert.KernelIdeal.defs _ _).mono (fun r h c => ⟨?_, (h c).2.1, (h c).2.2⟩) (Cert.KernelIdeal.Tiles.run_main (F := Ideal) m ρ)
    rw [(h c).1, Cert.KernelIdeal.TileValues.final_out m c (x c) (mk c) (hx c) (hmk c), Cert.KernelIdeal.TileValues.tiled_eq_attn]
  · refine (θ_run Cert.ReferenceIdeal.defs _ _).mono (fun r h c => ⟨?_, (h c).2.1, (h c).2.2⟩) (Cert.ReferenceIdeal.Value.run (F := Ideal) m' ρ')
    rw [(h c).1, Cert.ReferenceIdeal.Read.val_main_v18_eq, (hagree c).1, (hagree c).2, hx c, hmk c]
    exact Cert.ReferenceIdeal.RefValue.ref_eq_attn (x c) (mk c)

theorem claim : Cert.Claim :=
  ⟨Cert.Kernel.Gen.facts, Cert.KernelIdeal.Gen.facts, Cert.ReferenceIdeal.Gen.facts, Cert.Pre_finite_inputs.Gen.facts,
    frame_word, frame_ideal, frame_ref, preserves, algebraic⟩

end Cert.Proof

end
